-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x30000 : Shape := ⟨3, ![2, 512, 30000]⟩
abbrev S30000x256 : Shape := ⟨2, ![30000, 256]⟩
abbrev S4x128 : Shape := ⟨2, ![4, 128]⟩
abbrev S256x256 : Shape := ⟨2, ![256, 256]⟩
abbrev S256 : Shape := ⟨1, ![256]⟩
abbrev S480000 : Shape := ⟨1, ![480000]⟩
abbrev S_ : Shape := ⟨0, ![]⟩

class Facts : Prop where
  bcast_S_S2x512x30000 : S_.BroadcastsInDim S2x512x30000 (![] : Fin 0 → Fin S2x512x30000.rank)
  reducesTo_S2x512x30000_S_d0_1_2 : S2x512x30000.ReducesTo [0, 1, 2] S_
  h_S_ : 0 < S_.numel
  bcast_S_S30000x256 : S_.BroadcastsInDim S30000x256 (![] : Fin 0 → Fin S30000x256.rank)
  reducesTo_S30000x256_S_d0_1 : S30000x256.ReducesTo [0, 1] S_
  bcast_S_S4x128 : S_.BroadcastsInDim S4x128 (![] : Fin 0 → Fin S4x128.rank)
  reducesTo_S4x128_S_d0_1 : S4x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S480000 : S_.BroadcastsInDim S480000 (![] : Fin 0 → Fin S480000.rank)
  reducesTo_S480000_S_d0 : S480000.ReducesTo [0] S_

variable [Facts]

def fn_part2 {F : FTy → Type} [FloatOps F] (main_arg7 : FVec F S480000 .f32) (main_arg8 : FVec F S480000 .f32) (main_v33 : IVec S_ 1) : IVec S_ 1 :=
  let main_v34 : FVec F S480000 .f32 := Host.absf main_arg7
  let main_cst_12 : FVec F S_ .f32 := constant S_ .f32 0x7F800000#32
  let main_v35 : FVec F S480000 .f32 := broadcastInDim S480000 ![] bcast_S_S480000 main_cst_12
  let main_v36 : IVec S480000 1 := cmpf .olt main_v34 main_v35
  let main_c_13 : IVec S_ 1 := constantI S_ 1 1#1
  let main_v37 : IVec S_ 1 := (fun x v => Host.reduce IntOp.andi x v reducesTo_S480000_S_d0 h_S_) main_v36 main_c_13
  let main_v38 : IVec S_ 1 := andi main_v33 main_v37
  let main_v39 : FVec F S480000 .f32 := Host.absf main_arg8
  let main_cst_14 : FVec F S_ .f32 := constant S_ .f32 0x7F800000#32
  let main_v40 : FVec F S480000 .f32 := broadcastInDim S480000 ![] bcast_S_S480000 main_cst_14
  let main_v41 : IVec S480000 1 := cmpf .olt main_v39 main_v40
  let main_c_15 : IVec S_ 1 := constantI S_ 1 1#1
  let main_v42 : IVec S_ 1 := (fun x v => Host.reduce IntOp.andi x v reducesTo_S480000_S_d0 h_S_) main_v41 main_c_15
  let main_v43 : IVec S_ 1 := andi main_v38 main_v42
  main_v43

def fn_part1 {F : FTy → Type} [FloatOps F] (main_arg4 : FVec F S4x128 .f32) (main_arg5 : FVec F S256x256 .f32) (main_arg6 : FVec F S256 .f32) (main_arg7 : FVec F S480000 .f32) (main_arg8 : FVec F S480000 .f32) (main_v13 : IVec S_ 1) (main_v16 : IVec S30000x256 1) : IVec S_ 1 :=
  let main_c_5 : IVec S_ 1 := constantI S_ 1 1#1
  let main_v17 : IVec S_ 1 := (fun x v => Host.reduce IntOp.andi x v reducesTo_S30000x256_S_d0_1 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S2x512x30000 .f32) (main_arg1 : FVec F S30000x256 .f32) (main_arg2 : FVec F S4x128 .f32) (main_arg3 : FVec F S30000x256 .f32) (main_arg4 : FVec F S4x128 .f32) (main_arg5 : FVec F S256x256 .f32) (main_arg6 : FVec F S256 .f32) (main_arg7 : FVec F S480000 .f32) (main_arg8 : FVec F S480000 .f32) (main_arg9 : IVec S480000 32) (main_arg10 : IVec S480000 32) (main_arg11 : IVec S480000 32) (main_arg12 : IVec S480000 32) : IVec S_ 1 :=
  let main_v0 : FVec F S2x512x30000 .f32 := Host.absf main_arg0
  let main_cst : FVec F S_ .f32 := constant S_ .f32 0x7F800000#32
  let main_v1 : FVec F S2x512x30000 .f32 := broadcastInDim S2x512x30000 ![] bcast_S_S2x512x30000 main_cst
  let main_v2 : IVec S2x512x30000 1 := cmpf .olt main_v0 main_v1
  let main_c : IVec S_ 1 := constantI S_ 1 1#1
  let main_v3 : IVec S_ 1 := (fun x v => Host.reduce IntOp.andi x v reducesTo_S2x512x30000_S_d0_1_2 h_S_) main_v2 main_c
  let main_v4 : FVec F S30000x256 .f32 := Host.absf main_arg1
  let main_cst_0 : FVec F S_ .f32 := constant S_ .f32 0x7F800000#32
  let main_v5 : FVec F S30000x256 .f32 := broadcastInDim S30000x256 ![] bcast_S_S30000x256 main_cst_0
  let main_v6 : IVec S30000x256 1 := cmpf .olt main_v4 main_v5
  let main_c_1 : IVec S_ 1 := constantI S_ 1 1#1
  let main_v7 : IVec S_ 1 := (fun x v => Host.reduce IntOp.andi x v reducesTo_S30000x256_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S30000x256 .f32 := Host.absf main_arg3
  let main_cst_4 : FVec F S_ .f32 := constant S_ .f32 0x7F800000#32
  let main_v15 : FVec F S30000x256 .f32 := broadcastInDim S30000x256 ![] bcast_S_S30000x256 main_cst_4
  let main_v16 : IVec S30000x256 1 := cmpf .olt main_v14 main_v15
  fn_part1 (F := F) main_arg4 main_arg5 main_arg6 main_arg7 main_arg8 main_v13 main_v16
-- ==== Kernel.lean ====
abbrev S2x512x30000 : Shape := ⟨3, ![2, 512, 30000]⟩
abbrev S30000x256 : Shape := ⟨2, ![30000, 256]⟩
abbrev S4x128 : Shape := ⟨2, ![4, 128]⟩
abbrev S256x256 : Shape := ⟨2, ![256, 256]⟩
abbrev S256 : Shape := ⟨1, ![256]⟩
abbrev S480000 : Shape := ⟨1, ![480000]⟩
abbrev S480000x1 : Shape := ⟨2, ![480000, 1]⟩
abbrev S_ : Shape := ⟨0, ![]⟩
abbrev S480000x256 : Shape := ⟨2, ![480000, 256]⟩
abbrev S30000x4x64 : Shape := ⟨3, ![30000, 4, 64]⟩
abbrev S4x64 : Shape := ⟨2, ![4, 64]⟩
abbrev S1x4x64 : Shape := ⟨3, ![1, 4, 64]⟩
abbrev S30000x4 : Shape := ⟨2, ![30000, 4]⟩
abbrev S480000x4x64 : Shape := ⟨3, ![480000, 4, 64]⟩
abbrev S480000x4 : Shape := ⟨2, ![480000, 4]⟩
abbrev S480000x4x1 : Shape := ⟨3, ![480000, 4, 1]⟩
abbrev S1x256 : Shape := ⟨2, ![1, 256]⟩
abbrev S2x512x256 : Shape := ⟨3, ![2, 512, 256]⟩
abbrev S1x512x4096 : Shape := ⟨3, ![1, 512, 4096]⟩
abbrev S4096x256 : Shape := ⟨2, ![4096, 256]⟩
abbrev S1x512x256 : Shape := ⟨3, ![1, 512, 256]⟩
abbrev S512x256 : Shape := ⟨2, ![512, 256]⟩
abbrev S512x4096 : Shape := ⟨2, ![512, 4096]⟩

abbrev nBuf : Space → Nat
  | .hbm => 199
  | .vmem => 8
  | .smem => 0
  | _ => 0

abbrev hbmTy0_0 (i : Nat) : BufTy := match i % 128 with
  | 0 => ⟨S2x512x30000, .f32⟩
  | 1 => ⟨S30000x256, .f32⟩
  | 2 => ⟨S4x128, .f32⟩
  | 3 => ⟨S30000x256, .f32⟩
  | 4 => ⟨S4x128, .f32⟩
  | 5 => ⟨S256x256, .f32⟩
  | 6 => ⟨S256, .f32⟩
  | 7 => ⟨S480000, .f32⟩
  | 8 => ⟨S480000, .f32⟩
  | 9 => ⟨S480000, .i32⟩
  | 10 => ⟨S480000, .i32⟩
  | 11 => ⟨S480000, .i32⟩
  | 12 => ⟨S480000, .i32⟩
  | 13 => ⟨S480000x1, .f32⟩
  | 14 => ⟨S_, .i32⟩
  | 15 => ⟨S480000, .i32⟩
  | 16 => ⟨S480000, .i1⟩
  | 17 => ⟨S_, .i32⟩
  | 18 => ⟨S480000, .i32⟩
  | 19 => ⟨S480000, .i32⟩
  | 20 => ⟨S480000, .i32⟩
  | 21 => ⟨S480000x1, .i32⟩
  | 22 => ⟨S480000x256, .f32⟩
  | 23 => ⟨S480000x256, .f32⟩
  | 24 => ⟨S480000x256, .f32⟩
  | 25 => ⟨S_, .f32⟩
  | 26 => ⟨S30000x256, .f32⟩
  | 27 => ⟨S480000x1, .i32⟩
  | 28 => ⟨S30000x256, .f32⟩
  | 29 => ⟨S30000x4x64, .f32⟩
  | 30 => ⟨S4x64, .f32⟩
  | 31 => ⟨S4x64, .f32⟩
  | 32 => ⟨S1x4x64, .f32⟩
  | 33 => ⟨S30000x4x64, .f32⟩
  | 34 => ⟨S30000x4x64, .f32⟩
  | 35 => ⟨S_, .f32⟩
  | 36 => ⟨S30000x4, .f32⟩
  | 37 => ⟨S1x4x64, .f32⟩
  | 38 => ⟨S30000x4x64, .f32⟩
  | 39 => ⟨S30000x4x64, .f32⟩
  | 40 => ⟨S_, .f32⟩
  | 41 => ⟨S30000x4, .f32⟩
  | 42 => ⟨S_, .i32⟩
  | 43 => ⟨S480000, .i32⟩
  | 44 => ⟨S480000, .i1⟩
  | 45 => ⟨S_, .i32⟩
  | 46 => ⟨S480000, .i32⟩
  | 47 => ⟨S480000, .i32⟩
  | 48 => ⟨S480000, .i32⟩
  | 49 => ⟨S480000x1, .i32⟩
  | 50 => ⟨S480000x4x64, .f32⟩
  | 51 => ⟨S_, .i32⟩
  | 52 => ⟨S480000, .i32⟩
  | 53 => ⟨S480000, .i1⟩
  | 54 => ⟨S_, .i32⟩
  | 55 => ⟨S480000, .i32⟩
  | 56 => ⟨S480000, .i32⟩
  | 57 => ⟨S480000, .i32⟩
  | 58 => ⟨S480000x1, .i32⟩
  | 59 => ⟨S480000x4, .f32⟩
  | 60 => ⟨S_, .i32⟩
  | 61 => ⟨S480000, .i32⟩
  | 62 => ⟨S480000, .i1⟩
  | 63 => ⟨S_, .i32⟩
  | 64 => ⟨S480000, .i32⟩
  | 65 => ⟨S480000, .i32⟩
  | 66 => ⟨S480000, .i32⟩
  | 67 => ⟨S480000x1, .i32⟩
  | 68 => ⟨S480000x4, .f32⟩
  | 69 => ⟨S480000x4, .f32⟩
  | 70 => ⟨S_, .f32⟩
  | 71 => ⟨S480000x4, .f32⟩
  | 72 => ⟨S480000x4, .i1⟩
  | 73 => ⟨S_, .f32⟩
  | 74 => ⟨S480000x4, .f32⟩
  | 75 => ⟨S480000x4, .f32⟩
  | 76 => ⟨S480000x4, .f32⟩
  | 77 => ⟨S480000x4, .f32⟩
  | 78 => ⟨S_, .f32⟩
  | 79 => ⟨S30000x4, .f32⟩
  | 80 => ⟨S480000x1, .i32⟩
  | 81 => ⟨S30000x4, .f32⟩
  | 82 => ⟨S_, .i32⟩
  | 83 => ⟨S480000, .i32⟩
  | 84 => ⟨S480000, .i1⟩
  | 85 => ⟨S_, .i32⟩
  | 86 => ⟨S480000, .i32⟩
  | 87 => ⟨S480000, .i32⟩
  | 88 => ⟨S480000, .i32⟩
  | 89 => ⟨S480000x1, .i32⟩
  | 90 => ⟨S480000x4, .f32⟩
  | 91 => ⟨S_, .f32⟩
  | 92 => ⟨S480000x4, .f32⟩
  | 93 => ⟨S480000x4, .f32⟩
  | 94 => ⟨S480000x4, .f32⟩
  | 95 => ⟨S480000x4x1, .f32⟩
  | 96 => ⟨S480000x4x64, .f32⟩
  | 97 => ⟨S480000x4x64, .f32⟩
  | 98 => ⟨S_, .f32⟩
  | 99 => ⟨S30000x4x64, .f32⟩
  | 100 => ⟨S480000x1, .i32⟩
  | 101 => ⟨S30000x4x64, .f32⟩
  | 102 => ⟨S30000x256, .f32⟩
  | 103 => ⟨S480000x1, .f32⟩
  | 104 => ⟨S_, .i32⟩
  | 105 => ⟨S480000, .i32⟩
  | 106 => ⟨S480000, .i1⟩
  | 107 => ⟨S_, .i32⟩
  | 108 => ⟨S480000, .i32⟩
  | 109 => ⟨S480000, .i32⟩
  | 110 => ⟨S480000, .i32⟩
  | 111 => ⟨S480000x1, .i32⟩
  | 112 => ⟨S480000x256, .f32⟩
  | 113 => ⟨S480000x256, .f32⟩
  | 114 => ⟨S480000x256, .f32⟩
  | 115 => ⟨S_, .f32⟩
  | 116 => ⟨S30000x256, .f32⟩
  | 117 => ⟨S480000x1, .i32⟩
  | 118 => ⟨S30000x256, .f32⟩
  | 119 => ⟨S30000x4x64, .f32⟩
  | 120 => ⟨S4x64, .f32⟩
  | 121 => ⟨S4x64, .f32⟩
  | 122 => ⟨S1x4x64, .f32⟩
  | 123 => ⟨S30000x4x64, .f32⟩
  | 124 => ⟨S30000x4x64, .f32⟩
  | 125 => ⟨S_, .f32⟩
  | 126 => ⟨S30000x4, .f32⟩
  | 127 => ⟨S1x4x64, .f32⟩
  | _ => ⟨S2x512x30000, .f32⟩

abbrev hbmTy0_1 (i : Nat) : BufTy := match i % 128 with
  | 0 => ⟨S30000x4x64, .f32⟩
  | 1 => ⟨S30000x4x64, .f32⟩
  | 2 => ⟨S_, .f32⟩
  | 3 => ⟨S30000x4, .f32⟩
  | 4 => ⟨S_, .i32⟩
  | 5 => ⟨S480000, .i32⟩
  | 6 => ⟨S480000, .i1⟩
  | 7 => ⟨S_, .i32⟩
  | 8 => ⟨S480000, .i32⟩
  | 9 => ⟨S480000, .i32⟩
  | 10 => ⟨S480000, .i32⟩
  | 11 => ⟨S480000x1, .i32⟩
  | 12 => ⟨S480000x4x64, .f32⟩
  | 13 => ⟨S_, .i32⟩
  | 14 => ⟨S480000, .i32⟩
  | 15 => ⟨S480000, .i1⟩
  | 16 => ⟨S_, .i32⟩
  | 17 => ⟨S480000, .i32⟩
  | 18 => ⟨S480000, .i32⟩
  | 19 => ⟨S480000, .i32⟩
  | 20 => ⟨S480000x1, .i32⟩
  | 21 => ⟨S480000x4, .f32⟩
  | 22 => ⟨S_, .i32⟩
  | 23 => ⟨S480000, .i32⟩
  | 24 => ⟨S480000, .i1⟩
  | 25 => ⟨S_, .i32⟩
  | 26 => ⟨S480000, .i32⟩
  | 27 => ⟨S480000, .i32⟩
  | 28 => ⟨S480000, .i32⟩
  | 29 => ⟨S480000x1, .i32⟩
  | 30 => ⟨S480000x4, .f32⟩
  | 31 => ⟨S480000x4, .f32⟩
  | 32 => ⟨S_, .f32⟩
  | 33 => ⟨S480000x4, .f32⟩
  | 34 => ⟨S480000x4, .i1⟩
  | 35 => ⟨S_, .f32⟩
  | 36 => ⟨S480000x4, .f32⟩
  | 37 => ⟨S480000x4, .f32⟩
  | 38 => ⟨S480000x4, .f32⟩
  | 39 => ⟨S480000x4, .f32⟩
  | 40 => ⟨S_, .f32⟩
  | 41 => ⟨S30000x4, .f32⟩
  | 42 => ⟨S480000x1, .i32⟩
  | 43 => ⟨S30000x4, .f32⟩
  | 44 => ⟨S_, .i32⟩
  | 45 => ⟨S480000, .i32⟩
  | 46 => ⟨S480000, .i1⟩
  | 47 => ⟨S_, .i32⟩
  | 48 => ⟨S480000, .i32⟩
  | 49 => ⟨S480000, .i32⟩
  | 50 => ⟨S480000, .i32⟩
  | 51 => ⟨S480000x1, .i32⟩
  | 52 => ⟨S480000x4, .f32⟩
  | 53 => ⟨S_, .f32⟩
  | 54 => ⟨S480000x4, .f32⟩
  | 55 => ⟨S480000x4, .f32⟩
  | 56 => ⟨S480000x4, .f32⟩
  | 57 => ⟨S480000x4x1, .f32⟩
  | 58 => ⟨S480000x4x64, .f32⟩
  | 59 => ⟨S480000x4x64, .f32⟩
  | 60 => ⟨S_, .f32⟩
  | 61 => ⟨S30000x4x64, .f32⟩
  | 62 => ⟨S480000x1, .i32⟩
  | 63 => ⟨S30000x4x64, .f32⟩
  | 64 => ⟨S30000x256, .f32⟩
  | 65 => ⟨S30000x256, .f32⟩
  | 66 => ⟨S256x256, .f32⟩
  | 67 => ⟨S30000x256, .f32⟩
  | 68 => ⟨S30000x256, .bf16⟩
  | 69 => ⟨S1x256, .f32⟩
  | 70 => ⟨S2x512x256, .f32⟩
  | _ => ⟨S2x512x30000, .f32⟩

abbrev hbmTy (i : Nat) : BufTy := match i / 128 with
  | 0 => hbmTy0_0 i
  | 1 => hbmTy0_1 i
  | _ => ⟨S2x512x30000, .f32⟩

abbrev bufTy : (tb : Table) → Fin (tcTables nBuf tb) → BufTy
  | .hbm, ⟨i, _⟩ => hbmTy i
  | .local _ .vmem, ⟨0, _⟩ => ⟨S1x512x4096, .f32⟩
  | .local _ .vmem, ⟨1, _⟩ => ⟨S1x512x4096, .f32⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S1x512x256, .f32⟩
  | .local _ .vmem, ⟨6, _⟩ => ⟨S1x512x256, .f32⟩
  | .local _ .vmem, ⟨7, _⟩ => ⟨S512x256, .f32⟩
  | _, _ => ⟨S2x512x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_c_21 : Ref sig .tc := ⟨.hbm, 132, rfl⟩
abbrev main_v96 : Ref sig .tc := ⟨.hbm, 133, rfl⟩
abbrev main_v97 : Ref sig .tc := ⟨.hbm, 134, rfl⟩
abbrev main_c_22 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_23 : Ref sig .tc := ⟨.hbm, 141, rfl⟩
abbrev main_v103 : Ref sig .tc := ⟨.hbm, 142, rfl⟩
abbrev main_v104 : Ref sig .tc := ⟨.hbm, 143, rfl⟩
abbrev main_c_24 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_25 : Ref sig .tc := ⟨.hbm, 150, rfl⟩
abbrev main_v110 : Ref sig .tc := ⟨.hbm, 151, rfl⟩
abbrev main_v111 : Ref sig .tc := ⟨.hbm, 152, rfl⟩
abbrev main_c_26 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_27 : Ref sig .tc := ⟨.hbm, 160, rfl⟩
abbrev main_v118 : Ref sig .tc := ⟨.hbm, 161, rfl⟩
abbrev main_v119 : Ref sig .tc := ⟨.hbm, 162, rfl⟩
abbrev main_cst_28 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_29 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_c_30 : Ref sig .tc := ⟨.hbm, 172, rfl⟩
abbrev main_v127 : Ref sig .tc := ⟨.hbm, 173, rfl⟩
abbrev main_v128 : Ref sig .tc := ⟨.hbm, 174, rfl⟩
abbrev main_c_31 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_32 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_33 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x256_0_1 : S480000x1.BroadcastsInDim S480000x256 (![0, 1] : Fin 2 → Fin S480000x256.rank)
  bcast_S_S30000x256 : S_.BroadcastsInDim S30000x256 (![] : Fin 0 → Fin S30000x256.rank)
  shapeCasts_S30000x256_S30000x4x64 : S30000x256.ShapeCasts S30000x4x64
  slices_S4x128_S4x64_0_0 : S4x128.Slices ![0, 0] S4x64
  slices_S4x128_S4x64_0_64 : S4x128.Slices ![0, 64] S4x64
  bcast_S4x64_S1x4x64_1_2 : S4x64.BroadcastsInDim S1x4x64 (![1, 2] : Fin 2 → Fin S1x4x64.rank)
  bcast_S1x4x64_S30000x4x64_0_1_2 : S1x4x64.BroadcastsInDim S30000x4x64 (![0, 1, 2] : Fin 3 → Fin S30000x4x64.rank)
  reducesTo_S30000x4x64_S30000x4_d2 : S30000x4x64.ReducesTo [2] S30000x4
  h_S_ : 0 < S_.numel
  bcast_S_S480000x4 : S_.BroadcastsInDim S480000x4 (![] : Fin 0 → Fin S480000x4.rank)
  bcast_S_S30000x4 : S_.BroadcastsInDim S30000x4 (![] : Fin 0 → Fin S30000x4.rank)
  bcast_S480000x4_S480000x4x1_0_1 : S480000x4.BroadcastsInDim S480000x4x1 (![0, 1] : Fin 2 → Fin S480000x4x1.rank)
  bcast_S480000x4x1_S480000x4x64_0_1_2 : S480000x4x1.BroadcastsInDim S480000x4x64 (![0, 1, 2] : Fin 3 → Fin S480000x4x64.rank)
  bcast_S_S30000x4x64 : S_.BroadcastsInDim S30000x4x64 (![] : Fin 0 → Fin S30000x4x64.rank)
  shapeCasts_S30000x4x64_S30000x256 : S30000x4x64.ShapeCasts S30000x256
  transposes_S256x256_S256x256_1_0 : S256x256.Transposes [1, 0] S256x256
  bitsLt_bf16_f32 : FTy.bits .bf16 < FTy.bits .f32
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x4096_d1_w32 : S512x4096.Iotas .tc 32 [1]
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  gather_S30000x256_S480000x1_S480000x256_1_0_n_n_0_1_1256_wf : GatherDims.WF S30000x256 S480000x1 S480000x256 [1] [0] [] [0] [] 1 ![1, 256]
  scatter_S30000x256_S480000x1_S480000x256_1_0_0_1_wf : ScatterDims.WF S30000x256 S480000x1 S480000x256 [1] [0] [0] 1
  gather_S30000x4x64_S480000x1_S480000x4x64_12_0_n_n_0_1_1464_wf : GatherDims.WF S30000x4x64 S480000x1 S480000x4x64 [1, 2] [0] [] [0] [] 1 ![1, 4, 64]
  gather_S30000x4_S480000x1_S480000x4_1_0_n_n_0_1_14_wf : GatherDims.WF S30000x4 S480000x1 S480000x4 [1] [0] [] [0] [] 1 ![1, 4]
  scatter_S30000x4_S480000x1_S480000x4_1_0_0_1_wf : ScatterDims.WF S30000x4 S480000x1 S480000x4 [1] [0] [0] 1
  scatter_S30000x4x64_S480000x1_S480000x4x64_12_0_0_1_wf : ScatterDims.WF S30000x4x64 S480000x1 S480000x4x64 [1, 2] [0] [0] 1
  dot_S30000x256_S256x256_S30000x256_1_0_0_1_n_n_wf : DotDims.WF S30000x256 S256x256 S30000x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x512x4096.size a < S2x512x30000.size a
  hwx0_0 : ∀ i : grid0.Coords, EltTy.bits .f32 = 32 ∨ (Rect.unit (s := S2x512x30000) (fun a => cc0_transform_0 i a * S1x512x4096.size a) (fun a => (Pipeline.Clip.of (cc0_transform_0 i a) (S1x512x4096.size a) (S2x512x30000.size a)).extent (S1x512x4096.size a)) fun a => Pipeline.Clip.inb (Pipeline.Clip.ok_of (hstart0_0 i a))).WholeWords (EltTy.packing .f32)
  hwxs0_0 : ∀ i : grid0.Coords, EltTy.bits .f32 = 32 ∨ (Rect.unit (s := S1x512x4096) (fun _ => 0) (fun a => (Pipeline.Clip.of (cc0_transform_0 i a) (S1x512x4096.size a) (S2x512x30000.size a)).extent (S1x512x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x256.size a < S30000x256.size a
  hwx0_1 : ∀ i : grid0.Coords, EltTy.bits .bf16 = 32 ∨ (Rect.unit (s := S30000x256) (fun a => cc0_transform_1 i a * S4096x256.size a) (fun a => (Pipeline.Clip.of (cc0_transform_1 i a) (S4096x256.size a) (S30000x256.size a)).extent (S4096x256.size a)) fun a => Pipeline.Clip.inb (Pipeline.Clip.ok_of (hstart0_1 i a))).WholeWords (EltTy.packing .bf16)
  hwxs0_1 : ∀ i : grid0.Coords, EltTy.bits .bf16 = 32 ∨ (Rect.unit (s := S4096x256) (fun _ => 0) (fun a => (Pipeline.Clip.of (cc0_transform_1 i a) (S4096x256.size a) (S30000x256.size a)).extent (S4096x256.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S2x512x256.size a
  hwx0_3 : ∀ i : grid0.Coords, EltTy.bits .f32 = 32 ∨ (Rect.block (s := S2x512x256) S1x512x256.size (cc0_transform_3 i) (hinb0_3 i)).WholeWords (EltTy.packing .f32)

variable [Facts₀]

def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def scatter_S30000x256_S480000x1_S480000x256_1_0_0_1 : ScatterDims S30000x256 S480000x1 S480000x256 where
  updateWindowDims := [1]
  insertedWindowDims := [0]
  scatterDimsToOperandDims := [0]
  indexVectorDim := 1
  wf := scatter_S30000x256_S480000x1_S480000x256_1_0_0_1_wf
def gather_S30000x4x64_S480000x1_S480000x4x64_12_0_n_n_0_1_1464 : GatherDims S30000x4x64 S480000x1 S480000x4x64 where
  offsetDims := [1, 2]
  collapsedSliceDims := [0]
  operandBatchingDims := []
  startIndicesBatchingDims := []
  startIndexMap := [0]
  indexVectorDim := 1
  sliceSizes := ![1, 4, 64]
  wf := gather_S30000x4x64_S480000x1_S480000x4x64_12_0_n_n_0_1_1464_wf
def gather_S30000x4_S480000x1_S480000x4_1_0_n_n_0_1_14 : GatherDims S30000x4 S480000x1 S480000x4 where
  offsetDims := [1]
  collapsedSliceDims := [0]
  operandBatchingDims := []
  startIndicesBatchingDims := []
  startIndexMap := [0]
  indexVectorDim := 1
  sliceSizes := ![1, 4]
  wf := gather_S30000x4_S480000x1_S480000x4_1_0_n_n_0_1_14_wf
def scatter_S30000x4_S480000x1_S480000x4_1_0_0_1 : ScatterDims S30000x4 S480000x1 S480000x4 where
  updateWindowDims := [1]
  insertedWindowDims := [0]
  scatterDimsToOperandDims := [0]
  indexVectorDim := 1
  wf := scatter_S30000x4_S480000x1_S480000x4_1_0_0_1_wf
def scatter_S30000x4x64_S480000x1_S480000x4x64_12_0_0_1 : ScatterDims S30000x4x64 S480000x1 S480000x4x64 where
  updateWindowDims := [1, 2]
  insertedWindowDims := [0]
  scatterDimsToOperandDims := [0]
  indexVectorDim := 1
  wf := scatter_S30000x4x64_S480000x1_S480000x4x64_12_0_0_1_wf
def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpecClip (Memref.whole main_arg0) S1x512x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v147) S4096x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v148) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v149) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x512x30000 : Shape := ⟨3, ![2, 512, 30000]⟩
abbrev S30000x256 : Shape := ⟨2, ![30000, 256]⟩
abbrev S4x128 : Shape := ⟨2, ![4, 128]⟩
abbrev S256x256 : Shape := ⟨2, ![256, 256]⟩
abbrev S256 : Shape := ⟨1, ![256]⟩
abbrev S480000 : Shape := ⟨1, ![480000]⟩
abbrev S480000x1 : Shape := ⟨2, ![480000, 1]⟩
abbrev S_ : Shape := ⟨0, ![]⟩
abbrev S480000x256 : Shape := ⟨2, ![480000, 256]⟩
abbrev S30000x4x64 : Shape := ⟨3, ![30000, 4, 64]⟩
abbrev S480000x4x64 : Shape := ⟨3, ![480000, 4, 64]⟩
abbrev S480000x4x128 : Shape := ⟨3, ![480000, 4, 128]⟩
abbrev S1x4x128 : Shape := ⟨3, ![1, 4, 128]⟩
abbrev S480000x4 : Shape := ⟨2, ![480000, 4]⟩
abbrev S30000x4 : Shape := ⟨2, ![30000, 4]⟩
abbrev S480000x4x1 : Shape := ⟨3, ![480000, 4, 1]⟩
abbrev S2x512x256 : Shape := ⟨3, ![2, 512, 256]⟩
abbrev S1x1x256 : Shape := ⟨3, ![1, 1, 256]⟩

abbrev nBuf : Space → Nat
  | .hbm => 168
  | .vmem => 0
  | .smem => 0
  | _ => 0

abbrev hbmTy0_0 (i : Nat) : BufTy := match i % 128 with
  | 0 => ⟨S2x512x30000, .f32⟩
  | 1 => ⟨S30000x256, .f32⟩
  | 2 => ⟨S4x128, .f32⟩
  | 3 => ⟨S30000x256, .f32⟩
  | 4 => ⟨S4x128, .f32⟩
  | 5 => ⟨S256x256, .f32⟩
  | 6 => ⟨S256, .f32⟩
  | 7 => ⟨S480000, .f32⟩
  | 8 => ⟨S480000, .f32⟩
  | 9 => ⟨S480000, .i32⟩
  | 10 => ⟨S480000, .i32⟩
  | 11 => ⟨S480000, .i32⟩
  | 12 => ⟨S480000, .i32⟩
  | 13 => ⟨S480000x1, .f32⟩
  | 14 => ⟨S_, .i32⟩
  | 15 => ⟨S480000, .i32⟩
  | 16 => ⟨S480000, .i1⟩
  | 17 => ⟨S_, .i32⟩
  | 18 => ⟨S480000, .i32⟩
  | 19 => ⟨S480000, .i32⟩
  | 20 => ⟨S480000, .i32⟩
  | 21 => ⟨S480000x1, .i32⟩
  | 22 => ⟨S480000x256, .f32⟩
  | 23 => ⟨S480000x256, .f32⟩
  | 24 => ⟨S480000x256, .f32⟩
  | 25 => ⟨S_, .f32⟩
  | 26 => ⟨S30000x256, .f32⟩
  | 27 => ⟨S480000x1, .i32⟩
  | 28 => ⟨S30000x256, .f32⟩
  | 29 => ⟨S30000x4x64, .f32⟩
  | 30 => ⟨S_, .i32⟩
  | 31 => ⟨S480000, .i32⟩
  | 32 => ⟨S480000, .i1⟩
  | 33 => ⟨S_, .i32⟩
  | 34 => ⟨S480000, .i32⟩
  | 35 => ⟨S480000, .i32⟩
  | 36 => ⟨S480000, .i32⟩
  | 37 => ⟨S480000x1, .i32⟩
  | 38 => ⟨S480000x4x64, .f32⟩
  | 39 => ⟨S_, .i32⟩
  | 40 => ⟨S480000, .i32⟩
  | 41 => ⟨S480000, .i1⟩
  | 42 => ⟨S_, .i32⟩
  | 43 => ⟨S480000, .i32⟩
  | 44 => ⟨S480000, .i32⟩
  | 45 => ⟨S480000, .i32⟩
  | 46 => ⟨S480000x1, .i32⟩
  | 47 => ⟨S480000x4x64, .f32⟩
  | 48 => ⟨S480000x4x128, .f32⟩
  | 49 => ⟨S1x4x128, .f32⟩
  | 50 => ⟨S480000x4x128, .f32⟩
  | 51 => ⟨S480000x4x128, .f32⟩
  | 52 => ⟨S_, .f32⟩
  | 53 => ⟨S480000x4, .f32⟩
  | 54 => ⟨S_, .f32⟩
  | 55 => ⟨S480000x4, .f32⟩
  | 56 => ⟨S480000x4, .i1⟩
  | 57 => ⟨S_, .f32⟩
  | 58 => ⟨S480000x4, .f32⟩
  | 59 => ⟨S480000x4, .f32⟩
  | 60 => ⟨S480000x4, .f32⟩
  | 61 => ⟨S480000x4, .f32⟩
  | 62 => ⟨S_, .f32⟩
  | 63 => ⟨S30000x4, .f32⟩
  | 64 => ⟨S480000x1, .i32⟩
  | 65 => ⟨S30000x4, .f32⟩
  | 66 => ⟨S_, .i32⟩
  | 67 => ⟨S480000, .i32⟩
  | 68 => ⟨S480000, .i1⟩
  | 69 => ⟨S_, .i32⟩
  | 70 => ⟨S480000, .i32⟩
  | 71 => ⟨S480000, .i32⟩
  | 72 => ⟨S480000, .i32⟩
  | 73 => ⟨S480000x1, .i32⟩
  | 74 => ⟨S480000x4, .f32⟩
  | 75 => ⟨S_, .f32⟩
  | 76 => ⟨S480000x4, .f32⟩
  | 77 => ⟨S480000x4, .f32⟩
  | 78 => ⟨S480000x4, .f32⟩
  | 79 => ⟨S480000x4x1, .f32⟩
  | 80 => ⟨S480000x4x64, .f32⟩
  | 81 => ⟨S480000x4x64, .f32⟩
  | 82 => ⟨S_, .f32⟩
  | 83 => ⟨S30000x4x64, .f32⟩
  | 84 => ⟨S480000x1, .i32⟩
  | 85 => ⟨S30000x4x64, .f32⟩
  | 86 => ⟨S30000x256, .f32⟩
  | 87 => ⟨S480000x1, .f32⟩
  | 88 => ⟨S_, .i32⟩
  | 89 => ⟨S480000, .i32⟩
  | 90 => ⟨S480000, .i1⟩
  | 91 => ⟨S_, .i32⟩
  | 92 => ⟨S480000, .i32⟩
  | 93 => ⟨S480000, .i32⟩
  | 94 => ⟨S480000, .i32⟩
  | 95 => ⟨S480000x1, .i32⟩
  | 96 => ⟨S480000x256, .f32⟩
  | 97 => ⟨S480000x256, .f32⟩
  | 98 => ⟨S480000x256, .f32⟩
  | 99 => ⟨S_, .f32⟩
  | 100 => ⟨S30000x256, .f32⟩
  | 101 => ⟨S480000x1, .i32⟩
  | 102 => ⟨S30000x256, .f32⟩
  | 103 => ⟨S30000x4x64, .f32⟩
  | 104 => ⟨S_, .i32⟩
  | 105 => ⟨S480000, .i32⟩
  | 106 => ⟨S480000, .i1⟩
  | 107 => ⟨S_, .i32⟩
  | 108 => ⟨S480000, .i32⟩
  | 109 => ⟨S480000, .i32⟩
  | 110 => ⟨S480000, .i32⟩
  | 111 => ⟨S480000x1, .i32⟩
  | 112 => ⟨S480000x4x64, .f32⟩
  | 113 => ⟨S_, .i32⟩
  | 114 => ⟨S480000, .i32⟩
  | 115 => ⟨S480000, .i1⟩
  | 116 => ⟨S_, .i32⟩
  | 117 => ⟨S480000, .i32⟩
  | 118 => ⟨S480000, .i32⟩
  | 119 => ⟨S480000, .i32⟩
  | 120 => ⟨S480000x1, .i32⟩
  | 121 => ⟨S480000x4x64, .f32⟩
  | 122 => ⟨S480000x4x128, .f32⟩
  | 123 => ⟨S1x4x128, .f32⟩
  | 124 => ⟨S480000x4x128, .f32⟩
  | 125 => ⟨S480000x4x128, .f32⟩
  | 126 => ⟨S_, .f32⟩
  | 127 => ⟨S480000x4, .f32⟩
  | _ => ⟨S2x512x30000, .f32⟩

abbrev hbmTy0_1 (i : Nat) : BufTy := match i % 128 with
  | 0 => ⟨S_, .f32⟩
  | 1 => ⟨S480000x4, .f32⟩
  | 2 => ⟨S480000x4, .i1⟩
  | 3 => ⟨S_, .f32⟩
  | 4 => ⟨S480000x4, .f32⟩
  | 5 => ⟨S480000x4, .f32⟩
  | 6 => ⟨S480000x4, .f32⟩
  | 7 => ⟨S480000x4, .f32⟩
  | 8 => ⟨S_, .f32⟩
  | 9 => ⟨S30000x4, .f32⟩
  | 10 => ⟨S480000x1, .i32⟩
  | 11 => ⟨S30000x4, .f32⟩
  | 12 => ⟨S_, .i32⟩
  | 13 => ⟨S480000, .i32⟩
  | 14 => ⟨S480000, .i1⟩
  | 15 => ⟨S_, .i32⟩
  | 16 => ⟨S480000, .i32⟩
  | 17 => ⟨S480000, .i32⟩
  | 18 => ⟨S480000, .i32⟩
  | 19 => ⟨S480000x1, .i32⟩
  | 20 => ⟨S480000x4, .f32⟩
  | 21 => ⟨S_, .f32⟩
  | 22 => ⟨S480000x4, .f32⟩
  | 23 => ⟨S480000x4, .f32⟩
  | 24 => ⟨S480000x4, .f32⟩
  | 25 => ⟨S480000x4x1, .f32⟩
  | 26 => ⟨S480000x4x64, .f32⟩
  | 27 => ⟨S480000x4x64, .f32⟩
  | 28 => ⟨S_, .f32⟩
  | 29 => ⟨S30000x4x64, .f32⟩
  | 30 => ⟨S480000x1, .i32⟩
  | 31 => ⟨S30000x4x64, .f32⟩
  | 32 => ⟨S30000x256, .f32⟩
  | 33 => ⟨S2x512x256, .f32⟩
  | 34 => ⟨S2x512x256, .f32⟩
  | 35 => ⟨S2x512x256, .f32⟩
  | 36 => ⟨S2x512x256, .f32⟩
  | 37 => ⟨S1x1x256, .f32⟩
  | 38 => ⟨S2x512x256, .f32⟩
  | 39 => ⟨S2x512x256, .f32⟩
  | _ => ⟨S2x512x30000, .f32⟩

abbrev hbmTy (i : Nat) : BufTy := match i / 128 with
  | 0 => hbmTy0_0 i
  | 1 => hbmTy0_1 i
  | _ => ⟨S2x512x30000, .f32⟩

abbrev bufTy : (tb : Table) → Fin (tcTables nBuf tb) → BufTy
  | .hbm, ⟨i, _⟩ => hbmTy i
  | _, _ => ⟨S2x512x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_c_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_cst_21 : Ref sig .tc := ⟨.hbm, 128, rfl⟩
abbrev main_v92 : Ref sig .tc := ⟨.hbm, 129, rfl⟩
abbrev main_v93 : Ref sig .tc := ⟨.hbm, 130, rfl⟩
abbrev main_cst_22 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_24 : Ref sig .tc := ⟨.hbm, 140, rfl⟩
abbrev main_v101 : Ref sig .tc := ⟨.hbm, 141, rfl⟩
abbrev main_v102 : Ref sig .tc := ⟨.hbm, 142, rfl⟩
abbrev main_c_25 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_26 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_27 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩

abbrev nD : Nat := 1
abbrev τ : Topo := Topo.v7x

variable {F : FTy → Type} [FloatOps F]

class Facts₀ : Prop where
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x256_0_1 : S480000x1.BroadcastsInDim S480000x256 (![0, 1] : Fin 2 → Fin S480000x256.rank)
  bcast_S_S30000x256 : S_.BroadcastsInDim S30000x256 (![] : Fin 0 → Fin S30000x256.rank)
  shapeCasts_S30000x256_S30000x4x64 : S30000x256.ShapeCasts S30000x4x64
  concatenates_S480000x4x64_S480000x4x64_S480000x4x128_d2 : Shape.Concatenates [S480000x4x64, S480000x4x64] S480000x4x128 2
  bcast_S4x128_S1x4x128_1_2 : S4x128.BroadcastsInDim S1x4x128 (![1, 2] : Fin 2 → Fin S1x4x128.rank)
  bcast_S1x4x128_S480000x4x128_0_1_2 : S1x4x128.BroadcastsInDim S480000x4x128 (![0, 1, 2] : Fin 3 → Fin S480000x4x128.rank)
  reducesTo_S480000x4x128_S480000x4_d2 : S480000x4x128.ReducesTo [2] S480000x4
  h_S_ : 0 < S_.numel
  bcast_S_S480000x4 : S_.BroadcastsInDim S480000x4 (![] : Fin 0 → Fin S480000x4.rank)
  bcast_S_S30000x4 : S_.BroadcastsInDim S30000x4 (![] : Fin 0 → Fin S30000x4.rank)
  bcast_S480000x4_S480000x4x1_0_1 : S480000x4.BroadcastsInDim S480000x4x1 (![0, 1] : Fin 2 → Fin S480000x4x1.rank)
  bcast_S480000x4x1_S480000x4x64_0_1_2 : S480000x4x1.BroadcastsInDim S480000x4x64 (![0, 1, 2] : Fin 3 → Fin S480000x4x64.rank)
  bcast_S_S30000x4x64 : S_.BroadcastsInDim S30000x4x64 (![] : Fin 0 → Fin S30000x4x64.rank)
  shapeCasts_S30000x4x64_S30000x256 : S30000x4x64.ShapeCasts S30000x256
  bcast_S256_S1x1x256_2 : S256.BroadcastsInDim S1x1x256 (![2] : Fin 1 → Fin S1x1x256.rank)
  bcast_S1x1x256_S2x512x256_0_1_2 : S1x1x256.BroadcastsInDim S2x512x256 (![0, 1, 2] : Fin 3 → Fin S2x512x256.rank)
  gather_S30000x256_S480000x1_S480000x256_1_0_n_n_0_1_1256_wf : GatherDims.WF S30000x256 S480000x1 S480000x256 [1] [0] [] [0] [] 1 ![1, 256]
  scatter_S30000x256_S480000x1_S480000x256_1_0_0_1_wf : ScatterDims.WF S30000x256 S480000x1 S480000x256 [1] [0] [0] 1
  gather_S30000x4x64_S480000x1_S480000x4x64_12_0_n_n_0_1_1464_wf : GatherDims.WF S30000x4x64 S480000x1 S480000x4x64 [1, 2] [0] [] [0] [] 1 ![1, 4, 64]
  scatter_S30000x4_S480000x1_S480000x4_1_0_0_1_wf : ScatterDims.WF S30000x4 S480000x1 S480000x4 [1] [0] [0] 1
  gather_S30000x4_S480000x1_S480000x4_1_0_n_n_0_1_14_wf : GatherDims.WF S30000x4 S480000x1 S480000x4 [1] [0] [] [0] [] 1 ![1, 4]
  scatter_S30000x4x64_S480000x1_S480000x4x64_12_0_0_1_wf : ScatterDims.WF S30000x4x64 S480000x1 S480000x4x64 [1, 2] [0] [0] 1
  dot_S2x512x30000_S30000x256_S2x512x256_2_0_01_1_n_n_wf : DotDims.WF S2x512x30000 S30000x256 S2x512x256 [2] [0] [0, 1] [1] [] []
  dot_S2x512x256_S256x256_S2x512x256_2_1_01_0_n_n_wf : DotDims.WF S2x512x256 S256x256 S2x512x256 [2] [1] [0, 1] [0] [] []

variable [Facts₀]

def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def scatter_S30000x256_S480000x1_S480000x256_1_0_0_1 : ScatterDims S30000x256 S480000x1 S480000x256 where
  updateWindowDims := [1]
  insertedWindowDims := [0]
  scatterDimsToOperandDims := [0]
  indexVectorDim := 1
  wf := scatter_S30000x256_S480000x1_S480000x256_1_0_0_1_wf
def gather_S30000x4x64_S480000x1_S480000x4x64_12_0_n_n_0_1_1464 : GatherDims S30000x4x64 S480000x1 S480000x4x64 where
  offsetDims := [1, 2]
  collapsedSliceDims := [0]
  operandBatchingDims := []
  startIndicesBatchingDims := []
  startIndexMap := [0]
  indexVectorDim := 1
  sliceSizes := ![1, 4, 64]
  wf := gather_S30000x4x64_S480000x1_S480000x4x64_12_0_n_n_0_1_1464_wf
def scatter_S30000x4_S480000x1_S480000x4_1_0_0_1 : ScatterDims S30000x4 S480000x1 S480000x4 where
  updateWindowDims := [1]
  insertedWindowDims := [0]
  scatterDimsToOperandDims := [0]
  indexVectorDim := 1
  wf := scatter_S30000x4_S480000x1_S480000x4_1_0_0_1_wf
def gather_S30000x4_S480000x1_S480000x4_1_0_n_n_0_1_14 : GatherDims S30000x4 S480000x1 S480000x4 where
  offsetDims := [1]
  collapsedSliceDims := [0]
  operandBatchingDims := []
  startIndicesBatchingDims := []
  startIndexMap := [0]
  indexVectorDim := 1
  sliceSizes := ![1, 4]
  wf := gather_S30000x4_S480000x1_S480000x4_1_0_n_n_0_1_14_wf
def scatter_S30000x4x64_S480000x1_S480000x4x64_12_0_0_1 : ScatterDims S30000x4x64 S480000x1 S480000x4x64 where
  updateWindowDims := [1, 2]
  insertedWindowDims := [0]
  scatterDimsToOperandDims := [0]
  indexVectorDim := 1
  wf := scatter_S30000x4x64_S480000x1_S480000x4x64_12_0_0_1_wf
def dot_S2x512x30000_S30000x256_S2x512x256_2_0_01_1_n_n : DotDims S2x512x30000 S30000x256 S2x512x256 where
  lhsContracting := [2]
  rhsContracting := [0]
  lhsNonContracting := [0, 1]
  rhsNonContracting := [1]
  lhsBatch := []
  rhsBatch := []
  wf := dot_S2x512x30000_S30000x256_S2x512x256_2_0_01_1_n_n_wf
def dot_S2x512x256_S256x256_S2x512x256_2_1_01_0_n_n : DotDims S2x512x256 S256x256 S2x512x256 where
  lhsContracting := [2]
  rhsContracting := [1]
  lhsNonContracting := [0, 1]
  rhsNonContracting := [0]
  lhsBatch := []
  rhsBatch := []
  wf := dot_S2x512x256_S256x256_S2x512x256_2_1_01_0_n_n_wf

class Facts : Prop extends Facts₀ where

variable [Facts]
-- ==== Proof.KShared.lean ====
/-
  The matmul kernel's control, decided over its grid of 2 × 8 points (batch index b, K-tile index k; point
  t = 8·b + k): the accumulator is zeroed where k = 0 and the output block is stored where k = 7, so the output
  window is idle at every other point and written back exactly at the points ≡ 7 (mod 8).
-/
import proofs.«128036_j12876311953624_2_alg».proof.Proof.Gen.Kernel.Frame
import proofs.«128036_j12876311953624_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator is reset at this point: the K-tile index is 0. -/
abbrev condFirst (i : grid0.Coords) : Prop :=
  (Scalar.cmpi .ne (Scalar.extui (Scalar.cmpi .eq (BitVec.ofNat 32 (i 1).val) 0#32)) 0#32) = 1#1

theorem condFirst_iff : ∀ t : Fin cfg0.N, condFirst (grid0.coords t) ↔ t.val % 8 = 0 :=
  (by decide +kernel : ∀ t : Fin grid0.N, condFirst (grid0.coords t) ↔ t.val % 8 = 0)

/-- The output block is stored at this point: the K-tile index is the last, 7. -/
abbrev condLast (i : grid0.Coords) : Prop := k0_cond2 i = 1#1

theorem condLast_iff : ∀ t : Fin cfg0.N, condLast (grid0.coords t) ↔ t.val % 8 = 7 :=
  (by decide +kernel : ∀ t : Fin grid0.N, condLast (grid0.coords t) ↔ t.val % 8 = 7)

theorem N16 : cfg0.N = 16 := N_0

/-- The three input windows are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The output window is idle, and not written back, where the block is not stored; live where it is. -/
theorem idle_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
theorem live_3 : ∀ t : Fin cfg0.N, condLast (grid0.coords t) → cfg0.idle 3 (grid0.coords t) = false := by decide +kernel
/-- Windows 0 and 1 may overhang their arrays (their obligations are stated on the moved part only); 2 and 3 tile theirs. -/
theorem loose_0 : cfg0.loose 0 = true := rfl
theorem loose_1 : cfg0.loose 1 = true := rfl
theorem loose_2 : cfg0.loose 2 = false := rfl
theorem loose_3 : cfg0.loose 3 = false := rfl

/-- The scratch accumulator as a whole memref. -/
abbrev accM : Memref sig .tc .vmem S512x256 .f32 := Memref.whole cc0_scratch0

/-- The current staging memrefs at a point. -/
abbrev ms0 (t : Fin cfg0.N) : Memref sig .tc .vmem S1x512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x256 .f32 := win0_3.stage (cfg0.slots t 3)
abbrev hs3 (t : Fin cfg0.N) : (ms3 t).IsWhole := hstage0_3 ((cfg0.slots t 3).cast nbuf0_3)

/-- The region invariant ΦA with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.KRunMid.lean ====
/-
  The kernel body at a point that neither resets the accumulator nor stores the output block: it loads the X tile,
  the Hc tile and the accumulator, and stores the accumulator back with the masked tile product added. The bias
  buffer and the output buffer are not touched.
-/
import proofs.«128036_j12876311953624_2_alg».proof.Proof.KShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body in the middle case, on whole memrefs: the pieces the accumulator ends with are found by the run. -/
noncomputable def runMid (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole)
    (hc0 : ¬condFirst i) (hc1 : ¬condLast i) (x0 : Vec F S1x512x4096 .f32) (x1 : Vec F S4096x256 .bf16) (xs : Vec F S512x256 .f32) :
    { LS : List (View.Piece (Elt F) S512x256 .f32) //
      ∀ (x2 : Vec F S1x256 .f32) (xo : Vec F S1x512x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨?_, fun x2 xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    iexists _; iexact HS

end Cert.Kernel.Body

end
-- ==== Proof.KRunFirst.lean ====
/-
  The kernel body at a point that resets the accumulator (K-tile index 0): it stores the zero block into the
  accumulator, then proceeds as at any point — so what the accumulator held before does not matter.
-/
import proofs.«128036_j12876311953624_2_alg».proof.Proof.KRunMid

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body in the resetting case, the accumulator handed at any contents. -/
noncomputable def runFirst (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole)
    (hc0 : condFirst i) (hc1 : ¬condLast i) (x0 : Vec F S1x512x4096 .f32) (x1 : Vec F S4096x256 .bf16) :
    { LS : List (View.Piece (Elt F) S512x256 .f32) //
      ∀ (x2 : Vec F S1x256 .f32) (xo : Vec F S1x512x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨?_, fun x2 xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    iexists _; iexact HS

end Cert.Kernel.Body

end
-- ==== Proof.KRunLast.lean ====
/-
  The kernel body at a point that stores the output block (K-tile index 7): after the accumulation step it loads the
  accumulator and the bias row and stores their sum, reshaped, over the whole output buffer.
-/
import proofs.«128036_j12876311953624_2_alg».proof.Proof.KRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body in the storing case: the pieces of the output buffer and of the accumulator are found by the run. -/
noncomputable def runLast (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole)
    (hc0 : ¬condFirst i) (hc1 : condLast i) (x0 : Vec F S1x512x4096 .f32) (x1 : Vec F S4096x256 .bf16) (x2 : Vec F S1x256 .f32) (xs : Vec F S512x256 .f32) :
    Σ' (LO : List (View.Piece (Elt F) S1x512x256 .f32)), { LS : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Body

end
-- ==== Proof.KFrameForget.lean ====
/-
  The frame of the word-level kernel program. Bit for bit, what the matmul leaves in its accumulator depends on the
  words a clipped tile's staging buffer holds past the array's end (zero times a NaN is a NaN), which nothing names;
  so the output window's contents are FORGOTTEN here: the body is handed the output buffer and the scratch at any
  contents and hands them back at some contents, the two tiles and the bias row come back as they were, and the
  arguments end unchanged because no write-back touches them.
-/
import proofs.«128036_j12876311953624_2_alg».proof.Proof.KRunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one forgotten. -/
abbrev fgt3 : Fin cfg0.W → Bool := fun | 0 => false | 1 => false | 2 => false | 3 => true | ⟨_ + 4, h⟩ => absurd h (Nat.not_lt.2 (Nat.le_add_left _ _))

/-- Window `w`'s block at point `t` as a whole staging block: its part inside the array, an unnamed word elsewhere. -/
def fblk (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The proof data: the arrays as the region finds them; the inputs' buffers at their blocks; the output's unnamed; the
    region invariant ΦA at every point. -/
def dats (_ : Fin 1) (c : Dev nD) : Dat τ (Elt F) Unit ℕ (UR sig nD τ) ℕ cfg0 c where
  A w := V m c (Pipeline.arrRef spec0 w)
  after w t := match w with
    | ⟨0, _⟩ => fblk m c 0 t
    | ⟨1, _⟩ => fblk m c 1 t
    | ⟨2, _⟩ => iblk m c 2 t
    | ⟨3, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = fblk m c 0 t := by dsimp only [dats]
theorem after_1 (c : Dev nD) (t : Fin cfg0.N) : (dats m 0 c).after 1 t = fblk m c 1 t := by dsimp only [dats]
theorem after_2 (c : Dev nD) (t : Fin cfg0.N) : (dats m 0 c).after 2 t = iblk m c 2 t := by dsimp only [dats]

theorem before_0 (c : Dev nD) (t : Fin cfg0.N) (d) :
    (dats m 0 c).before 0 t d = (cfg0.win 0).fill (cfg0.grid.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = (cfg0.win 1).fill (cfg0.grid.coords t) d (iblk m c 1 t) := by
  unfold Dat.before; rw [if_pos (fetch0_1 t)]; unfold Dat.fetched Dat.blockOf iblk; rw [A_eq]
theorem before_2 (c : Dev nD) (t : Fin cfg0.N) (d) : (dats m 0 c).before 2 t d = iblk m c 2 t :=
  before0_2_of m (dats m 0 c) (A_eq m c 2) (after_2 m c) t d

theorem leaves_0 (c : Dev nD) (t : Fin cfg0.N) :
    (dats m 0 c).leaves 0 t = iprop(∃ d, owns (c : Thread nD τ) (ms0 t) fullShare ((cfg0.win 0).fill (cfg0.grid.coords t) d (iblk m c 0 t))) := by
  unfold Dat.leaves; rw [live_0 t, after_0]; unfold fblk; simp only [Window.cut_fill]; rfl
theorem leaves_1 (c : Dev nD) (t : Fin cfg0.N) :
    (dats m 0 c).leaves 1 t = iprop(∃ d, owns (c : Thread nD τ) (ms1 t) fullShare ((cfg0.win 1).fill (cfg0.grid.coords t) d (iblk m c 1 t))) := by
  unfold Dat.leaves; rw [live_1 t, after_1]; unfold fblk; simp only [Window.cut_fill]; rfl
theorem leaves_2 (c : Dev nD) (t : Fin cfg0.N) :
    (dats m 0 c).leaves 2 t = owns (c : Thread nD τ) (ms2 t) fullShare (iblk m c 2 t) := by
  unfold Dat.leaves; rw [live_2 t, after_2]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ X, owns (c : Thread nD τ) (ms3 t) fullShare X))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (∃ X, owns (c : Thread nD τ) (ms3 t) fullShare X))

set_option maxHeartbeats 4800000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [leaves_0, leaves_1, leaves_2]
  have hN : t.val < 16 := lt_of_lt_of_eq t.isLt N16
  by_cases h0 : t.val % 8 = 0
  · have hc0 : condFirst (grid0.coords t) := (condFirst_iff t).mpr h0
    have hc1 : ¬condLast (grid0.coords t) := fun h => by have := (condLast_iff t).mp h; omega
    iintro ⟨⟨HS, Hg⟩, Ho, ⟨%d0, H0⟩, ⟨%d1, H1⟩, ⟨%d2, H2⟩, ⟨%d3, H3⟩⟩
    iapply ((runFirst c (grid0.coords t) (ms0 t) (hs0 t) (ms1 t) (hs1 t) (ms2 t) (hs2 t) (ms3 t) (hs3 t) accM (Memref.isWhole_whole _) hc0 hc1 _ _).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hg]
    · isplitl [HS]
      · iexists _; unfold owns; iexists _; isplitr
        swap; · iexact HS
        ipureintro; rfl
      iexact Hg
    isplitl [Ho]; · iexact Ho
    isplitl [H0]; · iexists d0; iexact H0
    isplitl [H1]; · iexists d1; iexact H1
    isplitl [H2]; · iexact H2
    iexists d3; iexact H3
  · have hc0 : ¬condFirst (grid0.coords t) := fun h => h0 ((condFirst_iff t).mp h)
    by_cases h1 : t.val % 8 = 7
    · have hc1 : condLast (grid0.coords t) := (condLast_iff t).mpr h1
      iintro ⟨⟨⟨%ds, HS⟩, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) hc0 hc1 _ _ _ ds).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hg]
      · isplitl [HS]
        · iexists _; unfold owns; iexists _; isplitr
          swap; · iexact HS
          ipureintro; rfl
        iexact Hg
      isplitl [Ho]; · iexact Ho
      isplitl [H0]; · iexists d0; iexact H0
      isplitl [H1]; · iexists d1; iexact H1
      isplitl [H2]; · iexact H2
      iexists _; unfold owns; iexists _; isplitr
      swap; · iexact H3
      ipureintro; rfl
    · have hc1 : ¬condLast (grid0.coords t) := fun h => h1 ((condLast_iff t).mp h)
      iintro ⟨⟨⟨%ds, HS⟩, Hg⟩, Ho, ⟨%d0, H0⟩, ⟨%d1, H1⟩, ⟨%d2, H2⟩, ⟨%d3, H3⟩⟩
      iapply ((runMid c (grid0.coords t) (ms0 t) (hs0 t) (ms1 t) (hs1 t) (ms2 t) (hs2 t) (ms3 t) (hs3 t) accM (Memref.isWhole_whole _) hc0 hc1 _ _ ds).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · iexists _; unfold owns; iexists _; isplitr
          swap; · iexact HS
          ipureintro; rfl
        iexact Hg
      isplitl [Ho]; · iexact Ho
      isplitl [H0]; · iexists d0; iexact H0
      isplitl [H1]; · iexists d1; iexact H1
      isplitl [H2]; · iexact H2
      iexists d3; iexact H3

/-- The library's body obligation with the output window forgotten, at every point. -/
theorem body_obligation (c : Dev nD) :
    BodyObligationLoose (dats (F := F) m 0 c) (defs₀ (F := F)) Variants.none () Set.univ fgt3 := fun t => by
  rw [bigSep_W0, bigSep_W0]
  exact sound_body m c t

set_option backward.isDefEq.respectTransparency.types false in
/-- The run, read relationally: every weakly fair execution of @main terminates, every input array at its entry
    contents, every other unscoped buffer as the region found it. -/
theorem run_forget :
    θ_run defs (onTc (τ := τ) (main (F := F))) (s₀ m ρ)
      (Pipeline.RDat.FramePost (cfgs 0) (fun c => (dats m 0 c).toRForget fgt3) (V m)) :=
  Pipeline.RDat.θ_run_frame cfgs (0 : Fin 1) launch0 defs₀ Variants.none (fun c => (dats m 0 c).toRForget fgt3) m ρ main
    (hbody := fun c => (body_obligation m c).toRForget)
    (hshare := fun c w => (dats m 0 c).share_full (fun _ => rfl) w)
    (howed := fun _ _ => rfl) (V := V m) (hmain := hmain m Variants.none) (hA := fun c w => A_eq m c w) (hΦ := fun _ _ => rfl)

/-- THE FRAME: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(((congrFun (Pipeline.RDat.ArrAt_in ((dats m 0 c).toRForget fgt3) 0 rfl cfg0.N) _).mp ((h c).1 0) :
        r.2.mem ((cfg0.spec 0).arr.view.loc (c.tc : Thread nD τ)) = (dats m 0 c).A 0).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_forget m ρ)

end Cert.Kernel.Body

end
-- ==== Proof.KIShared.lean ====
/-
  The matmul kernel's control, decided over its grid of 2 × 8 points (batch index b, K-tile index k; point
  t = 8·b + k): the accumulator is zeroed where k = 0 and the output block is stored where k = 7, so the output
  window is idle at every other point and written back exactly at the points ≡ 7 (mod 8).
-/
import proofs.«128036_j12876311953624_2_alg».proof.Proof.Gen.KernelIdeal.Frame
import proofs.«128036_j12876311953624_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator is reset at this point: the K-tile index is 0. -/
abbrev condFirst (i : grid0.Coords) : Prop :=
  (Scalar.cmpi .ne (Scalar.extui (Scalar.cmpi .eq (BitVec.ofNat 32 (i 1).val) 0#32)) 0#32) = 1#1

theorem condFirst_iff : ∀ t : Fin cfg0.N, condFirst (grid0.coords t) ↔ t.val % 8 = 0 :=
  (by decide +kernel : ∀ t : Fin grid0.N, condFirst (grid0.coords t) ↔ t.val % 8 = 0)

/-- The output block is stored at this point: the K-tile index is the last, 7. -/
abbrev condLast (i : grid0.Coords) : Prop := k0_cond2 i = 1#1

theorem condLast_iff : ∀ t : Fin cfg0.N, condLast (grid0.coords t) ↔ t.val % 8 = 7 :=
  (by decide +kernel : ∀ t : Fin grid0.N, condLast (grid0.coords t) ↔ t.val % 8 = 7)

theorem N16 : cfg0.N = 16 := N_0

/-- The three input windows are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The output window is idle, and not written back, where the block is not stored; live where it is. -/
theorem idle_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
theorem live_3 : ∀ t : Fin cfg0.N, condLast (grid0.coords t) → cfg0.idle 3 (grid0.coords t) = false := by decide +kernel
/-- Windows 0 and 1 may overhang their arrays (their obligations are stated on the moved part only); 2 and 3 tile theirs. -/
theorem loose_0 : cfg0.loose 0 = true := rfl
theorem loose_1 : cfg0.loose 1 = true := rfl
theorem loose_2 : cfg0.loose 2 = false := rfl
theorem loose_3 : cfg0.loose 3 = false := rfl

/-- The scratch accumulator as a whole memref. -/
abbrev accM : Memref sig .tc .vmem S512x256 .f32 := Memref.whole cc0_scratch0

/-- The current staging memrefs at a point. -/
abbrev ms0 (t : Fin cfg0.N) : Memref sig .tc .vmem S1x512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x256 .f32 := win0_3.stage (cfg0.slots t 3)
abbrev hs3 (t : Fin cfg0.N) : (ms3 t).IsWhole := hstage0_3 ((cfg0.slots t 3).cast nbuf0_3)

/-- The region invariant ΦA with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.KIRunMid.lean ====
/-
  The kernel body at a point that neither resets the accumulator nor stores the output block: it loads the X tile,
  the Hc tile and the accumulator, and stores the accumulator back with the masked tile product added. The bias
  buffer and the output buffer are not touched.
-/
import proofs.«128036_j12876311953624_2_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body in the middle case, on whole memrefs: the pieces the accumulator ends with are found by the run. -/
noncomputable def runMid (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole)
    (hc0 : ¬condFirst i) (hc1 : ¬condLast i) (x0 : Vec F S1x512x4096 .f32) (x1 : Vec F S4096x256 .bf16) (xs : Vec F S512x256 .f32) :
    { LS : List (View.Piece (Elt F) S512x256 .f32) //
      ∀ (x2 : Vec F S1x256 .f32) (xo : Vec F S1x512x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨?_, fun x2 xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    iexists _; iexact HS

end Cert.KernelIdeal.Body

end
-- ==== Proof.KIRunFirst.lean ====
/-
  The kernel body at a point that resets the accumulator (K-tile index 0): it stores the zero block into the
  accumulator, then proceeds as at any point — so what the accumulator held before does not matter.
-/
import proofs.«128036_j12876311953624_2_alg».proof.Proof.KIRunMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body in the resetting case, the accumulator handed at any contents. -/
noncomputable def runFirst (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole)
    (hc0 : condFirst i) (hc1 : ¬condLast i) (x0 : Vec F S1x512x4096 .f32) (x1 : Vec F S4096x256 .bf16) :
    { LS : List (View.Piece (Elt F) S512x256 .f32) //
      ∀ (x2 : Vec F S1x256 .f32) (xo : Vec F S1x512x256 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨?_, fun x2 xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    iexists _; iexact HS

end Cert.KernelIdeal.Body

end
-- ==== Proof.KIRunLast.lean ====
/-
  The kernel body at a point that stores the output block (K-tile index 7): after the accumulation step it loads the
  accumulator and the bias row and stores their sum, reshaped, over the whole output buffer.
-/
import proofs.«128036_j12876311953624_2_alg».proof.Proof.KIRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body in the storing case: the pieces of the output buffer and of the accumulator are found by the run. -/
noncomputable def runLast (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole)
    (hc0 : ¬condFirst i) (hc1 : condLast i) (x0 : Vec F S1x512x4096 .f32) (x1 : Vec F S4096x256 .bf16) (x2 : Vec F S1x256 .f32) (xs : Vec F S512x256 .f32) :
    Σ' (LO : List (View.Piece (Elt F) S1x512x256 .f32)), { LS : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg2 harg2 arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Body

end
-- ==== Proof.KIBodyCases.lean ====
/-
  What the three cases of the kernel body leave, as payloads: the accumulator ends at the accumulation step
  `k0_pay2` of the two tiles and of what it held (of the zero block `k0_pay1` where it is reset), and where the output
  block is stored it ends at `k0_pay3` of the new accumulator and the bias row. Each store covers its whole buffer, so
  what a buffer reads afterwards is the last store's payload.
-/
import proofs.«128036_j12876311953624_2_alg».proof.Proof.KIRunLast
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Middle case: the accumulator ends at the step over what it held. -/
theorem mid_acc (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole) (hc0 : ¬condFirst i) (hc1 : ¬condLast i) (x0 : Vec F S1x512x4096 .f32) (x1 : Vec F S4096x256 .bf16) (xs : Vec F S512x256 .f32) (f) :
    arg6.view.read (Elt F) (arg6.view.writes (Elt F) f (runMid c i arg2 harg2 arg3 harg3 arg4 harg4 arg5 harg5 arg6 harg6 hc0 hc1 x0 x1 xs).1) = k0_pay2 i x0 x1 xs := by
  unfold runMid
  dsimp only
  rw [View.read_writes_eq_canon _ _ _ (fun y => ⟨_, List.mem_singleton_self _, View.mem_set_unit_zero hz2 inb_S512x256_S512x256_0_0 y⟩)]
  rw [View.canon_unit_zero hz2]
  simp only [View.readAt_eq_ld, Memref.IsWhole.read_unread, View.ld_unit_zero (S := S1x512x4096) hz3, View.ld_unit_zero (S := S4096x256) hz2, View.ld_unit_zero (S := S512x256) hz2]

/-- Resetting case: the accumulator ends at the step over the zero block. -/
theorem first_acc (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole) (hc0 : condFirst i) (hc1 : ¬condLast i) (x0 : Vec F S1x512x4096 .f32) (x1 : Vec F S4096x256 .bf16) (f) :
    arg6.view.read (Elt F) (arg6.view.writes (Elt F) f (runFirst c i arg2 harg2 arg3 harg3 arg4 harg4 arg5 harg5 arg6 harg6 hc0 hc1 x0 x1).1) = k0_pay2 i x0 x1 k0_pay1 := by
  unfold runFirst
  dsimp only
  rw [View.read_writes_eq_canon _ _ _ (fun y => ⟨_, List.mem_cons_self, View.mem_set_unit_zero hz2 inb_S512x256_S512x256_0_0 y⟩)]
  rw [View.canon_cons_unit_zero hz2]
  sl_unfold_words
  simp only [View.readAt_eq_ld, Memref.IsWhole.read_unread, View.ld_unit_zero (S := S1x512x4096) hz3, View.ld_unit_zero (S := S4096x256) hz2, View.ld_unit_zero (S := S512x256) hz2]
  rw [View.readCov_unit_zero (S := S512x256) _ hz2]

/-- Storing case: the accumulator ends at the step over what it held, -/
theorem last_acc (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole) (hc0 : ¬condFirst i) (hc1 : condLast i) (x0 : Vec F S1x512x4096 .f32) (x1 : Vec F S4096x256 .bf16) (x2 : Vec F S1x256 .f32) (xs : Vec F S512x256 .f32) (f) :
    arg6.view.read (Elt F) (arg6.view.writes (Elt F) f (runLast c i arg2 harg2 arg3 harg3 arg4 harg4 arg5 harg5 arg6 harg6 hc0 hc1 x0 x1 x2 xs).2.1) = k0_pay2 i x0 x1 xs := by
  unfold runLast
  dsimp only
  sl_unfold_words
  rw [View.read_writes_eq_canon _ _ _ (fun y => ⟨_, List.mem_cons_self, View.mem_set_unit_zero hz2 inb_S512x256_S512x256_0_0 y⟩)]
  rw [View.canon_cons_unit_zero hz2]
  simp only [View.readAt_eq_ld, Memref.IsWhole.read_unread, View.ld_unit_zero (S := S1x512x4096) hz3, View.ld_unit_zero (S := S4096x256) hz2, View.ld_unit_zero (S := S512x256) hz2]

/-- and the output buffer at the bias row added to that. -/
theorem last_out (c : Dev nD) (i : grid0.Coords) (arg2 : Memref sig .tc .vmem S1x512x4096 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S1x512x256 .f32) (harg5 : arg5.IsWhole) (arg6 : Memref sig .tc .vmem S512x256 .f32) (harg6 : arg6.IsWhole) (hc0 : ¬condFirst i) (hc1 : condLast i) (x0 : Vec F S1x512x4096 .f32) (x1 : Vec F S4096x256 .bf16) (x2 : Vec F S1x256 .f32) (xs : Vec F S512x256 .f32) (f) :
    arg5.view.read (Elt F) (arg5.view.writes (Elt F) f (runLast c i arg2 harg2 arg3 harg3 arg4 harg4 arg5 harg5 arg6 harg6 hc0 hc1 x0 x1 x2 xs).1) = k0_pay3 (k0_pay2 i x0 x1 xs) x2 := by
  unfold runLast
  dsimp only
  rw [View.read_writes_eq_canon _ _ _ (fun y => ⟨_, List.mem_cons_self, View.mem_set_unit_zero hz3 inb_S1x512x256_S1x512x256_0_0_0 y⟩)]
  rw [View.canon_cons_unit_zero hz3]
  sl_unfold_words
  simp only [View.readAt_eq_ld, Memref.IsWhole.read_unread, View.ld_unit_zero (S := S1x512x4096) hz3, View.ld_unit_zero (S := S4096x256) hz2, View.ld_unit_zero (S := S512x256) hz2, View.ld_unit_zero (S := S1x256) hz2]
  rw [View.readCov_unit_zero (S := S512x256) _ hz2]

end Cert.KernelIdeal.Body

end
-- ==== Proof.KIValueFrame.lean ====
/-
  The matmul region with the accumulator NAMED. At point t = 8·b + k the scratch holds, after the body, the sum over the
  K-tiles 0‥k of the masked tile products of X[b] and Hc; the output block stored at k = 7 is that sum plus the bias row.
  A tile that overhangs its array is staged with its part inside the array and unnamed words past the array's end; the
  accumulation step masks the X tile's tail to zero, so — provided the step does not depend on those words
  (`TailFree`: true over the extended reals, where zero times anything is zero) — what the body leaves is a function of
  the arrays alone, which is what the proof data below names.
-/
import proofs.«128036_j12876311953624_2_alg».proof.Proof.KIBodyCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t` as a whole staging block: its part inside the array, an unnamed word elsewhere. -/
def fblk (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The accumulation step does not depend on what the two tiles hold past their arrays' ends. -/
def TailFree : Prop :=
  ∀ (c : Dev nD) (t : Fin cfg0.N) (d0 : (cfg0.win 0).block.Idx → Elt F (cfg0.win 0).elt) (d1 : (cfg0.win 1).block.Idx → Elt F (cfg0.win 1).elt)
    (s : Vec F S512x256 .f32),
    k0_pay2 (grid0.coords t) ((cfg0.win 0).fill (cfg0.grid.coords t) d0 (iblk m c 0 t)) ((cfg0.win 1).fill (cfg0.grid.coords t) d1 (iblk m c 1 t)) s
      = k0_pay2 (grid0.coords t) (fblk m c 0 t) (fblk m c 1 t) s

/-- THE ACCUMULATION: what the scratch holds after the body at position `n`. -/
def accAt (c : Dev nD) : (n : ℕ) → n < cfg0.N → Vec F S512x256 .f32
  | 0, hn => k0_pay2 (grid0.coords ⟨0, hn⟩) (fblk m c 0 ⟨0, hn⟩) (fblk m c 1 ⟨0, hn⟩) k0_pay1
  | n + 1, hn => k0_pay2 (grid0.coords ⟨n + 1, hn⟩) (fblk m c 0 ⟨n + 1, hn⟩) (fblk m c 1 ⟨n + 1, hn⟩)
      (if (n + 1) % 8 = 0 then k0_pay1 else accAt c n (Nat.lt_of_succ_lt hn))

theorem accAt_reset (c : Dev nD) (t : Fin cfg0.N) (h : t.val % 8 = 0) :
    accAt m c t.val t.isLt = k0_pay2 (grid0.coords t) (fblk m c 0 t) (fblk m c 1 t) k0_pay1 := by
  obtain ⟨n, hn⟩ := t
  cases n with
  | zero => rfl
  | succ n => show k0_pay2 _ _ _ (if (n + 1) % 8 = 0 then _ else _) = _; rw [if_pos h]

theorem accAt_step (c : Dev nD) (t : Fin cfg0.N) (h : ¬t.val % 8 = 0) :
    accAt m c t.val t.isLt = k0_pay2 (grid0.coords t) (fblk m c 0 t) (fblk m c 1 t) (accAt m c (t.val - 1) (Nat.lt_of_le_of_lt (Nat.sub_le _ _) t.isLt)) := by
  obtain ⟨n, hn⟩ := t
  cases n with
  | zero => exact absurd (Nat.zero_mod _) h
  | succ n => show k0_pay2 _ _ _ (if (n + 1) % 8 = 0 then _ else _) = _; rw [if_neg h]; rfl

/-- The output block stored at point `t`: the accumulator plus the bias row. -/
def outAt (c : Dev nD) (t : Fin cfg0.N) : Vec F S1x512x256 .f32 := k0_pay3 (accAt m c t.val t.isLt) (iblk m c 2 t)

/-- The invariant held before position `n`: before the first point the region invariant ΦA; afterwards the scratch at the accumulation. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-- The proof data: the arrays as the region finds them; after the body the two tiles at their blocks (unnamed past the
    arrays' ends), the bias buffer at its block, the output buffer at `outAt`; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => fblk m c 0 t
    | ⟨1, _⟩ => fblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = fblk m c 0 t := by dsimp only [dats]
theorem after_1 (c : Dev nD) (t : Fin cfg0.N) : (dats m 0 c).after 1 t = fblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- What the body finds: the two tiles just fetched (the block inside the array, `d` elsewhere), the bias row's block. -/
theorem before_0 (c : Dev nD) (t : Fin cfg0.N) (d) :
    (dats m 0 c).before 0 t d = (cfg0.win 0).fill (cfg0.grid.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = (cfg0.win 1).fill (cfg0.grid.coords t) d (iblk m c 1 t) := by
  unfold Dat.before; rw [if_pos (fetch0_1 t)]; unfold Dat.fetched Dat.blockOf iblk; rw [A_eq]
theorem before_2 (c : Dev nD) (t : Fin cfg0.N) (d) : (dats m 0 c).before 2 t d = iblk m c 2 t :=
  before0_2_of m (dats m 0 c) (A_eq m c 2) (after_2 m c) t d

/-- What each window's buffer is handed back at. -/
theorem leaves_0 (c : Dev nD) (t : Fin cfg0.N) :
    (dats m 0 c).leaves 0 t = iprop(∃ d, owns (c : Thread nD τ) (ms0 t) fullShare ((cfg0.win 0).fill (cfg0.grid.coords t) d (iblk m c 0 t))) := by
  unfold Dat.leaves; rw [live_0 t, after_0]; unfold fblk; simp only [Window.cut_fill]; rfl
theorem leaves_1 (c : Dev nD) (t : Fin cfg0.N) :
    (dats m 0 c).leaves 1 t = iprop(∃ d, owns (c : Thread nD τ) (ms1 t) fullShare ((cfg0.win 1).fill (cfg0.grid.coords t) d (iblk m c 1 t))) := by
  unfold Dat.leaves; rw [live_1 t, after_1]; unfold fblk; simp only [Window.cut_fill]; rfl
theorem leaves_2 (c : Dev nD) (t : Fin cfg0.N) :
    (dats m 0 c).leaves 2 t = owns (c : Thread nD τ) (ms2 t) fullShare (iblk m c 2 t) := by
  unfold Dat.leaves; rw [live_2 t, after_2]
theorem leaves_3_idle (c : Dev nD) (t : Fin cfg0.N) (h : ¬condLast (grid0.coords t)) :
    (dats m 0 c).leaves 3 t = iprop(∃ d, owns (c : Thread nD τ) (ms3 t) fullShare ((dats m 0 c).before 3 t d)) :=
  Dat.leaves_idle (dats m 0 c) 3 t (idle_3 t h) (noFlush_3 t h)
theorem leaves_3_live (c : Dev nD) (t : Fin cfg0.N) (h : condLast (grid0.coords t)) :
    (dats m 0 c).leaves 3 t = owns (c : Thread nD τ) (ms3 t) fullShare (outAt m c t) := by
  unfold Dat.leaves; rw [live_3 t h, after_3]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
/-- The body at any point, by the point's case (k = 0; 0 < k < 7; k = 7). -/
theorem sound_body (hT : TailFree m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 16 := lt_of_lt_of_eq t.isLt N16
  by_cases h0 : t.val % 8 = 0
  · -- the accumulator is reset
    have hc0 : condFirst (grid0.coords t) := (condFirst_iff t).mpr h0
    have hc1 : ¬condLast (grid0.coords t) := fun h => by have := (condLast_iff t).mp h; omega
    rw [leaves_3_idle m c t hc1, accAt_reset m c t h0]
    have hS : (dats m 0 c).Φ t.castSucc ⊢ (iprop(iprop(∃ d, owns (c : Thread nD τ) accM fullShare d) ∗ (∃ r, prngReg c r)) : sProp 𝕄) := by
      rw [PhiS_castSucc m c t]
      by_cases hz : t.val = 0
      · rw [PhiS_zero m c _ _ hz, PhiA_eq]
      · rw [PhiS_pos m c _ _ hz]
        iintro ⟨HS, Hg⟩
        isplitl [HS]; · iexists _; iexact HS
        iexact Hg
    iintro ⟨HΦ, Ho, ⟨%d0, H0⟩, ⟨%d1, H1⟩, ⟨%d2, H2⟩, ⟨%d3, H3⟩⟩
    ihave ⟨HS, Hg⟩ := hS $$ HΦ
    iapply ((runFirst c (grid0.coords t) (ms0 t) (hs0 t) (ms1 t) (hs1 t) (ms2 t) (hs2 t) (ms3 t) (hs3 t) accM (Memref.isWhole_whole _) hc0 hc1 _ _).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hg]
    · isplitl [HS]
      · unfold owns; iexists _; isplitr
        swap; · iexact HS
        ipureintro; exact (first_acc c _ _ _ _ _ _ _ _ _ _ _ hc0 hc1 _ _ _).trans (hT c t d0 d1 _)
      iexact Hg
    isplitl [Ho]; · iexact Ho
    isplitl [H0]; · iexists d0; iexact H0
    isplitl [H1]; · iexists d1; iexact H1
    isplitl [H2]; · iexact H2
    iexists d3; iexact H3
  · have hc0 : ¬condFirst (grid0.coords t) := fun h => h0 ((condFirst_iff t).mp h)
    have hz : t.val ≠ 0 := fun h => h0 (by rw [h])
    rw [PhiS_castSucc m c t, PhiS_pos m c _ _ hz, accAt_step m c t h0]
    by_cases h1 : t.val % 8 = 7
    · -- the output block is stored
      have hc1 : condLast (grid0.coords t) := (condLast_iff t).mpr h1
      rw [leaves_3_live m c t hc1]
      unfold outAt; rw [accAt_step m c t h0]
      iintro ⟨⟨HS, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) hc0 hc1 _ _ _ _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hg]
      · isplitl [HS]
        · unfold owns; iexists _; isplitr
          swap; · iexact HS
          ipureintro; exact (last_acc c _ _ _ _ _ _ _ _ _ _ _ hc0 hc1 _ _ _ _ _).trans (hT c t d0 d1 _)
        iexact Hg
      isplitl [Ho]; · iexact Ho
      isplitl [H0]; · iexists d0; iexact H0
      isplitl [H1]; · iexists d1; iexact H1
      isplitl [H2]; · iexact H2
      unfold owns; iexists _; isplitr
      swap; · iexact H3
      ipureintro; exact (last_out c _ _ _ _ _ _ _ _ _ _ _ hc0 hc1 _ _ _ _ _).trans (congrArg (fun a => k0_pay3 a (iblk m c 2 t)) (hT c t d0 d1 _))
    · -- neither
      have hc1 : ¬condLast (grid0.coords t) := fun h => h1 ((condLast_iff t).mp h)
      rw [leaves_3_idle m c t hc1]
      iintro ⟨⟨HS, Hg⟩, Ho, ⟨%d0, H0⟩, ⟨%d1, H1⟩, ⟨%d2, H2⟩, ⟨%d3, H3⟩⟩
      iapply ((runMid c (grid0.coords t) (ms0 t) (hs0 t) (ms1 t) (hs1 t) (ms2 t) (hs2 t) (ms3 t) (hs3 t) accM (Memref.isWhole_whole _) hc0 hc1 _ _ _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact (mid_acc c _ _ _ _ _ _ _ _ _ _ _ hc0 hc1 _ _ _ _).trans (hT c t d0 d1 _)
        iexact Hg
      isplitl [Ho]; · iexact Ho
      isplitl [H0]; · iexists d0; iexact H0
      isplitl [H1]; · iexists d1; iexact H1
      isplitl [H2]; · iexact H2
      iexists d3; iexact H3

/-- The library's body obligation, at every point. -/
theorem body_obligation (hT : TailFree m) (c : Dev nD) :
    BodyObligationLoose (dats (F := F) m 0 c) (defs₀ (F := F)) Variants.none () Set.univ := fun t => by
  rw [bigSep_W0, bigSep_W0]
  exact sound_body m hT c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N16; omega), PhiA_eq]
  iintro ⟨HS, Hg⟩
  isplitl [HS]
  · iexists _; iexact HS
  iexact Hg

set_option backward.isDefEq.respectTransparency.types false in
/-- The run: every weakly fair execution of @main terminates with every array of the region at what the proof data
    computes and every other unscoped buffer as the region found it. -/
theorem run_main (hT : TailFree m) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m hT c) (hshare := fun c => (dats m 0 c).share_full fun _ => rfl)
    (howed := fun _ _ => rfl) (V := V m) (hmain := hmain m Variants.none) (hA := A_eq m) (hin := hin m) (hout := hout m)

end Cert.KernelIdeal.Body

end
-- ==== Proof.AccValue.lean ====
/-
  The kernel body's arithmetic over the extended reals, read at one entry.

  The body keeps a 512 × 256 accumulator. At the first tile it is set to zero (`zero_block_apply`). At
  tile `k` (the grid's second coordinate) the body takes the tile's 512 × 4096 block of `X[b]`, replaces by
  zero the columns `j` with `4096 * k + j ≥ 30000` (the part of the last tile that overhangs the array),
  multiplies by the tile's 4096 × 256 block of `Hc` and adds the product to the accumulator: entry `(p, q)`
  grows by `∑ j, masked X-block (p, j) * Hc-block (j, q)` (`step_apply`). The changes of float format on the
  way into the product are the identity on extended reals, and a product into a zero accumulator is the
  plain sum. After the last tile the bias row is added to every row (`bias_apply`).

  The mask compares the column number `j` with `30000 - 4096 * k`, computed in 32-bit words; for `k < 8` and
  `j < 4096` neither wraps, so the comparison says `4096 * k + j < 30000` (`mask_iff`).
-/
import proofs.«128036_j12876311953624_2_alg».proof.Proof.Gen.KernelIdeal.Skeleton
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

open scoped BigOperators
open Cert.KernelIdeal Cert.KernelIdeal.Gen Idealize.ShloMosaic Idealize.ShloMosaic.ValueIdx

namespace Cert.KernelIdeal.AccValue

/-! ## The zero block -/

/-- The block the first tile stores into the accumulator is zero everywhere. -/
theorem zero_block_apply (j : S512x256.Idx) : k0_pay1 (F := Ideal) j = 0 := by
  show shapeCast S512x256 (broadcast S512x256 (Scalar.ofBits (F := Ideal) .f32 0x00000000#32))
    shapeCasts_S512x256_S512x256 j = 0
  rw [shapeCast_self]
  exact Ideal.ofBits_zero_f32

/-! ## The column mask -/

/-- For tile `k < 8` and column `j < 4096` of the tile, the 32-bit comparison `j < 30000 - 4096 * k` holds exactly
    when column `4096 * k + j` lies inside the array's 30000 columns: no word in it wraps. -/
theorem mask_iff (k j : ℕ) (hk : k < 8) (hj : j < 4096) :
    IntOp.cmpi .slt (BitVec.ofNat 32 j) (Scalar.subi 30000#32 (Scalar.muli (BitVec.ofNat 32 k) 4096#32)) = 1#1
      ↔ 4096 * k + j < 30000 := by
  have ej : Affine.IsInt (BitVec.ofNat 32 j) ((j : ℕ) : Int) := Affine.ofNat j ⟨rfl, by omega⟩
  have ek : Affine.IsInt (BitVec.ofNat 32 k) ((k : ℕ) : Int) := Affine.ofNat k ⟨rfl, by omega⟩
  have e4096 : Affine.IsInt 4096#32 ((4096 : ℕ) : Int) := Affine.ofNat 4096 ⟨rfl, by omega⟩
  have e30000 : Affine.IsInt 30000#32 ((30000 : ℕ) : Int) := Affine.ofNat 30000 ⟨rfl, by omega⟩
  have em : Affine.IsInt (Scalar.muli (BitVec.ofNat 32 k) 4096#32) (((k : ℕ) : Int) * ((4096 : ℕ) : Int)) :=
    Affine.muli ek e4096 ⟨rfl, by omega, by omega⟩
  have es : Affine.IsInt (Scalar.subi 30000#32 (Scalar.muli (BitVec.ofNat 32 k) 4096#32))
      (((30000 : ℕ) : Int) - ((k : ℕ) : Int) * ((4096 : ℕ) : Int)) :=
    Affine.subi e30000 em ⟨rfl, by omega, by omega⟩
  constructor
  · intro h
    by_contra hn
    exact Affine.slt_fails ej es (by omega) h
  · intro h
    exact Affine.slt_holds ej es (by omega)

/-! ## One accumulation step -/

/-- The left factor of tile `i 1`'s product: the tile's block of `X[b]` viewed 512 × 4096, with the columns that
    overhang the array replaced by zero (the change of float format is the identity on extended reals). -/
def maskedBlock (i : grid0.Coords) (xb : FVec Ideal S1x512x4096 .f32) : FVec Ideal S512x4096 .bf16 :=
  truncf .bf16
    (select
      (cmpi .slt (iota .tc S512x4096 32 [1] iota_S512x4096_d1_w32)
        (broadcast S512x4096 (Scalar.subi 30000#32 (Scalar.muli (BitVec.ofNat 32 (i 1).val) 4096#32))))
      (shapeCast S512x4096 xb shapeCasts_S1x512x4096_S512x4096)
      (broadcast S512x4096 (Scalar.ofBits (F := Ideal) .f32 0x00000000#32)))
    bitsLt_bf16_f32

/-- The masked block at `(p, j)`: the block's entry when column `4096 * k + j` exists, zero otherwise. -/
theorem maskedBlock_apply (i : grid0.Coords) (xb : FVec Ideal S1x512x4096 .f32) (p : Fin 512) (j : Fin 4096) :
    maskedBlock i xb (ix2 p j) = if 4096 * (i 1).val + j.val < 30000 then xb (ix3 (0 : Fin 1) p j) else 0 := by
  have hk : (i 1).val < 8 := (i 1).isLt
  have hi : iota .tc S512x4096 32 [1] iota_S512x4096_d1_w32 (ix2 p j) = BitVec.ofNat 32 j.val :=
    iota_single_apply .tc S512x4096 32 1 iota_S512x4096_d1_w32 (ix2 p j)
  have hs : shapeCast S512x4096 xb shapeCasts_S1x512x4096_S512x4096 (ix2 p j) = xb (ix3 (0 : Fin 1) p j) :=
    shapeCast_1ab_ab_apply xb shapeCasts_S1x512x4096_S512x4096 p j
  have hz : Scalar.ofBits (F := Ideal) .f32 0x00000000#32 = (0 : EReal) := Ideal.ofBits_zero_f32
  have hc : cmpi .slt (iota .tc S512x4096 32 [1] iota_S512x4096_d1_w32)
        (broadcast S512x4096 (Scalar.subi 30000#32 (Scalar.muli (BitVec.ofNat 32 (i 1).val) 4096#32))) (ix2 p j)
      = IntOp.cmpi .slt (iota .tc S512x4096 32 [1] iota_S512x4096_d1_w32 (ix2 p j))
          (Scalar.subi 30000#32 (Scalar.muli (BitVec.ofNat 32 (i 1).val) 4096#32)) := rfl
  unfold maskedBlock
  rw [truncf_apply, select_apply, hc, hi, hs, broadcast_apply, hz]
  unfold Scalar.select
  by_cases h : 4096 * (i 1).val + j.val < 30000
  · rw [if_pos h]
    exact if_pos ((mask_iff _ _ hk j.isLt).mpr h)
  · rw [if_neg h]
    exact if_neg (fun hc => h ((mask_iff _ _ hk j.isLt).mp hc))

/-- The step's payload, with its left factor named. -/
theorem pay2_eq (i : grid0.Coords) (xb : FVec Ideal S1x512x4096 .f32) (hb : FVec Ideal S4096x256 .bf16)
    (acc : FVec Ideal S512x256 .f32) :
    k0_pay2 (F := Ideal) i xb hb acc
      = shapeCast S512x256
          (addf acc
            (matmul dot_S512x4096_S4096x256_S512x256_1_0_0_1_n_n none (maskedBlock i xb)
              (shapeCast S4096x256 hb shapeCasts_S4096x256_S4096x256) (constant S512x256 .f32 0x00000000#32)))
          shapeCasts_S512x256_S512x256 := rfl

/-- The product's left operand index on its row axis is the output's row. -/
theorem lhs_row (j : S512x256.Idx) (kk : dot_S512x4096_S4096x256_S512x256_1_0_0_1_n_n.contr.Idx) :
    (dot_S512x4096_S4096x256_S512x256_1_0_0_1_n_n.lhsIdx j kk 0).val = (j 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl

/-- The product's right operand index on its column axis is the output's column. -/
theorem rhs_col (j : S512x256.Idx) (kk : dot_S512x4096_S4096x256_S512x256_1_0_0_1_n_n.contr.Idx) :
    (dot_S512x4096_S4096x256_S512x256_1_0_0_1_n_n.rhsIdx j kk 1).val = (j 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

/-- ONE ACCUMULATION STEP at entry `(p, q)`: the accumulator's entry plus the sum over the tile's 4096 columns of
    the masked `X` block times the `Hc` block. -/
theorem step_apply (i : grid0.Coords) (xb : FVec Ideal S1x512x4096 .f32) (hb : FVec Ideal S4096x256 .bf16)
    (acc : FVec Ideal S512x256 .f32) (p : Fin 512) (q : Fin 256) :
    k0_pay2 (F := Ideal) i xb hb acc (ix2 p q)
      = acc (ix2 p q)
        + ∑ j : Fin 4096, (if 4096 * (i 1).val + j.val < 30000 then xb (ix3 (0 : Fin 1) p j) else 0) * hb (ix2 j q) := by
  rw [pay2_eq, shapeCast_self, addf_apply]
  refine congrArg (acc (ix2 p q) + ·) ?_
  simp only [matmul]
  rw [Ideal.matmul_constant_zero_apply,
    ← Equiv.sum_comp (contrEquiv1 dot_S512x4096_S4096x256_S512x256_1_0_0_1_n_n 4096 rfl rfl).symm]
  refine Finset.sum_congr rfl fun j _ => ?_
  have hj := contrEquiv1_symm_val dot_S512x4096_S4096x256_S512x256_1_0_0_1_n_n 4096 rfl rfl j
  have el : dot_S512x4096_S4096x256_S512x256_1_0_0_1_n_n.lhsIdx (ix2 p q)
      ((contrEquiv1 dot_S512x4096_S4096x256_S512x256_1_0_0_1_n_n 4096 rfl rfl).symm j) = ix2 p j :=
    funext fun a => Fin.ext (by
      match a with
      | ⟨0, _⟩ => exact lhs_row _ _
      | ⟨1, _⟩ => exact (dot_S512x4096_S4096x256_S512x256_1_0_0_1_n_n.lhsIdx_val_of_single rfl _ _).trans hj)
  have er : dot_S512x4096_S4096x256_S512x256_1_0_0_1_n_n.rhsIdx (ix2 p q)
      ((contrEquiv1 dot_S512x4096_S4096x256_S512x256_1_0_0_1_n_n 4096 rfl rfl).symm j) = ix2 j q :=
    funext fun a => Fin.ext (by
      match a with
      | ⟨0, _⟩ => exact (dot_S512x4096_S4096x256_S512x256_1_0_0_1_n_n.rhsIdx_val_of_single rfl _ _).trans hj
      | ⟨1, _⟩ => exact rhs_col _ _)
  rw [el, er, maskedBlock_apply, shapeCast_self]

/-! ## The bias -/

/-- After the last tile the body adds the bias row to every row of the accumulator and stores the result as a
    `1 × 512 × 256` block. -/
theorem bias_apply (acc : FVec Ideal S512x256 .f32) (bias : FVec Ideal S1x256 .f32) (p : Fin 512) (q : Fin 256) :
    k0_pay3 (F := Ideal) acc bias (ix3 (0 : Fin 1) p q) = acc (ix2 p q) + bias (ix2 (0 : Fin 1) q) := by
  show shapeCast S1x512x256
      (addf acc (broadcastTo S512x256 (shapeCast S1x256 bias shapeCasts_S1x256_S1x256) broadcasts_S1x256_S512x256))
      shapeCasts_S512x256_S1x512x256 (ix3 (0 : Fin 1) p q) = _
  rw [shapeCast_ab_1ab_apply, addf_apply, broadcastTo_1b_ab_apply, shapeCast_self]

end Cert.KernelIdeal.AccValue

end
-- ==== Proof.AccSum.lean ====
/-
  The contraction over the 30000 columns, cut into eight tiles of 4096.

  Tile `k` holds columns `4096 * k` … `4096 * k + 4095`; the eight tiles reach column 32767, so the last
  one overhangs the array by 2768 columns, and those contribute zero. The sum over the tiles of the sum over
  a tile's columns is therefore the sum over the array's columns, each taken once (`tiles_sum`). The running
  sum after `n` tiles is `upTo f n`: zero before the first tile, one more tile's part at each step, and the
  whole sum after the eighth (`upTo_zero`, `upTo_succ`, `upTo_eight`). A tile's part of a product
  `X[b, p, v] * Hc[v, q]` is computed from the two blocks of the tile, the left one with its overhanging
  columns replaced by zero; what the right block holds there does not matter, since `0 * x = 0` for every
  extended real `x` (`step_sum_eq_tile`, `upTo_step`, `eight_steps`).
-/
import Mathlib.Algebra.BigOperators.Fin
import Mathlib.Algebra.BigOperators.Intervals
import Mathlib.Data.EReal.Basic
import Idealize.ShloMosaic.Lib.ValueIdx

open scoped BigOperators
open Idealize.ShloMosaic Idealize.ShloMosaic.ValueIdx

namespace Cert.KernelIdeal.AccValue

/-- `K` tiles of `T` consecutive naturals cover `0 … K * T - 1` once; a function that vanishes from `V` on,
    `V ≤ K * T`, therefore sums over the tiles to its sum over `0 … V - 1`. -/
theorem tiles_sum_nat {M : Type*} [AddCommMonoid M] (K T V : ℕ) (hV : V ≤ K * T) (g : ℕ → M)
    (hg : ∀ n, V ≤ n → g n = 0) :
    ∑ k : Fin K, ∑ j : Fin T, g (T * k.val + j.val) = ∑ v : Fin V, g v.val := by
  calc ∑ k : Fin K, ∑ j : Fin T, g (T * k.val + j.val)
      = ∑ p : Fin K × Fin T, g (T * p.1.val + p.2.val) := (Fintype.sum_prod_type (fun p : Fin K × Fin T => g (T * p.1.val + p.2.val))).symm
    _ = ∑ p : Fin K × Fin T, g (finProdFinEquiv p).val := Finset.sum_congr rfl fun p _ => by
          congr 1
          show T * p.1.val + p.2.val = p.2.val + T * p.1.val
          exact Nat.add_comm _ _
    _ = ∑ x : Fin (K * T), g x.val := Equiv.sum_comp finProdFinEquiv (fun x : Fin (K * T) => g x.val)
    _ = ∑ n ∈ Finset.range (K * T), g n := Fin.sum_univ_eq_sum_range g (K * T)
    _ = ∑ n ∈ Finset.range V, g n + ∑ n ∈ Finset.Ico V (K * T), g n := (Finset.sum_range_add_sum_Ico g hV).symm
    _ = ∑ n ∈ Finset.range V, g n := by
          rw [Finset.sum_eq_zero (fun n hn => hg n (Finset.mem_Ico.mp hn).1), add_zero]
    _ = ∑ v : Fin V, g v.val := (Fin.sum_univ_eq_sum_range g V).symm

/-- Eight tiles of 4096 columns cover the columns `0 … 29999` once; the last tile's columns from 30000 on
    contribute zero. -/
theorem tiles_sum {M : Type*} [AddCommMonoid M] (f : Fin 30000 → M) :
    ∑ k : Fin 8, ∑ j : Fin 4096, (if h : 4096 * k.val + j.val < 30000 then f ⟨4096 * k.val + j.val, h⟩ else 0)
      = ∑ v : Fin 30000, f v := by
  have h := tiles_sum_nat 8 4096 30000 (by norm_num) (fun n => if h : n < 30000 then f ⟨n, h⟩ else 0)
    (fun n hn => dif_neg (by omega))
  exact h.trans (Finset.sum_congr rfl fun v _ => dif_pos v.isLt)

/-- What tile `k` contributes to `∑ v, f v`: its 4096 columns from `4096 * k`, those past 29999 counting zero. -/
def tile {M : Type*} [AddCommMonoid M] (f : Fin 30000 → M) (k : ℕ) : M :=
  ∑ j : Fin 4096, if h : 4096 * k + j.val < 30000 then f ⟨4096 * k + j.val, h⟩ else 0

/-- The running sum after the first `n` tiles. -/
def upTo {M : Type*} [AddCommMonoid M] (f : Fin 30000 → M) (n : ℕ) : M := ∑ k ∈ Finset.range n, tile f k

theorem upTo_zero {M : Type*} [AddCommMonoid M] (f : Fin 30000 → M) : upTo f 0 = 0 := Finset.sum_range_zero _

theorem upTo_succ {M : Type*} [AddCommMonoid M] (f : Fin 30000 → M) (n : ℕ) : upTo f (n + 1) = upTo f n + tile f n :=
  Finset.sum_range_succ _ _

/-- After the eighth tile the running sum is the sum over all 30000 columns. -/
theorem upTo_eight {M : Type*} [AddCommMonoid M] (f : Fin 30000 → M) : upTo f 8 = ∑ v : Fin 30000, f v := by
  unfold upTo
  rw [← Fin.sum_univ_eq_sum_range (fun k => tile f k) 8]
  exact tiles_sum f

/-- One tile's product sum from the tile's two blocks. `xb` is the tile's block of `X[b]` (rows `p`, the tile's
    4096 columns) and `hb` its block of `Hc` (the tile's 4096 rows, columns `q`); they agree with the arrays
    wherever the tile lies inside them, and the left factor is replaced by zero on the overhang. -/
theorem step_sum_eq_tile (k : ℕ) (b : Fin 2) (p : Fin 512) (q : Fin 256)
    (X : (⟨3, ![2, 512, 30000]⟩ : Shape).Idx → EReal) (Hc : (⟨2, ![30000, 256]⟩ : Shape).Idx → EReal)
    (xb : (⟨3, ![1, 512, 4096]⟩ : Shape).Idx → EReal) (hb : (⟨2, ![4096, 256]⟩ : Shape).Idx → EReal)
    (hx : ∀ (j : Fin 4096) (h : 4096 * k + j.val < 30000),
      xb (ix3 (0 : Fin 1) p j) = X (ix3 b p (⟨4096 * k + j.val, h⟩ : Fin 30000)))
    (hh : ∀ (j : Fin 4096) (h : 4096 * k + j.val < 30000),
      hb (ix2 j q) = Hc (ix2 (⟨4096 * k + j.val, h⟩ : Fin 30000) q)) :
    ∑ j : Fin 4096, (if 4096 * k + j.val < 30000 then xb (ix3 (0 : Fin 1) p j) else 0) * hb (ix2 j q)
      = tile (fun v : Fin 30000 => X (ix3 b p v) * Hc (ix2 v q)) k := by
  unfold tile
  refine Finset.sum_congr rfl fun j _ => ?_
  by_cases h : 4096 * k + j.val < 30000
  · rw [if_pos h, dif_pos h, hx j h, hh j h]
  · rw [if_neg h, dif_neg h, zero_mul]

/-- One accumulation step: a value that is the running sum after `k` tiles, plus tile `k`'s product sum
    computed from its blocks, is the running sum after `k + 1` tiles. -/
theorem upTo_step (k : ℕ) (b : Fin 2) (p : Fin 512) (q : Fin 256)
    (X : (⟨3, ![2, 512, 30000]⟩ : Shape).Idx → EReal) (Hc : (⟨2, ![30000, 256]⟩ : Shape).Idx → EReal)
    (xb : (⟨3, ![1, 512, 4096]⟩ : Shape).Idx → EReal) (hb : (⟨2, ![4096, 256]⟩ : Shape).Idx → EReal)
    (hx : ∀ (j : Fin 4096) (h : 4096 * k + j.val < 30000),
      xb (ix3 (0 : Fin 1) p j) = X (ix3 b p (⟨4096 * k + j.val, h⟩ : Fin 30000)))
    (hh : ∀ (j : Fin 4096) (h : 4096 * k + j.val < 30000),
      hb (ix2 j q) = Hc (ix2 (⟨4096 * k + j.val, h⟩ : Fin 30000) q))
    (a : EReal) (ha : a = upTo (fun v : Fin 30000 => X (ix3 b p v) * Hc (ix2 v q)) k) :
    a + ∑ j : Fin 4096, (if 4096 * k + j.val < 30000 then xb (ix3 (0 : Fin 1) p j) else 0) * hb (ix2 j q)
      = upTo (fun v : Fin 30000 => X (ix3 b p v) * Hc (ix2 v q)) (k + 1) := by
  rw [upTo_succ, ha, step_sum_eq_tile k b p q X Hc xb hb hx hh]

/-- Eight accumulation steps from zero give the whole contraction `∑ v, X[b, p, v] * Hc[v, q]`. `A k` is the
    accumulator's entry before step `k`, and `xb k`, `hb k` are tile `k`'s blocks. -/
theorem eight_steps (b : Fin 2) (p : Fin 512) (q : Fin 256)
    (X : (⟨3, ![2, 512, 30000]⟩ : Shape).Idx → EReal) (Hc : (⟨2, ![30000, 256]⟩ : Shape).Idx → EReal)
    (xb : ℕ → (⟨3, ![1, 512, 4096]⟩ : Shape).Idx → EReal) (hb : ℕ → (⟨2, ![4096, 256]⟩ : Shape).Idx → EReal)
    (hx : ∀ k, k < 8 → ∀ (j : Fin 4096) (h : 4096 * k + j.val < 30000),
      xb k (ix3 (0 : Fin 1) p j) = X (ix3 b p (⟨4096 * k + j.val, h⟩ : Fin 30000)))
    (hh : ∀ k, k < 8 → ∀ (j : Fin 4096) (h : 4096 * k + j.val < 30000),
      hb k (ix2 j q) = Hc (ix2 (⟨4096 * k + j.val, h⟩ : Fin 30000) q))
    (A : ℕ → EReal) (h0 : A 0 = 0)
    (hstep : ∀ k, k < 8 → A (k + 1) = A k
      + ∑ j : Fin 4096, (if 4096 * k + j.val < 30000 then xb k (ix3 (0 : Fin 1) p j) else 0) * hb k (ix2 j q)) :
    A 8 = ∑ v : Fin 30000, X (ix3 b p v) * Hc (ix2 v q) := by
  have key : ∀ n, n ≤ 8 → A n = upTo (fun v : Fin 30000 => X (ix3 b p v) * Hc (ix2 v q)) n := by
    intro n
    induction n with
    | zero => intro _; rw [h0, upTo_zero]
    | succ n ih =>
      intro hn
      rw [hstep n (by omega)]
      exact upTo_step n b p q X Hc (xb n) (hb n) (hx n (by omega)) (hh n (by omega)) (A n) (ih (by omega))
  rw [key 8 (le_refl 8), upTo_eight]

end Cert.KernelIdeal.AccValue
-- ==== Proof.KITail.lean ====
/-
  The accumulated product, read off the arrays.

  Point `t = 8·b + k` of the grid stages tile `k` of `X[b]` (512 rows, columns `4096·k …`) and tile `k` of `Hc`
  (rows `4096·k …`, 256 columns). Tiles 0 … 6 lie inside their arrays; tile 7 starts at 28672 and only its first
  1328 columns (rows) exist, the rest of the staging block holding words nothing names. The accumulation step
  multiplies the `X` tile's overhanging columns by zero before the product, and zero times any extended real is
  zero, so the step does not depend on those words (`tailFree_ideal`).
-/
import proofs.«128036_j12876311953624_2_alg».proof.Proof.KIValueFrame
import proofs.«128036_j12876311953624_2_alg».proof.Proof.AccValue
import proofs.«128036_j12876311953624_2_alg».proof.Proof.AccSum

set_option maxRecDepth 16384

noncomputable section

open scoped BigOperators

namespace Cert.KernelIdeal.Tail

open Cert.KernelIdeal Cert.KernelIdeal.Gen Cert.KernelIdeal.Body
open Idealize.ShloMosaic Idealize.ShloMosaic.ValueIdx
open Idealize.ShloMosaic.Pipeline (Window)

/-! ## The tiles' extents over the grid -/

/-- What the transfer of the `X` tile at point `t` moves: one batch row, all 512 rows, and the tile's columns that
    exist — 4096 of them, or the 1328 left at the array's end. -/
theorem xsize_0 : ∀ t : Fin cfg0.N,
    win0_0.xsize (grid0.coords t) 0 = 1 ∧ win0_0.xsize (grid0.coords t) 1 = 512
      ∧ win0_0.xsize (grid0.coords t) 2 = min 4096 (30000 - 4096 * (grid0.coords t 1).val) :=
  (by decide +kernel : ∀ t : Fin grid0.N,
    win0_0.xsize (grid0.coords t) 0 = 1 ∧ win0_0.xsize (grid0.coords t) 1 = 512
      ∧ win0_0.xsize (grid0.coords t) 2 = min 4096 (30000 - 4096 * (grid0.coords t 1).val))

/-- What the transfer of the `Hc` tile at point `t` moves: the tile's rows that exist, all 256 columns. -/
theorem xsize_1 : ∀ t : Fin cfg0.N,
    win0_1.xsize (grid0.coords t) 0 = min 4096 (30000 - 4096 * (grid0.coords t 1).val)
      ∧ win0_1.xsize (grid0.coords t) 1 = 256 :=
  (by decide +kernel : ∀ t : Fin grid0.N,
    win0_1.xsize (grid0.coords t) 0 = min 4096 (30000 - 4096 * (grid0.coords t 1).val)
      ∧ win0_1.xsize (grid0.coords t) 1 = 256)

/-- An entry of the `X` tile whose column exists in the array is moved by the tile's transfer. -/
theorem moved_0 (t : Fin cfg0.N) (p : Fin 512) (j : Fin 4096) (h : 4096 * (grid0.coords t 1).val + j.val < 30000) :
    win0_0.moved (grid0.coords t) (ix3 (0 : Fin 1) p j) = true :=
  (win0_0.moved_iff (grid0.coords t) (ix3 (0 : Fin 1) p j)).mpr fun a => by
    obtain ⟨h0, h1, h2⟩ := xsize_0 t
    match a with
    | ⟨0, _⟩ => show (0 : ℕ) < win0_0.xsize (grid0.coords t) 0; rw [h0]; exact Nat.one_pos
    | ⟨1, _⟩ => show p.val < win0_0.xsize (grid0.coords t) 1; rw [h1]; exact p.isLt
    | ⟨2, _⟩ => show j.val < win0_0.xsize (grid0.coords t) 2; rw [h2]; have := j.isLt; omega

/-- An entry of the `Hc` tile whose row exists in the array is moved by the tile's transfer. -/
theorem moved_1 (t : Fin cfg0.N) (j : Fin 4096) (q : Fin 256) (h : 4096 * (grid0.coords t 1).val + j.val < 30000) :
    win0_1.moved (grid0.coords t) (ix2 j q) = true :=
  (win0_1.moved_iff (grid0.coords t) (ix2 j q)).mpr fun a => by
    obtain ⟨h0, h1⟩ := xsize_1 t
    match a with
    | ⟨0, _⟩ => show j.val < win0_1.xsize (grid0.coords t) 0; rw [h0]; have := j.isLt; omega
    | ⟨1, _⟩ => show q.val < win0_1.xsize (grid0.coords t) 1; rw [h1]; exact q.isLt

/-- Where the transfer moves an entry, the staged block holds the fetched value whatever filled the buffer. -/
theorem fill_eq_of_moved {α : Type} (w : Window sig grid0) (i : grid0.Coords) (d d' : w.block.Idx → α)
    (g : (w.xblock i).Idx → α) (j : w.block.Idx) (h : w.moved i j = true) : w.fill i d g j = w.fill i d' g j := by
  unfold Window.fill
  rw [dif_pos h, dif_pos h]

/-! ## The step does not read the tiles' tails -/

variable (m : (ℓ : Loc nD τ sig) → Buf (Elt Ideal) ℓ)

/-- Over the extended reals the accumulation step is a function of the tiles' parts inside the arrays alone. -/
theorem tailFree_ideal : Body.TailFree (F := Ideal) m := by
  intro c t d0 d1 s
  funext idx
  obtain ⟨p, q, rfl⟩ : ∃ (p : Fin 512) (q : Fin 256), idx = ix2 p q := ⟨idx 0, idx 1, eq_ix2 idx⟩
  refine (AccValue.step_apply (grid0.coords t) _ _ s p q).trans
    (Eq.trans ?_ (AccValue.step_apply (grid0.coords t) _ _ s p q).symm)
  refine congrArg (s (ix2 p q) + ·) (Finset.sum_congr rfl fun j _ => ?_)
  by_cases h : 4096 * (grid0.coords t 1).val + j.val < 30000
  · rw [if_pos h, if_pos h]
    exact congrArg₂ (· * ·)
      (fill_eq_of_moved win0_0 (grid0.coords t) d0 _ (iblk m c 0 t) (ix3 (0 : Fin 1) p j) (moved_0 t p j h))
      (fill_eq_of_moved win0_1 (grid0.coords t) d1 _ (iblk m c 1 t) (ix2 j q) (moved_1 t j q h))
  · rw [if_neg h, if_neg h, zero_mul, zero_mul]

end Cert.KernelIdeal.Tail

end
-- ==== Proof.KIRunValue.lean ====
/-
  The idealized kernel's run with its result NAMED: every weakly fair execution terminates with the result array at what
  the proof data computes from the write-backs (`arrAt`), and the argument arrays unchanged. Over the extended reals the
  accumulation step does not see the clipped tiles' tails, so the value-tracking run applies.
-/
import proofs.«128036_j12876311953624_2_alg».proof.Proof.KIValueFrame
import proofs.«128036_j12876311953624_2_alg».proof.Proof.KITail

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

theorem run_named :
    θ_run defs (onTc (τ := τ) (main (F := Ideal))) ⟨m, fun _ => 0, ρ⟩ (fun r => ∀ c : Dev nD,
      r.2.mem ((c.tc : Thread nD τ).loc main_v149) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ (Cert.KernelIdeal.Tail.tailFree_ideal m))

end Cert.KernelIdeal.Body

end
-- ==== Proof.KernelHc.lean ====
/-
  The kernel's projected table, read at an index.

  On the host the kernel adds its two attention tables, contracts the sum against the TRANSPOSE of the
  projection matrix `W` over the 256 columns of the tables (rows of the transpose), and changes the format
  of the result, which on the extended reals is the identity.  At the index `(v, q)` that is
    `∑ h, (H0[v,h] + H1[v,h]) * W[q,h]`:
  the transpose read at `(h, q)` is `W` read at `(q, h)`.
-/
import proofs.«128036_j12876311953624_2_alg».proof.KernelIdeal
import Idealize.ShloMosaic.Lib.Pipeline.Value
import Idealize.ShloMosaic.Lib.ValueIdx
import Idealize.ShloMosaic.PureOps.Ideal.Laws

noncomputable section

namespace KernelHc

open Cert.KernelIdeal Idealize.ShloMosaic Idealize.ShloMosaic.ValueIdx

open scoped BigOperators

variable [Facts]
open Facts₀ Facts

/-- The kernel's last host operations on the two tables `h0`, `h1` and the projection matrix `fcw`:
the sum of the tables contracted against the transpose of `fcw`, then the change of format. -/
def hcOf (h0 h1 : FVec Ideal S30000x256 .f32) (fcw : FVec Ideal S256x256 .f32) : FVec Ideal S30000x256 .bf16 :=
  truncf .bf16
    (Host.dotGeneral (F := Ideal) dot_S30000x256_S256x256_S30000x256_1_0_0_1_n_n none (addf (F := Ideal) h0 h1)
      (transpose S256x256 [1, 0] fcw transposes_S256x256_S256x256_1_0))
    bitsLt_bf16_f32

theorem lhsIdx_row (i : S30000x256.Idx) (k : dot_S30000x256_S256x256_S30000x256_1_0_0_1_n_n.contr.Idx) :
    (dot_S30000x256_S256x256_S30000x256_1_0_0_1_n_n.lhsIdx i k 0).val = (i 0).val := by
  unfold DotDims.lhsIdx
  rw [dif_neg (show ¬(0 : Fin S30000x256.rank) ∈ dot_S30000x256_S256x256_S30000x256_1_0_0_1_n_n.lhsBatch from List.not_mem_nil), dif_pos (show (0 : Fin S30000x256.rank) ∈ dot_S30000x256_S256x256_S30000x256_1_0_0_1_n_n.lhsNonContracting from List.mem_singleton.mpr rfl)]
  rfl

theorem rhsIdx_col (i : S30000x256.Idx) (k : dot_S30000x256_S256x256_S30000x256_1_0_0_1_n_n.contr.Idx) :
    (dot_S30000x256_S256x256_S30000x256_1_0_0_1_n_n.rhsIdx i k 1).val = (i 1).val := by
  unfold DotDims.rhsIdx
  rw [dif_neg (show ¬(1 : Fin S256x256.rank) ∈ dot_S30000x256_S256x256_S30000x256_1_0_0_1_n_n.rhsBatch from List.not_mem_nil), dif_pos (show (1 : Fin S256x256.rank) ∈ dot_S30000x256_S256x256_S30000x256_1_0_0_1_n_n.rhsNonContracting from List.mem_singleton.mpr rfl)]
  rfl

/-- The transpose of the projection matrix at `(h, q)` is the matrix at `(q, h)`. -/
theorem transpose_fcw_apply (fcw : FVec Ideal S256x256 .f32) (h q : Fin 256) :
    transpose S256x256 [1, 0] fcw transposes_S256x256_S256x256_1_0 (ix2 h q) = fcw (ix2 q h) :=
  transpose_apply [1, 0] fcw transposes_S256x256_S256x256_1_0 (ix2 h q) (ix2 q h) (fun b => match b with
    | ⟨0, _⟩ => rfl
    | ⟨1, _⟩ => rfl)

/-- The projected table at the index `(v, q)`. -/
theorem hcOf_apply (h0 h1 : FVec Ideal S30000x256 .f32) (fcw : FVec Ideal S256x256 .f32) (v : Fin 30000) (q : Fin 256) :
    hcOf h0 h1 fcw (ix2 v q) = ∑ h : Fin 256, (h0 (ix2 v h) + h1 (ix2 v h)) * fcw (ix2 q h) := by
  unfold hcOf
  rw [truncf_apply]
  simp only [Host.dotGeneral]
  rw [Ideal.dotGeneral_apply, ← Equiv.sum_comp (contrEquiv1 dot_S30000x256_S256x256_S30000x256_1_0_0_1_n_n 256 rfl rfl).symm]
  refine Finset.sum_congr rfl fun k _ => ?_
  have hk := contrEquiv1_symm_val dot_S30000x256_S256x256_S30000x256_1_0_0_1_n_n 256 rfl rfl k
  have el : dot_S30000x256_S256x256_S30000x256_1_0_0_1_n_n.lhsIdx (ix2 v q) ((contrEquiv1 dot_S30000x256_S256x256_S30000x256_1_0_0_1_n_n 256 rfl rfl).symm k) = ix2 v k := funext fun a => Fin.ext (by
    match a with
    | ⟨0, _⟩ => exact lhsIdx_row _ _
    | ⟨1, _⟩ => exact (dot_S30000x256_S256x256_S30000x256_1_0_0_1_n_n.lhsIdx_val_of_single rfl _ _).trans hk)
  have er : dot_S30000x256_S256x256_S30000x256_1_0_0_1_n_n.rhsIdx (ix2 v q) ((contrEquiv1 dot_S30000x256_S256x256_S30000x256_1_0_0_1_n_n 256 rfl rfl).symm k) = ix2 k q := funext fun a => Fin.ext (by
    match a with
    | ⟨0, _⟩ => exact (dot_S30000x256_S256x256_S30000x256_1_0_0_1_n_n.rhsIdx_val_of_single rfl _ _).trans hk
    | ⟨1, _⟩ => exact rhsIdx_col _ _)
  rw [el, er, addf_apply, transpose_fcw_apply]

/-- The bias row laid out as one row of 256 entries, at `(z, q)` (the row coordinate `z` can only be 0). -/
theorem biasRow_apply (fcb : FVec Ideal S256 .f32) (z : Fin 1) (q : Fin 256) :
    shapeCast S1x256 fcb shapeCasts_S256_S1x256 (ix2 z q) = fcb (ix1 q) :=
  shapeCast_apply fcb shapeCasts_S256_S1x256 (ix2 z q) (ix1 q) (by
    rw [Shape.rowMajor_val_one, Shape.rowMajor_val_two]
    have hz : z.val < 1 := z.isLt
    show q.val = z.val * 256 + q.val
    omega)

end KernelHc

end
-- ==== Proof.KernelHost.lean ====
/-
  What the kernel's region finds in its windows' arrays.

  Before its one region the kernel's @main runs a line of host operations.  The last five of them add the
  two attention tables, transpose the projection matrix, contract, change the format, and lay the bias out
  as one row; nothing after them runs before the region.  So the contents the region finds are the contents
  after the earlier operations, rewritten by these five: the projected table is `KernelHc.hcOf` of the two
  attention tables and the projection matrix as the region finds them, the bias row is the bias argument
  re-laid, and every other array is what the earlier operations left.
-/
import proofs.«128036_j12876311953624_2_alg».proof.Proof.Gen.KernelIdeal.Frame
import proofs.«128036_j12876311953624_2_alg».proof.Proof.KernelHc
import Idealize.ShloMosaic.Lib.StableHlo.Run

noncomputable section

namespace Cert.KernelIdeal.Host

open Cert.KernelIdeal Cert.KernelIdeal.Gen Idealize.ShloMosaic Idealize.ShloMosaic.TcCoe Idealize.ShloMosaic.StableHlo
open Idealize.SL.Sem

variable {F : FTy → Type} [FloatOps F]

/-- The last five host operations before the region. -/
abbrev lastOps : List (HloOp τ sig (Elt F)) :=
  [ StableHlo.binary main_v71 main_v143 main_v144 (addf : (⟨S30000x256, .f32⟩ : BufTy).Contents (Elt F) → (⟨S30000x256, .f32⟩ : BufTy).Contents (Elt F) → (⟨S30000x256, .f32⟩ : BufTy).Contents (Elt F)),
    StableHlo.unary main_arg5 main_v145 ((transpose S256x256 [1, 0] · transposes_S256x256_S256x256_1_0) : (⟨S256x256, .f32⟩ : BufTy).Contents (Elt F) → (⟨S256x256, .f32⟩ : BufTy).Contents (Elt F)),
    StableHlo.binary main_v144 main_v145 main_v146 ((fun l r => Host.dotGeneral dot_S30000x256_S256x256_S30000x256_1_0_0_1_n_n none l r) : (⟨S30000x256, .f32⟩ : BufTy).Contents (Elt F) → (⟨S256x256, .f32⟩ : BufTy).Contents (Elt F) → (⟨S30000x256, .f32⟩ : BufTy).Contents (Elt F)),
    StableHlo.unary main_v146 main_v147 ((truncf .bf16 · bitsLt_bf16_f32) : (⟨S30000x256, .f32⟩ : BufTy).Contents (Elt F) → (⟨S30000x256, .bf16⟩ : BufTy).Contents (Elt F)),
    StableHlo.reshape main_arg6 main_v148 rfl shapeCasts_S256_S1x256 ]

/-- The last stretch of host operations is its first 26 operations followed by the last five. -/
theorem hostOps0_4_eq : (hostOps0_4 : List (HloOp τ sig (Elt F))) = hostOps0_4.take 26 ++ lastOps := rfl

/-- Five lists joined are the first four joined, then the fifth. -/
theorem flatten_five {α : Type} (a b c d e : List α) : List.flatten [a, b, c, d, e] = List.flatten [a, b, c, d] ++ e := by
  simp only [List.flatten_cons, List.flatten_nil, List.append_nil, List.append_assoc]

variable (m : (ℓ : Loc nD τ sig) → Buf (Elt F) ℓ)

/-- Core `c`'s buffers before the last five host operations. -/
def W (c : Dev nD) : Valuation τ sig (Elt F) :=
  after (List.flatten [hostOps0, hostOps0_1, hostOps0_2, hostOps0_3] ++ hostOps0_4.take 26) (fun b => m (c, b))

/-- The region's entry contents are the last five operations run from `W`. -/
theorem V_eq_after_lastOps (c : Dev nD) (b : Ref sig .tc) : V m c b = after lastOps (W m c) (b : DevRef τ sig) := by
  show after (List.flatten [hostOps0, hostOps0_1, hostOps0_2, hostOps0_3, hostOps0_4]) (fun b => m (c, b)) b = _
  rw [flatten_five]
  refine (congrArg (fun l => after (List.flatten [hostOps0, hostOps0_1, hostOps0_2, hostOps0_3] ++ l) (fun b => m (c, b)) b)
    hostOps0_4_eq).trans ?_
  show after (List.flatten [hostOps0, hostOps0_1, hostOps0_2, hostOps0_3] ++ (hostOps0_4.take 26 ++ lastOps)) (fun b => m (c, b)) b = _
  rw [← List.append_assoc, after_append]
  rfl

/-! ## The last five operations, from any contents -/

section FromAny

variable (X : Valuation τ sig (Elt F))

theorem lastOps_main_v71 : after lastOps X (main_v71 : DevRef τ sig) = X (main_v71 : DevRef τ sig) := by
  after_results
theorem lastOps_main_v143 : after lastOps X (main_v143 : DevRef τ sig) = X (main_v143 : DevRef τ sig) := by
  after_results
theorem lastOps_main_arg5 : after lastOps X (main_arg5 : DevRef τ sig) = X (main_arg5 : DevRef τ sig) := by
  after_results
theorem lastOps_main_arg6 : after lastOps X (main_arg6 : DevRef τ sig) = X (main_arg6 : DevRef τ sig) := by
  after_results

end FromAny

theorem lastOps_main_v147 (X : Valuation τ sig (Elt Ideal)) :
    (after lastOps X (main_v147 : DevRef τ sig) : S30000x256.Idx → Ideal .bf16)
      = KernelHc.hcOf (X (main_v71 : DevRef τ sig)) (X (main_v143 : DevRef τ sig)) (X (main_arg5 : DevRef τ sig)) := by
  after_results
  rfl

theorem lastOps_main_v148 (X : Valuation τ sig (Elt F)) :
    (after lastOps X (main_v148 : DevRef τ sig) : S1x256.Idx → F .f32)
      = shapeCast S1x256 (X (main_arg6 : DevRef τ sig)) shapeCasts_S256_S1x256 := by
  after_results
  rfl

/-! ## The windows' arrays as the region finds them -/

/-- The projected table (the array of the region's second input window) is `KernelHc.hcOf` of the two attention
tables as the region finds them and of the projection matrix as launched. -/
theorem V_main_v147 (m : (ℓ : Loc nD τ sig) → Buf (Elt Ideal) ℓ) (c : Dev nD) :
    (V m c main_v147 : S30000x256.Idx → Ideal .bf16)
      = KernelHc.hcOf (V m c main_v71) (V m c main_v143) (m ((c : Thread nD τ).loc main_arg5)) := by
  have e := lastOps_main_v147 (W m c)
  rw [← lastOps_main_v71 (W m c), ← lastOps_main_v143 (W m c), ← lastOps_main_arg5 (W m c),
    ← V_eq_after_lastOps m c main_v147, ← V_eq_after_lastOps m c main_v71, ← V_eq_after_lastOps m c main_v143,
    ← V_eq_after_lastOps m c main_arg5, V_main_arg5] at e
  exact e

/-- The bias row (the array of the region's third input window) is the bias argument as launched, laid out as one
row of 256 entries. -/
theorem V_main_v148 (c : Dev nD) :
    (V m c main_v148 : S1x256.Idx → F .f32)
      = shapeCast S1x256 (m ((c : Thread nD τ).loc main_arg6)) shapeCasts_S256_S1x256 := by
  have e := lastOps_main_v148 (W m c)
  rw [← lastOps_main_arg6 (W m c), ← V_eq_after_lastOps m c main_v148, ← V_eq_after_lastOps m c main_arg6, V_main_arg6] at e
  exact e

end Cert.KernelIdeal.Host

end
-- ==== Proof.LibGatherScatter.lean ====
/-
  Rows of a rank-2 array selected by a column of integer words, read at an index.

  `x[idx]` of an array `x : [N, C]` at an index column `idx : [E, 1]` is a gather whose result row `e` is
  the row of `x` that the word `idx[e, 0]` names, the word read as a signed integer and clamped into `[0, N − 1]`.
  The sum of the rows of `upd : [E, C]` into the rows of `x : [N, C]` that the same kind of column names is a
  scatter whose combining function is addition: row `p` of the result is row `p` of `x` plus the sum of the rows `e` of
  `upd` whose word, read signed and NOT clamped, is `p`; a row whose word falls outside `[0, N)` is dropped.
  The library states both through lists of axes and list lookups; here their dimension numbers are fixed, the
  lookups are carried out once, and each operation is stated as a plain equation between elements.
-/
import Idealize.ShloMosaic.PureOps.Ideal
import Idealize.ShloMosaic.Lib.ValueIdx
import Idealize.ShloMosaic.Lib.Pipeline.Value

noncomputable section

open scoped BigOperators

namespace Idealize.ShloMosaic.ValueIdx

open Idealize.ShloMosaic

/-! ## The row a word names -/

/-- The row a start-index word selects: read signed, negative to 0, clamped to the last row. -/
def clampRow (N : Nat) (hN : 0 < N) {w : Nat} (v : BitVec w) : Fin N := ⟨min v.toInt.toNat (N - 1), by omega⟩

/-- The row an update lands on: the word read signed, when it is a row; none when it falls outside. -/
def landRow (N : Nat) {w : Nat} (v : BitVec w) : Option (Fin N) :=
  if h : 0 ≤ v.toInt ∧ v.toInt < (N : Int) then some ⟨v.toInt.toNat, by omega⟩ else none

/-- An index that lands is not moved by the clamp. -/
theorem landRow_clampRow {N w : Nat} (hN : 0 < N) (v : BitVec w) (p : Fin N) (h : landRow N v = some p) :
    clampRow N hN v = p := by
  unfold landRow at h
  split at h
  · rename_i hv
    obtain rfl := Option.some.inj h
    refine Fin.ext ?_
    show min v.toInt.toNat (N - 1) = v.toInt.toNat
    omega
  · exact absurd h (by simp)

/-! ## Rows gathered by an index column -/

section GatherRows
variable {α : Type}

/-- The dimension numbers of `x[idx]` for an operand `[N, C]`, an index column `[E, 1]` and the result `[E, C]`: axis 0
    of the operand is indexed and collapsed, axis 1 is taken whole as the result's axis 1. Their conditions `wf` are
    decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result index `(e, q)` reads its one start-index component at `[e, 0]` of the index column. -/
theorem rowGather_siIdx {N E C : Nat}
    (wf : GatherDims.WF ⟨2, ![N, C]⟩ ⟨2, ![E, 1]⟩ ⟨2, ![E, C]⟩ [1] [0] [] [0] [] 1 ![1, C])
    (e : Fin E) (q : Fin C) (c : Fin (rowGatherDims N E C wf).startIndexMap.length) :
    (rowGatherDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the slice starts at the word of `[e, 0]`, read signed and clamped into `[0, N − 1]`. -/
theorem rowGather_start0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 0 = min (idx (ix2 e (0 : Fin 1))).toInt.toNat (N - 1) := by
  unfold GatherDims.start
  rw [dif_pos (show (0 : Fin 2) ∈ (rowGatherDims N E C wf).startIndexMap from List.mem_singleton.mpr rfl)]
  rw [rowGather_siIdx]
  rfl

/-- On the column axis, which the start index does not name, the slice starts at 0. -/
theorem rowGather_start1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 1 = 0 := by
  unfold GatherDims.start
  rw [dif_neg (show (1 : Fin 2) ∉ (rowGatherDims N E C wf).startIndexMap from
    (by decide : (1 : Fin 2) ∉ [(0 : Fin 2)]))]

/-- The row axis is collapsed: no offset on it. -/
theorem rowGather_offCoord0 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 0 = 0 :=
  GatherDims.offCoord_eq_zero _ _ _ (fun h => ((GatherDims.mem_sKept _ _).mp h).1 (List.mem_singleton.mpr rfl))

/-- The column axis is the one kept axis: its offset is the result's column. -/
theorem rowGather_offCoord1 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 1 = q.val := by
  unfold GatherDims.offCoord
  rw [dif_pos (show (1 : Fin 2) ∈ (rowGatherDims N E C wf).sKept from
    (GatherDims.mem_sKept _ _).mpr ⟨(by decide : (1 : Fin 2) ∉ [(0 : Fin 2)]), List.not_mem_nil⟩)]
  rfl

/-- THE ROW GATHER READ AT `(e, q)`: column `q` of the operand's row that the word `idx[e, 0]` names, read signed
    and clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 (clampRow N hN (idx (ix2 e (0 : Fin 1)))) q) := by
  unfold Host.gather
  congr 1
  funext a
  refine Fin.ext ?_
  show (rowGatherDims N E C wf).start (ix2 e q) idx a + (rowGatherDims N E C wf).batchCoord (ix2 e q) a
    + (rowGatherDims N E C wf).offCoord (ix2 e q) a = _
  rw [GatherDims.batchCoord_eq_zero _ _ _ List.not_mem_nil]
  match a with
  | ⟨0, _⟩ =>
    show (rowGatherDims N E C wf).start (ix2 e q) idx 0 + 0 + (rowGatherDims N E C wf).offCoord (ix2 e q) 0 = _
    rw [rowGather_start0, rowGather_offCoord0]
    rfl
  | ⟨1, _⟩ =>
    show (rowGatherDims N E C wf).start (ix2 e q) idx 1 + 0 + (rowGatherDims N E C wf).offCoord (ix2 e q) 1 = _
    rw [rowGather_start1, rowGather_offCoord1]
    simp

end GatherRows

/-! ## Elements of a vector gathered by an index column -/

section GatherVec
variable {α : Type}

/-- The dimension numbers of `x[idx]` for a vector `[N]`, an index column `[E, 1]` and the result `[E]`: the vector's
    one axis is indexed and collapsed. Their conditions `wf` are decided on a program's literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result index `e` reads its one start-index component at `[e, 0]` of the index column. -/
theorem vecGather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e (0 : Fin 1) := by
  funext b; refine Fin.ext ?_
  match b with
  | ⟨0, _⟩ => rfl
  | ⟨1, _⟩ =>
    have := c.isLt
    show c.val = 0
    simp only [List.length_singleton] at this
    omega

/-- THE VECTOR GATHER READ AT `e`: the vector's element that the word `idx[e, 0]` names, read signed and clamped into
    `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [vecGather_siIdx]
  rfl

end GatherVec

/-! ## Rows added into the rows an index column names -/

section ScatterRows

/-- The dimension numbers of the row sum `x.at[idx].add(upd)` for an operand `[N, C]`, an index column `[E, 1]` and
    updates `[E, C]`: the word of `[e, 0]` names the operand's row, axis 1 of the updates is the window and goes to the
    operand's axis 1. Their conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update index `(e, q)` reads its one start-index component at `[e, 0]` of the index column. -/
theorem rowScatter_siIdx {N E C : Nat}
    (wf : ScatterDims.WF ⟨2, ![N, C]⟩ ⟨2, ![E, 1]⟩ ⟨2, ![E, C]⟩ [1] [0] [0] 1)
    (e : Fin E) (q : Fin C) (c : Fin (rowScatterDims N E C wf).scatterDimsToOperandDims.length) :
    (rowScatterDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the window starts at the word of `[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  rw [rowScatter_siIdx]

/-- On the column axis, which the scatter index does not name, the window starts at 0. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 1 = 0 := by
  unfold ScatterDims.start
  rw [dif_neg (show (1 : Fin 2) ∉ (rowScatterDims N E C wf).scatterDimsToOperandDims from
    (by decide : (1 : Fin 2) ∉ [(0 : Fin 2)]))]

/-- The operand's kept axes are the ones that are not the row axis. -/
theorem rowScatter_mem_sKept {N E C : Nat}
    (wf : ScatterDims.WF ⟨2, ![N, C]⟩ ⟨2, ![E, 1]⟩ ⟨2, ![E, C]⟩ [1] [0] [0] 1) (a : Fin 2) :
    a ∈ (rowScatterDims N E C wf).sKept ↔ a ∉ [(0 : Fin 2)] := by
  simp [ScatterDims.sKept, Shape.kept, List.mem_filter, List.mem_finRange]

/-- The row axis is an inserted window axis: the window coordinate on it is 0. -/
theorem rowScatter_window0 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  rw [dif_neg (show (0 : Fin 2) ∉ (rowScatterDims N E C wf).sKept from fun h =>
    (rowScatter_mem_sKept wf 0).mp h (List.mem_singleton.mpr rfl))]

/-- The column axis is the one kept axis: the window coordinate on it is the update's column. -/
theorem rowScatter_window1 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 1 = q.val := by
  unfold ScatterDims.window
  rw [dif_pos (show (1 : Fin 2) ∈ (rowScatterDims N E C wf).sKept from
    (rowScatter_mem_sKept wf 1).mpr (by decide : (1 : Fin 2) ∉ [(0 : Fin 2)]))]
  rfl

/-- WHERE UPDATE `(e, q)` LANDS: on column `q` of the row the word `idx[e, 0]` names, when that word read signed is a
    row of the operand; nowhere when it is not. -/
theorem scatter_rows_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).resultIdx? (ix2 e q) idx
      = (landRow N (idx (ix2 e (0 : Fin 1)))).map fun p => ix2 p q := by
  have hs0 := rowScatter_start0 wf idx e q
  have hs1 := rowScatter_start1 wf idx e q
  have hw0 := rowScatter_window0 wf e q
  have hw1 := rowScatter_window1 wf e q
  unfold ScatterDims.resultIdx? landRow
  by_cases h : 0 ≤ (idx (ix2 e (0 : Fin 1))).toInt ∧ (idx (ix2 e (0 : Fin 1))).toInt < (N : Int)
  · have hall : ∀ a : Fin 2, 0 ≤ (rowScatterDims N E C wf).start (ix2 e q) idx a + (rowScatterDims N E C wf).window (ix2 e q) a ∧
        (rowScatterDims N E C wf).start (ix2 e q) idx a + (rowScatterDims N E C wf).window (ix2 e q) a
          < ((⟨2, ![N, C]⟩ : Shape).size a : Int) := by
      intro a
      match a with
      | ⟨0, _⟩ =>
        show 0 ≤ (rowScatterDims N E C wf).start (ix2 e q) idx 0 + (rowScatterDims N E C wf).window (ix2 e q) 0 ∧
          (rowScatterDims N E C wf).start (ix2 e q) idx 0 + (rowScatterDims N E C wf).window (ix2 e q) 0 < (N : Int)
        rw [hs0, hw0]
        omega
      | ⟨1, _⟩ =>
        show 0 ≤ (rowScatterDims N E C wf).start (ix2 e q) idx 1 + (rowScatterDims N E C wf).window (ix2 e q) 1 ∧
          (rowScatterDims N E C wf).start (ix2 e q) idx 1 + (rowScatterDims N E C wf).window (ix2 e q) 1 < (C : Int)
        rw [hs1, hw1]
        have := q.isLt
        omega
    rw [dif_pos hall, dif_pos h]
    simp only [Option.map_some]
    congr 1
    funext a
    refine Fin.ext ?_
    match a with
    | ⟨0, _⟩ =>
      show ((rowScatterDims N E C wf).start (ix2 e q) idx 0 + (rowScatterDims N E C wf).window (ix2 e q) 0).toNat = _
      rw [hs0, hw0]
      simp
    | ⟨1, _⟩ =>
      show ((rowScatterDims N E C wf).start (ix2 e q) idx 1 + (rowScatterDims N E C wf).window (ix2 e q) 1).toNat = _
      rw [hs1, hw1]
      simp
  · rw [dif_neg h, dif_neg]
    · rfl
    · intro hall
      have h0 := hall 0
      rw [hs0, hw0] at h0
      exact h (by
        obtain ⟨h1, h2⟩ := h0
        refine ⟨by omega, ?_⟩
        have : (((⟨2, ![N, C]⟩ : Shape).size 0 : Nat) : Int) = (N : Int) := rfl
        omega)

end ScatterRows

/-! ## The row sum at an index -/

section ScatterAddRows

/-- THE ROW SUM READ AT `(p, q)`: the operand's element plus the sum, over the rows `e` of the updates whose word
    `idx[e, 0]` names row `p`, of the update's element in column `q`. The library's sum runs over update indices
    `(e, q')` that land on `(p, q)`; such an index has `q' = q`, so it is its row `e`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowScatterDims N E C wf) x idx upd (ix2 p q)
      = x (ix2 p q) + ∑ e ∈ Finset.univ.filter (fun e : Fin E => landRow N (idx (ix2 e (0 : Fin 1))) = some p),
          upd (ix2 e q) := by
  unfold Ideal.hostScatterAdd
  congr 1
  symm
  refine Finset.sum_bij (fun e _ => ix2 e q) ?_ ?_ ?_ ?_
  · intro e he
    rw [Finset.mem_filter] at he ⊢
    refine ⟨Finset.mem_univ _, ?_⟩
    rw [scatter_rows_resultIdx, he.2]
    rfl
  · intro e _ e' _ hee
    exact congrFun hee 0
  · intro j hj
    rw [Finset.mem_filter] at hj
    obtain ⟨e, q', rfl⟩ : ∃ (e : Fin E) (q' : Fin C), j = ix2 e q' := ⟨j 0, j 1, eq_ix2 j⟩
    have h := hj.2
    rw [scatter_rows_resultIdx] at h
    cases hl : landRow N (idx (ix2 e (0 : Fin 1))) with
    | none => rw [hl] at h; exact absurd h (by simp)
    | some p' =>
      rw [hl] at h
      have h2 : ix2 p' q' = ix2 p q := Option.some.inj h
      have hp : p' = p := congrFun h2 0
      have hq : q' = q := congrFun h2 1
      subst hp; subst hq
      exact ⟨e, Finset.mem_filter.mpr ⟨Finset.mem_univ _, hl⟩, rfl⟩
  · intro e _
    rfl

end ScatterAddRows

/-! ## A sum of reals into reals is real -/

/-- A finite sum of extended reals that are all reals is a real. -/
theorem sum_coe_real {ι : Type*} (S : Finset ι) (f : ι → EReal) (hf : ∀ j, ∃ r : ℝ, f j = (r : EReal)) :
    ∃ r : ℝ, ∑ j ∈ S, f j = (r : EReal) := by
  classical
  induction S using Finset.induction_on with
  | empty => exact ⟨0, by simp⟩
  | insert a S ha ih =>
    obtain ⟨r1, h1⟩ := hf a
    obtain ⟨r2, h2⟩ := ih
    exact ⟨r1 + r2, by rw [Finset.sum_insert ha, h1, h2, EReal.coe_add]⟩

/-- A scatter with addition, of real updates into a real operand, has real elements — whatever the dimension
    numbers and the indices: each element is a real plus a finite sum of reals. -/
theorem scatterAdd_finite {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  unfold Ideal.hostScatterAdd
  obtain ⟨r1, h1⟩ := hx i
  obtain ⟨r2, h2⟩ := sum_coe_real (Finset.univ.filter (fun j => d.resultIdx? j idx = some i)) upd hu
  exact ⟨r1 + r2, by rw [h1, h2, EReal.coe_add]⟩

end Idealize.ShloMosaic.ValueIdx

end
-- ==== Proof.LibGatherSlabs.lean ====
/-
  Slabs of a rank-3 array selected by a column of integer words, read at an index.

  `x[idx]` of an array `x : [N, A, B]` at an index column `idx : [E, 1]` is a gather whose result slab `e` is the
  slab `x[r, :, :]` for the row `r` that the word `idx[e, 0]` names, the word read as a signed integer and clamped
  into `[0, N − 1]`: the result at `(e, h, k)` is the operand at `(r, h, k)`. The row is the same function of the
  word as for a rank-2 operand, so a gather of slabs and a gather of rows at one index column read the same rows.
-/
import proofs.«128036_j12876311953624_2_alg».proof.Proof.LibGatherScatter

noncomputable section

namespace Idealize.ShloMosaic.ValueIdx

open Idealize.ShloMosaic

section GatherSlabs
variable {α : Type}

/-- The dimension numbers of `x[idx]` for an operand `[N, A, B]`, an index column `[E, 1]` and the result `[E, A, B]`:
    axis 0 of the operand is indexed and collapsed, axes 1 and 2 are taken whole as the result's axes 1 and 2. -/
abbrev slabGatherDims (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- Result index `(e, h, k)` reads its one start-index component at `[e, 0]` of the index column. -/
theorem slabGather_siIdx {N E A B : Nat}
    (wf : GatherDims.WF ⟨3, ![N, A, B]⟩ ⟨2, ![E, 1]⟩ ⟨3, ![E, A, B]⟩ [1, 2] [0] [] [0] [] 1 ![1, A, B])
    (e : Fin E) (h : Fin A) (k : Fin B) (c : Fin (slabGatherDims N E A B wf).startIndexMap.length) :
    (slabGatherDims N E A B wf).siIdx (ix3 e h k) c = ix2 e (0 : Fin 1) := by
  funext b; refine Fin.ext ?_
  match b with
  | ⟨0, _⟩ => rfl
  | ⟨1, _⟩ =>
    have := c.isLt
    show c.val = 0
    simp only [List.length_singleton] at this
    omega

/-- The operand's kept axes are the ones that are not the row axis. -/
theorem slabGather_mem_sKept {N E A B : Nat}
    (wf : GatherDims.WF ⟨3, ![N, A, B]⟩ ⟨2, ![E, 1]⟩ ⟨3, ![E, A, B]⟩ [1, 2] [0] [] [0] [] 1 ![1, A, B]) (a : Fin 3) :
    a ∈ (slabGatherDims N E A B wf).sKept ↔ a ∉ [(0 : Fin 3)] := by
  rw [GatherDims.mem_sKept]
  exact ⟨fun h => h.1, fun h => ⟨h, List.not_mem_nil⟩⟩

/-- THE SLAB GATHER READ AT `(e, h, k)`: element `(h, k)` of the operand's slab that the word `idx[e, 0]` names, read
    signed and clamped into `[0, N − 1]`. -/
theorem gather_slabs_apply {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (h : Fin A) (k : Fin B) :
    Host.gather (slabGatherDims N E A B wf) x idx (ix3 e h k)
      = x (ix3 (clampRow N hN (idx (ix2 e (0 : Fin 1)))) h k) := by
  unfold Host.gather
  congr 1
  funext a
  refine Fin.ext ?_
  show (slabGatherDims N E A B wf).start (ix3 e h k) idx a + (slabGatherDims N E A B wf).batchCoord (ix3 e h k) a
    + (slabGatherDims N E A B wf).offCoord (ix3 e h k) a = _
  rw [GatherDims.batchCoord_eq_zero _ _ _ List.not_mem_nil]
  match a with
  | ⟨0, _⟩ =>
    show (slabGatherDims N E A B wf).start (ix3 e h k) idx 0 + 0 + (slabGatherDims N E A B wf).offCoord (ix3 e h k) 0 = _
    rw [GatherDims.offCoord_eq_zero _ _ _ (fun hh => (slabGather_mem_sKept wf 0).mp hh (List.mem_singleton.mpr rfl))]
    unfold GatherDims.start
    rw [dif_pos (show (0 : Fin 3) ∈ (slabGatherDims N E A B wf).startIndexMap from List.mem_singleton.mpr rfl)]
    rw [slabGather_siIdx]
    rfl
  | ⟨1, _⟩ =>
    show (slabGatherDims N E A B wf).start (ix3 e h k) idx 1 + 0 + (slabGatherDims N E A B wf).offCoord (ix3 e h k) 1 = _
    unfold GatherDims.start GatherDims.offCoord
    rw [dif_neg (show (1 : Fin 3) ∉ (slabGatherDims N E A B wf).startIndexMap from
      (by decide : (1 : Fin 3) ∉ [(0 : Fin 3)]))]
    rw [dif_pos ((slabGather_mem_sKept wf 1).mpr (by decide : (1 : Fin 3) ∉ [(0 : Fin 3)]))]
    simp only [Nat.zero_add]
    rfl
  | ⟨2, _⟩ =>
    show (slabGatherDims N E A B wf).start (ix3 e h k) idx 2 + 0 + (slabGatherDims N E A B wf).offCoord (ix3 e h k) 2 = _
    unfold GatherDims.start GatherDims.offCoord
    rw [dif_neg (show (2 : Fin 3) ∉ (slabGatherDims N E A B wf).startIndexMap from
      (by decide : (2 : Fin 3) ∉ [(0 : Fin 3)]))]
    rw [dif_pos ((slabGather_mem_sKept wf 2).mpr (by decide : (2 : Fin 3) ∉ [(0 : Fin 3)]))]
    simp only [Nat.zero_add]
    rfl

end GatherSlabs

end Idealize.ShloMosaic.ValueIdx

end
-- ==== Proof.AttScoreSplit.lean ====
/-
  The attention score of an edge, computed two ways.

  Let `H : [30000, 4, 64]` be the per-head node features, `a : [4, 128]` the attention vector of each head, and let an
  edge `e` join the rows `s(e)` and `d(e)` that the words `src[e]`, `dst[e]` name (read signed, a negative word moved up
  by 30000, then clamped into the table). One program concatenates the two feature rows of the edge along the last axis and
  contracts the 128-wide result with `a[h, :]`:
      score(e, h) = Σ_{k < 128} concat(H[s(e), h, :], H[d(e), h, :])[k] · a[h, k].
  The other contracts every node's features with each half of `a[h, :]` first and looks the two half scores up per edge:
      score(e, h) = (Σ_{k < 64} H[s(e), h, k] · a[h, k]) + (Σ_{k < 64} H[d(e), h, k] · a[h, 64 + k]).
  A sum over 128 indices is the sum over its first 64 plus the sum over its last 64; on the first 64 the concatenation reads
  the source row, on the last 64 the destination row. Only the grouping of one sum changes, so the two scores are equal as
  extended reals whatever the entries are.
-/
import proofs.«128036_j12876311953624_2_alg».proof.Proof.Gen.KernelIdeal
import proofs.«128036_j12876311953624_2_alg».proof.Proof.Gen.ReferenceIdeal
import proofs.«128036_j12876311953624_2_alg».proof.Proof.LibGatherSlabs
import Idealize.ShloMosaic.Lib.Pipeline.Value
import Idealize.ShloMosaic.Lib.ValueIdx
import Idealize.ShloMosaic.PureOps.Ideal.Laws

noncomputable section

open scoped BigOperators

namespace Cert.AttScore

open Idealize.ShloMosaic Idealize.ShloMosaic.ValueIdx

/-! ## The two programs' operations, as functions of the node features, the attention vector and the edge words -/

section KernelSide
open Cert.KernelIdeal Cert.KernelIdeal.Facts₀

/-- The index column of a word vector: a negative word moved up by the table's 30000 rows, as a `[480000, 1]` column. -/
def wrapColK (s : (⟨S480000, .i32⟩ : BufTy).Contents (Elt Ideal)) : (⟨S480000x1, .i32⟩ : BufTy).Contents (Elt Ideal) :=
  broadcastInDim S480000x1 ![0] bcast_S480000_S480000x1_0
    (select (cmpi .slt s (broadcastInDim S480000 ![] bcast_S_S480000 (constantI S_ 32 0#32)))
      (addi s (broadcastInDim S480000 ![] bcast_S_S480000 (constantI S_ 32 30000#32))) s)

/-- Every node's features contracted with the first half of each head's attention vector: `[30000, 4]`. -/
def halfLoK (H : (⟨S30000x4x64, .f32⟩ : BufTy).Contents (Elt Ideal)) (a : (⟨S4x128, .f32⟩ : BufTy).Contents (Elt Ideal)) :
    (⟨S30000x4, .f32⟩ : BufTy).Contents (Elt Ideal) :=
  Host.reduceAdd
    (mulf H (broadcastInDim S30000x4x64 ![0, 1, 2] bcast_S1x4x64_S30000x4x64_0_1_2
      (broadcastInDim S1x4x64 ![1, 2] bcast_S4x64_S1x4x64_1_2 (extractStridedSlice S4x64 ![0, 0] a slices_S4x128_S4x64_0_0))))
    (constant (F := Ideal) S_ .f32 0x00000000#32) reducesTo_S30000x4x64_S30000x4_d2 h_S_

/-- Every node's features contracted with the second half of each head's attention vector: `[30000, 4]`. -/
def halfHiK (H : (⟨S30000x4x64, .f32⟩ : BufTy).Contents (Elt Ideal)) (a : (⟨S4x128, .f32⟩ : BufTy).Contents (Elt Ideal)) :
    (⟨S30000x4, .f32⟩ : BufTy).Contents (Elt Ideal) :=
  Host.reduceAdd
    (mulf H (broadcastInDim S30000x4x64 ![0, 1, 2] bcast_S1x4x64_S30000x4x64_0_1_2
      (broadcastInDim S1x4x64 ![1, 2] bcast_S4x64_S1x4x64_1_2 (extractStridedSlice S4x64 ![0, 64] a slices_S4x128_S4x64_0_64))))
    (constant (F := Ideal) S_ .f32 0x00000000#32) reducesTo_S30000x4x64_S30000x4_d2 h_S_

/-- The score as the sum of the two half scores looked up per edge. -/
def scoreK (H : (⟨S30000x4x64, .f32⟩ : BufTy).Contents (Elt Ideal)) (a : (⟨S4x128, .f32⟩ : BufTy).Contents (Elt Ideal))
    (src dst : (⟨S480000, .i32⟩ : BufTy).Contents (Elt Ideal)) : (⟨S480000x4, .f32⟩ : BufTy).Contents (Elt Ideal) :=
  addf (F := Ideal) (φ := .f32) (Host.gather gather_S30000x4_S480000x1_S480000x4_1_0_n_n_0_1_14 (halfLoK H a) (wrapColK src))
    (Host.gather gather_S30000x4_S480000x1_S480000x4_1_0_n_n_0_1_14 (halfHiK H a) (wrapColK dst))

end KernelSide

section ReferenceSide
open Cert.ReferenceIdeal Cert.ReferenceIdeal.Facts₀

/-- The index column of a word vector, in the other program's spelling. -/
def wrapColR (s : (⟨S480000, .i32⟩ : BufTy).Contents (Elt Ideal)) : (⟨S480000x1, .i32⟩ : BufTy).Contents (Elt Ideal) :=
  broadcastInDim S480000x1 ![0] bcast_S480000_S480000x1_0
    (select (cmpi .slt s (broadcastInDim S480000 ![] bcast_S_S480000 (constantI S_ 32 0#32)))
      (addi s (broadcastInDim S480000 ![] bcast_S_S480000 (constantI S_ 32 30000#32))) s)

/-- The score as one 128-wide contraction of the concatenated feature rows of the edge. -/
def scoreR (H : (⟨S30000x4x64, .f32⟩ : BufTy).Contents (Elt Ideal)) (a : (⟨S4x128, .f32⟩ : BufTy).Contents (Elt Ideal))
    (sc dc : (⟨S480000x1, .i32⟩ : BufTy).Contents (Elt Ideal)) : (⟨S480000x4, .f32⟩ : BufTy).Contents (Elt Ideal) :=
  Host.reduceAdd
    (mulf
      (concatenate S480000x4x128 2
        [⟨S480000x4x64, Host.gather gather_S30000x4x64_S480000x1_S480000x4x64_12_0_n_n_0_1_1464 H sc⟩,
         ⟨S480000x4x64, Host.gather gather_S30000x4x64_S480000x1_S480000x4x64_12_0_n_n_0_1_1464 H dc⟩]
        concatenates_S480000x4x64_S480000x4x64_S480000x4x128_d2)
      (broadcastInDim S480000x4x128 ![0, 1, 2] bcast_S1x4x128_S480000x4x128_0_1_2
        (broadcastInDim S1x4x128 ![1, 2] bcast_S4x128_S1x4x128_1_2 a)))
    (constant (F := Ideal) S_ .f32 0x00000000#32) reducesTo_S480000x4x128_S480000x4_d2 h_S_

end ReferenceSide

/-- The two spellings of the index column are one function. -/
theorem wrapColK_eq_wrapColR : wrapColK = wrapColR := rfl

/-! ## Each operation read at an index -/

section KernelReads
open Cert.KernelIdeal Cert.KernelIdeal.Facts₀

/-- A half score table looked up per edge: the table's row the edge's word names. -/
theorem gatherK_apply (X : (⟨S30000x4, .f32⟩ : BufTy).Contents (Elt Ideal)) (c : (⟨S480000x1, .i32⟩ : BufTy).Contents (Elt Ideal))
    (e : Fin 480000) (h : Fin 4) :
    Host.gather gather_S30000x4_S480000x1_S480000x4_1_0_n_n_0_1_14 X c (ix2 e h)
      = X (ix2 (clampRow 30000 (by decide) (c (ix2 e (0 : Fin 1)))) h) :=
  gather_rows_apply (by decide) gather_S30000x4_S480000x1_S480000x4_1_0_n_n_0_1_14_wf X c e h

/-- A contraction over the last axis of a `[30000, 4, 64]` array read at `(r, h)`. -/
theorem reduceK_apply (Y : (⟨S30000x4x64, .f32⟩ : BufTy).Contents (Elt Ideal)) (r : Fin 30000) (h : Fin 4) :
    Host.reduceAdd (F := Ideal) Y (constant (F := Ideal) S_ .f32 0x00000000#32) reducesTo_S30000x4x64_S30000x4_d2 h_S_ (ix2 r h)
      = Ideal.ofBits .f32 0x00000000#32 + ∑ k : Fin 64, Y (ix3 r h k) := by
  simp only [Host.reduceAdd, Ideal.hostReduceAdd_def]
  rw [Ideal.hostReduceAdd_single reducesTo_S30000x4x64_S30000x4_d2 (by decide)]
  refine congrArg (_ + ·) (Finset.sum_congr rfl fun k _ => ?_)
  exact congrArg Y (funext fun b => Fin.ext (by match b with | ⟨0, _⟩ => rfl | ⟨1, _⟩ => rfl | ⟨2, _⟩ => rfl))

/-- The first half of the attention vector broadcast over the nodes, read at `(r, h, k)`. -/
theorem bcastLoK_apply (a : (⟨S4x128, .f32⟩ : BufTy).Contents (Elt Ideal)) (r : Fin 30000) (h : Fin 4) (k : Fin 64) :
    broadcastInDim S30000x4x64 ![0, 1, 2] bcast_S1x4x64_S30000x4x64_0_1_2
      (broadcastInDim S1x4x64 ![1, 2] bcast_S4x64_S1x4x64_1_2 (extractStridedSlice S4x64 ![0, 0] a slices_S4x128_S4x64_0_0))
      (ix3 r h k) = a (ix2 h (Fin.castAdd 64 k)) := by
  refine (broadcastInDim_apply _ bcast_S1x4x64_S30000x4x64_0_1_2 _ (ix3 r h k) (ix3 (0 : Fin 1) h k) (fun b => match b with
    | ⟨0, _⟩ => by show 0 = if (1 : Nat) = 1 then 0 else r.val; rw [if_pos rfl]
    | ⟨1, _⟩ => by show h.val = if (4 : Nat) = 1 then 0 else h.val; rw [if_neg (by decide)]
    | ⟨2, _⟩ => by show k.val = if (64 : Nat) = 1 then 0 else k.val; rw [if_neg (by decide)])).trans ?_
  refine (broadcastInDim_apply _ bcast_S4x64_S1x4x64_1_2 _ (ix3 (0 : Fin 1) h k) (ix2 h k) (fun b => match b with
    | ⟨0, _⟩ => by show h.val = if (4 : Nat) = 1 then 0 else h.val; rw [if_neg (by decide)]
    | ⟨1, _⟩ => by show k.val = if (64 : Nat) = 1 then 0 else k.val; rw [if_neg (by decide)])).trans ?_
  exact extractStridedSlice_apply _ a slices_S4x128_S4x64_0_0 (ix2 h k) (ix2 h (Fin.castAdd 64 k)) (fun b => match b with
    | ⟨0, _⟩ => by show h.val = 0 + h.val; omega
    | ⟨1, _⟩ => by show k.val = 0 + k.val; omega)

/-- The second half of the attention vector broadcast over the nodes, read at `(r, h, k)`. -/
theorem bcastHiK_apply (a : (⟨S4x128, .f32⟩ : BufTy).Contents (Elt Ideal)) (r : Fin 30000) (h : Fin 4) (k : Fin 64) :
    broadcastInDim S30000x4x64 ![0, 1, 2] bcast_S1x4x64_S30000x4x64_0_1_2
      (broadcastInDim S1x4x64 ![1, 2] bcast_S4x64_S1x4x64_1_2 (extractStridedSlice S4x64 ![0, 64] a slices_S4x128_S4x64_0_64))
      (ix3 r h k) = a (ix2 h (Fin.natAdd 64 k)) := by
  refine (broadcastInDim_apply _ bcast_S1x4x64_S30000x4x64_0_1_2 _ (ix3 r h k) (ix3 (0 : Fin 1) h k) (fun b => match b with
    | ⟨0, _⟩ => by show 0 = if (1 : Nat) = 1 then 0 else r.val; rw [if_pos rfl]
    | ⟨1, _⟩ => by show h.val = if (4 : Nat) = 1 then 0 else h.val; rw [if_neg (by decide)]
    | ⟨2, _⟩ => by show k.val = if (64 : Nat) = 1 then 0 else k.val; rw [if_neg (by decide)])).trans ?_
  refine (broadcastInDim_apply _ bcast_S4x64_S1x4x64_1_2 _ (ix3 (0 : Fin 1) h k) (ix2 h k) (fun b => match b with
    | ⟨0, _⟩ => by show h.val = if (4 : Nat) = 1 then 0 else h.val; rw [if_neg (by decide)]
    | ⟨1, _⟩ => by show k.val = if (64 : Nat) = 1 then 0 else k.val; rw [if_neg (by decide)])).trans ?_
  exact extractStridedSlice_apply _ a slices_S4x128_S4x64_0_64 (ix2 h k) (ix2 h (Fin.natAdd 64 k)) (fun b => match b with
    | ⟨0, _⟩ => by show h.val = 0 + h.val; omega
    | ⟨1, _⟩ => by show 64 + k.val = 64 + k.val; rfl)

/-- The first half score of node `r`, head `h`. -/
theorem halfLoK_apply (H : (⟨S30000x4x64, .f32⟩ : BufTy).Contents (Elt Ideal)) (a : (⟨S4x128, .f32⟩ : BufTy).Contents (Elt Ideal))
    (r : Fin 30000) (h : Fin 4) :
    halfLoK H a (ix2 r h) = Ideal.ofBits .f32 0x00000000#32 + ∑ k : Fin 64, H (ix3 r h k) * a (ix2 h (Fin.castAdd 64 k)) := by
  unfold halfLoK
  rw [reduceK_apply]
  refine congrArg (_ + ·) (Finset.sum_congr rfl fun k _ => ?_)
  rw [mulf_apply, bcastLoK_apply]

/-- The second half score of node `r`, head `h`. -/
theorem halfHiK_apply (H : (⟨S30000x4x64, .f32⟩ : BufTy).Contents (Elt Ideal)) (a : (⟨S4x128, .f32⟩ : BufTy).Contents (Elt Ideal))
    (r : Fin 30000) (h : Fin 4) :
    halfHiK H a (ix2 r h) = Ideal.ofBits .f32 0x00000000#32 + ∑ k : Fin 64, H (ix3 r h k) * a (ix2 h (Fin.natAdd 64 k)) := by
  unfold halfHiK
  rw [reduceK_apply]
  refine congrArg (_ + ·) (Finset.sum_congr rfl fun k _ => ?_)
  rw [mulf_apply, bcastHiK_apply]

end KernelReads

section ReferenceReads
open Cert.ReferenceIdeal Cert.ReferenceIdeal.Facts₀

/-- The feature rows looked up per edge: the slab the edge's word names. -/
theorem gatherR_apply (H : (⟨S30000x4x64, .f32⟩ : BufTy).Contents (Elt Ideal)) (c : (⟨S480000x1, .i32⟩ : BufTy).Contents (Elt Ideal))
    (e : Fin 480000) (h : Fin 4) (k : Fin 64) :
    Host.gather gather_S30000x4x64_S480000x1_S480000x4x64_12_0_n_n_0_1_1464 H c (ix3 e h k)
      = H (ix3 (clampRow 30000 (by decide) (c (ix2 e (0 : Fin 1)))) h k) :=
  gather_slabs_apply (by decide) gather_S30000x4x64_S480000x1_S480000x4x64_12_0_n_n_0_1_1464_wf H c e h k

/-- A contraction over the last axis of a `[480000, 4, 128]` array read at `(e, h)`. -/
theorem reduceR_apply (Y : (⟨S480000x4x128, .f32⟩ : BufTy).Contents (Elt Ideal)) (e : Fin 480000) (h : Fin 4) :
    Host.reduceAdd (F := Ideal) Y (constant (F := Ideal) S_ .f32 0x00000000#32) reducesTo_S480000x4x128_S480000x4_d2 h_S_ (ix2 e h)
      = Ideal.ofBits .f32 0x00000000#32 + ∑ k : Fin 128, Y (ix3 e h k) := by
  simp only [Host.reduceAdd, Ideal.hostReduceAdd_def]
  rw [Ideal.hostReduceAdd_single reducesTo_S480000x4x128_S480000x4_d2 (by decide)]
  refine congrArg (_ + ·) (Finset.sum_congr rfl fun k _ => ?_)
  exact congrArg Y (funext fun b => Fin.ext (by match b with | ⟨0, _⟩ => rfl | ⟨1, _⟩ => rfl | ⟨2, _⟩ => rfl))

/-- The attention vector broadcast over the edges, read at `(e, h, k)`. -/
theorem bcastR_apply (a : (⟨S4x128, .f32⟩ : BufTy).Contents (Elt Ideal)) (e : Fin 480000) (h : Fin 4) (k : Fin 128) :
    broadcastInDim S480000x4x128 ![0, 1, 2] bcast_S1x4x128_S480000x4x128_0_1_2
      (broadcastInDim S1x4x128 ![1, 2] bcast_S4x128_S1x4x128_1_2 a) (ix3 e h k) = a (ix2 h k) := by
  refine (broadcastInDim_apply _ bcast_S1x4x128_S480000x4x128_0_1_2 _ (ix3 e h k) (ix3 (0 : Fin 1) h k) (fun b => match b with
    | ⟨0, _⟩ => by show 0 = if (1 : Nat) = 1 then 0 else e.val; rw [if_pos rfl]
    | ⟨1, _⟩ => by show h.val = if (4 : Nat) = 1 then 0 else h.val; rw [if_neg (by decide)]
    | ⟨2, _⟩ => by show k.val = if (128 : Nat) = 1 then 0 else k.val; rw [if_neg (by decide)])).trans ?_
  exact broadcastInDim_apply _ bcast_S4x128_S1x4x128_1_2 a (ix3 (0 : Fin 1) h k) (ix2 h k) (fun b => match b with
    | ⟨0, _⟩ => by show h.val = if (4 : Nat) = 1 then 0 else h.val; rw [if_neg (by decide)]
    | ⟨1, _⟩ => by show k.val = if (128 : Nat) = 1 then 0 else k.val; rw [if_neg (by decide)])

/-- The concatenation of two `[480000, 4, 64]` arrays along the last axis reads the first on the first 64 columns. -/
theorem concatR_lo (X Y : (⟨S480000x4x64, .f32⟩ : BufTy).Contents (Elt Ideal)) (e : Fin 480000) (h : Fin 4) (k : Fin 64) :
    concatenate S480000x4x128 2 [⟨S480000x4x64, X⟩, ⟨S480000x4x64, Y⟩] concatenates_S480000x4x64_S480000x4x64_S480000x4x128_d2
      (ix3 e h (Fin.castAdd 64 k)) = X (ix3 e h k) :=
  concatenate_apply_piece (t := S480000x4x128) (2 : Fin 3) [⟨S480000x4x64, X⟩, ⟨S480000x4x64, Y⟩]
    concatenates_S480000x4x64_S480000x4x64_S480000x4x128_d2 (ix3 e h (Fin.castAdd 64 k))
    0 Nat.zero_lt_two S480000x4x64 X rfl rfl 0 rfl (ix3 e h k)
    (fun b hb => match b with
      | ⟨0, _⟩ => rfl
      | ⟨1, _⟩ => rfl
      | ⟨2, _⟩ => absurd rfl hb)
    (by show 0 + k.val = k.val; omega)

/-- … and the second on the last 64 columns. -/
theorem concatR_hi (X Y : (⟨S480000x4x64, .f32⟩ : BufTy).Contents (Elt Ideal)) (e : Fin 480000) (h : Fin 4) (k : Fin 64) :
    concatenate S480000x4x128 2 [⟨S480000x4x64, X⟩, ⟨S480000x4x64, Y⟩] concatenates_S480000x4x64_S480000x4x64_S480000x4x128_d2
      (ix3 e h (Fin.natAdd 64 k)) = Y (ix3 e h k) :=
  concatenate_apply_piece (t := S480000x4x128) (2 : Fin 3) [⟨S480000x4x64, X⟩, ⟨S480000x4x64, Y⟩]
    concatenates_S480000x4x64_S480000x4x64_S480000x4x128_d2 (ix3 e h (Fin.natAdd 64 k))
    1 Nat.one_lt_two S480000x4x64 Y rfl rfl 64 rfl (ix3 e h k)
    (fun b hb => match b with
      | ⟨0, _⟩ => rfl
      | ⟨1, _⟩ => rfl
      | ⟨2, _⟩ => absurd rfl hb)
    (by show 64 + k.val = 64 + k.val; rfl)

end ReferenceReads

/-! ## The two scores are one array -/

/-- THE SCORE, EITHER WAY: the sum of the two looked-up half scores is the 128-wide contraction of the concatenated rows. A sum
    over 128 indices splits into its first and last 64; nothing else is rearranged. -/
theorem scoreK_eq_scoreR (H : (⟨Cert.ReferenceIdeal.S30000x4x64, .f32⟩ : BufTy).Contents (Elt Ideal))
    (a : (⟨Cert.ReferenceIdeal.S4x128, .f32⟩ : BufTy).Contents (Elt Ideal))
    (src dst : (⟨Cert.ReferenceIdeal.S480000, .i32⟩ : BufTy).Contents (Elt Ideal)) :
    scoreK H a src dst = scoreR H a (wrapColR src) (wrapColR dst) := by
  funext j
  obtain ⟨e, h, rfl⟩ : ∃ (e : Fin 480000) (h : Fin 4), j = ix2 e h := ⟨j 0, j 1, eq_ix2 j⟩
  unfold scoreK scoreR
  rw [addf_apply, gatherK_apply, gatherK_apply, halfLoK_apply, halfHiK_apply, reduceR_apply, wrapColK_eq_wrapColR]
  rw [Ideal.ofBits_zero_f32, zero_add, zero_add, zero_add]
  refine Eq.trans ?_ (Fin.sum_univ_add (a := 64) (b := 64) _).symm
  refine congrArg₂ (· + ·) (Finset.sum_congr rfl fun k _ => ?_) (Finset.sum_congr rfl fun k _ => ?_)
  · rw [mulf_apply, concatR_lo, gatherR_apply, bcastR_apply]
  · rw [mulf_apply, concatR_hi, gatherR_apply, bcastR_apply]

end Cert.AttScore

end
-- ==== Proof.AttScores.lean ====
/-
  The attention table of one adjacency, as the two programs compute it, is one function of the five argument arrays.

  Both programs build the node features `H = segment_sum(val · W[dst], src)` (split into four heads of width 64) in the same
  way, and from the score `e : [480000, 4]` on they again do the same: a leaky rectifier, an exponential, the normalizer
  `denom = segment_sum(exp, dst)`, the weight `exp / (denom[dst] + ε)`, and the weighted source features summed into the
  rows the destination words name. They differ only in how the score is spelt (one 128-wide contraction of concatenated
  rows against two 64-wide contractions looked up per edge), and the two spellings are one array. So the tail is carried as
  ONE function of the score, the gathered source features and the destination words, never opened, and the equality of the
  tables follows from the equality of the scores by congruence.
-/
import proofs.«128036_j12876311953624_2_alg».proof.Proof.Gen.ReferenceIdeal.Read
import proofs.«128036_j12876311953624_2_alg».proof.Proof.AttScoreSplit

noncomputable section

namespace Cert.AttScore

open Idealize.ShloMosaic Idealize.ShloMosaic.ValueIdx

/-! ## One program's operations, in its own records -/

section KernelSide
open Cert.KernelIdeal Cert.KernelIdeal.Facts₀

/-- The node features split into heads: the edge values times the gathered weight rows, summed into the rows the source
    words name, reshaped to `[30000, 4, 64]`. -/
def featK (W : (⟨S30000x256, .f32⟩ : BufTy).Contents (Elt Ideal)) (v : (⟨S480000, .f32⟩ : BufTy).Contents (Elt Ideal))
    (s d : (⟨S480000, .i32⟩ : BufTy).Contents (Elt Ideal)) : (⟨S30000x4x64, .f32⟩ : BufTy).Contents (Elt Ideal) :=
  shapeCast _
    (Host.scatterAdd scatter_S30000x256_S480000x1_S480000x256_1_0_0_1
      (broadcastInDim S30000x256 ![] bcast_S_S30000x256 (constant (F := Ideal) S_ .f32 0x00000000#32))
      (broadcastInDim S480000x1 ![0] bcast_S480000_S480000x1_0 s)
      (mulf
        (broadcastInDim S480000x256 ![0, 1] bcast_S480000x1_S480000x256_0_1
          (broadcastInDim S480000x1 ![0] bcast_S480000_S480000x1_0 v))
        (Host.gather gather_S30000x256_S480000x1_S480000x256_1_0_n_n_0_1_1256 W (wrapColK d))))
    shapeCasts_S30000x256_S30000x4x64

/-- Everything after the score, as a function of the score `e`, the source features of each edge `Hg` and the
    destination words `d`: rectifier, exponential, normalizer, weight, weighted sum into rows, reshape. -/
def tailK (e : (⟨S480000x4, .f32⟩ : BufTy).Contents (Elt Ideal)) (Hg : (⟨S480000x4x64, .f32⟩ : BufTy).Contents (Elt Ideal))
    (d : (⟨S480000, .i32⟩ : BufTy).Contents (Elt Ideal)) : (⟨S30000x256, .f32⟩ : BufTy).Contents (Elt Ideal) :=
  let ex : (⟨S480000x4, .f32⟩ : BufTy).Contents (Elt Ideal) :=
    Host.exp (select (cmpf .ogt e (broadcastInDim S480000x4 ![] bcast_S_S480000x4 (constant (F := Ideal) S_ .f32 0x00000000#32)))
      e (mulf (broadcastInDim S480000x4 ![] bcast_S_S480000x4 (constant (F := Ideal) S_ .f32 0x3E4CCCCD#32)) e))
  shapeCast _
    (Host.scatterAdd scatter_S30000x4x64_S480000x1_S480000x4x64_12_0_0_1
      (broadcastInDim S30000x4x64 ![] bcast_S_S30000x4x64 (constant (F := Ideal) S_ .f32 0x00000000#32))
      (broadcastInDim S480000x1 ![0] bcast_S480000_S480000x1_0 d)
      (mulf
        (broadcastInDim S480000x4x64 ![0, 1, 2] bcast_S480000x4x1_S480000x4x64_0_1_2
          (broadcastInDim S480000x4x1 ![0, 1] bcast_S480000x4_S480000x4x1_0_1
            (Host.divf ex
              (addf
                (Host.gather gather_S30000x4_S480000x1_S480000x4_1_0_n_n_0_1_14
                  (Host.scatterAdd scatter_S30000x4_S480000x1_S480000x4_1_0_0_1
                    (broadcastInDim S30000x4 ![] bcast_S_S30000x4 (constant (F := Ideal) S_ .f32 0x00000000#32))
                    (broadcastInDim S480000x1 ![0] bcast_S480000_S480000x1_0 d) ex)
                  (wrapColK d))
                (broadcastInDim S480000x4 ![] bcast_S_S480000x4 (constant (F := Ideal) S_ .f32 0x3089705F#32))))))
        Hg))
    shapeCasts_S30000x4x64_S30000x256

/-- THE ATTENTION TABLE, the first program's way: features, the source features of each edge, the score as two looked-up
    half scores, the tail. -/
def attK (W : (⟨S30000x256, .f32⟩ : BufTy).Contents (Elt Ideal)) (a : (⟨S4x128, .f32⟩ : BufTy).Contents (Elt Ideal))
    (v : (⟨S480000, .f32⟩ : BufTy).Contents (Elt Ideal)) (s d : (⟨S480000, .i32⟩ : BufTy).Contents (Elt Ideal)) :
    (⟨S30000x256, .f32⟩ : BufTy).Contents (Elt Ideal) :=
  tailK (scoreK (featK W v s d) a s d)
    (Host.gather gather_S30000x4x64_S480000x1_S480000x4x64_12_0_n_n_0_1_1464 (featK W v s d) (wrapColK s)) d

end KernelSide

/-! ## The other program's stages are the same functions -/

section Bridge
open Cert.ReferenceIdeal

variable (W : (⟨S30000x256, .f32⟩ : BufTy).Contents (Elt Ideal)) (a : (⟨S4x128, .f32⟩ : BufTy).Contents (Elt Ideal))
  (v : (⟨S480000, .f32⟩ : BufTy).Contents (Elt Ideal)) (s d : (⟨S480000, .i32⟩ : BufTy).Contents (Elt Ideal))

/-- The node features are the same operations in both programs. -/
theorem featK_eq : featK W v s d = Read.val_main_v13 (F := Ideal) W v s d := rfl

/-- The source features of each edge, likewise. -/
theorem gatherSrc_eq (H : (⟨S30000x4x64, .f32⟩ : BufTy).Contents (Elt Ideal)) :
    Host.gather Cert.KernelIdeal.gather_S30000x4x64_S480000x1_S480000x4x64_12_0_n_n_0_1_1464 H (wrapColK s)
      = Host.gather Cert.ReferenceIdeal.gather_S30000x4x64_S480000x1_S480000x4x64_12_0_n_n_0_1_1464 H (wrapColR s) := rfl

/-- The one-contraction score over the features is the other program's score stage. -/
theorem scoreR_eq : scoreR (Read.val_main_v13 (F := Ideal) W v s d) a (wrapColR s) (wrapColR d)
    = Read.val_main_v32 (F := Ideal) W a v s d := rfl

/-- The other program's table is the tail of its score and its source features. -/
theorem ref_eq_tail : Read.val_main_v58 (F := Ideal) W a v s d
    = tailK (Read.val_main_v32 (F := Ideal) W a v s d) (Read.val_main_v20 (F := Ideal) W v s d) d := rfl

/-- THE TWO TABLES ARE ONE: the scores are equal arrays, and everything else is the same function of them. -/
theorem att_eq : attK W a v s d = Read.val_main_v58 (F := Ideal) W a v s d := by
  rw [ref_eq_tail]
  unfold attK
  rw [featK_eq, scoreK_eq_scoreR, scoreR_eq, gatherSrc_eq]
  rfl

/-- The second adjacency runs the same stages at its own arguments. -/
theorem att_eq_second : attK W a v s d = Read.val_main_v117 (F := Ideal) W a v s d :=
  (att_eq W a v s d).trans rfl

end Bridge

end Cert.AttScore

end
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.AttReal.lean ====
/-
  The attention table of one adjacency has real entries when its float inputs do.

  The table is built from the weights `W`, the attention vectors `a` and the edge values `val` by gathers, products,
  sums into rows (scatter with addition), a leaky rectifier, an exponential, and one division. Every step but the division
  keeps real entries real: a gather's entry is an entry of its operand; a scatter-add's entry is an entry of its operand plus
  a finite sum of updates; a sum along an axis is a finite sum; the exponential of a real is a positive real. The division
  is by `denom[dst] + ε`, where `denom` is a scatter-add of exponentials into zeros — a real that is not negative — and
  `ε` is the positive float nearest 1e-9: the divisor is a positive real, and a real divided by it is a real. The integer
  inputs (the edges' endpoints) are arbitrary throughout: they only choose WHICH entries are read or summed.
-/
import proofs.«128036_j12876311953624_2_alg».proof.Proof.Gen.ReferenceIdeal.Read
import proofs.«128036_j12876311953624_2_alg».proof.Proof.LibReal
import Idealize.ShloMosaic.PureOps.Ideal.Laws
import Idealize.ShloMosaic.Lib.ValueIdx

noncomputable section

open scoped BigOperators

namespace Cert.AttReal

open Idealize.ShloMosaic Idealize.ShloMosaic.ValueIdx LibReal

/-! ## Arrays of reals that are not negative, and of positive reals -/

/-- Every entry is a real number that is not negative. -/
def AllNonneg {ι : Type} (x : ι → EReal) : Prop := ∀ i, ∃ r : ℝ, 0 ≤ r ∧ x i = (r : EReal)

/-- Every entry is a positive real number. -/
def AllPos {ι : Type} (x : ι → EReal) : Prop := ∀ i, ∃ r : ℝ, 0 < r ∧ x i = (r : EReal)

theorem AllPos.nonneg {ι : Type} {x : ι → EReal} (h : AllPos x) : AllNonneg x := fun i => by
  obtain ⟨r, hr, e⟩ := h i; exact ⟨r, hr.le, e⟩

theorem AllNonneg.real {ι : Type} {x : ι → EReal} (h : AllNonneg x) : AllReal x := fun i => by
  obtain ⟨r, _, e⟩ := h i; exact ⟨r, e⟩

/-! ## Float words as extended reals -/

/-- A word whose exponent field is not all ones denotes a real number. -/
theorem ieee_real {e m w : Nat} (b : BitVec w) (h1 : (b.extractLsb' m e).toNat ≠ 2 ^ e - 1) :
    ∃ r : ℝ, Ideal.ieee e m b = (r : EReal) := by
  unfold Ideal.ieee
  dsimp only
  rw [if_neg h1]
  split
  · exact ⟨_, rfl⟩
  · exact ⟨_, rfl⟩

/-- A word with a clear sign bit whose exponent field is neither zero nor all ones denotes a positive real: a normal
    number `(2^m + T) · 2^(E − bias − m)`. -/
theorem ieee_pos {e m w : Nat} (b : BitVec w) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  dsimp only
  rw [if_neg h1, if_neg h0, hs]
  refine ⟨_, ?_, rfl⟩
  simp only [Bool.false_eq_true, if_false, one_mul]
  positivity

/-- The f32 zero word is the real zero. -/
theorem real_zero_f32 : ∃ r : ℝ, Ideal.ofBits .f32 0x00000000#32 = (r : EReal) :=
  ⟨0, by rw [Ideal.ofBits_zero_f32]; rfl⟩

/-- The f32 zero word is a real that is not negative. -/
theorem nonneg_zero_f32 : ∃ r : ℝ, 0 ≤ r ∧ Ideal.ofBits .f32 0x00000000#32 = (r : EReal) :=
  ⟨0, le_refl _, by rw [Ideal.ofBits_zero_f32]; rfl⟩

/-- The rectifier's slope, the f32 word nearest 0.2, is a real. -/
theorem real_slope : ∃ r : ℝ, Ideal.ofBits .f32 0x3E4CCCCD#32 = (r : EReal) :=
  ieee_real (e := 8) (m := 23) (0x3E4CCCCD#32 : BitVec 32) (by decide)

/-- The divisor's guard, the f32 word nearest 1e-9, is a positive real. -/
theorem pos_guard : ∃ r : ℝ, 0 < r ∧ Ideal.ofBits .f32 0x3089705F#32 = (r : EReal) :=
  ieee_pos (e := 8) (m := 23) (0x3089705F#32 : BitVec 32) (by decide) (by decide) (by decide)

/-! ## Each kind of operation keeps its class of arrays -/

section Ops
variable {s t : Shape} {φ : FTy}

theorem real_constant (b : BitVec φ.bits) (h : ∃ r : ℝ, Ideal.ofBits φ b = (r : EReal)) :
    AllReal (constant (F := Ideal) s φ b) := fun _ => h

theorem nonneg_constant (b : BitVec φ.bits) (h : ∃ r : ℝ, 0 ≤ r ∧ Ideal.ofBits φ b = (r : EReal)) :
    AllNonneg (constant (F := Ideal) s φ b) := fun _ => h

theorem pos_constant (b : BitVec φ.bits) (h : ∃ r : ℝ, 0 < r ∧ Ideal.ofBits φ b = (r : EReal)) :
    AllPos (constant (F := Ideal) s φ b) := fun _ => h

/-- A product of arrays of reals. -/
theorem real_mulf {x y : FVec Ideal s φ} (hx : AllReal x) (hy : AllReal y) : AllReal (mulf x y) := fun i => by
  rw [mulf_apply]; exact hx.mul hy i

/-- A sum of arrays of reals. -/
theorem real_addf {x y : FVec Ideal s φ} (hx : AllReal x) (hy : AllReal y) : AllReal (addf x y) := fun i => by
  rw [addf_apply]; exact hx.add hy i

/-- A real that is not negative plus a positive real. -/
theorem pos_addf {x y : FVec Ideal s φ} (hx : AllNonneg x) (hy : AllPos y) : AllPos (addf x y) := fun i => by
  obtain ⟨p, hp, ep⟩ := hx i; obtain ⟨q, hq, eq⟩ := hy i
  exact ⟨p + q, by positivity, by rw [addf_apply, ep, eq, EReal.coe_add]⟩

/-- A broadcast's entry is an entry of its operand. -/
theorem real_bcast (dims : Fin s.rank → Fin t.rank) (h : s.BroadcastsInDim t dims) {x : s.Idx → EReal}
    (hx : AllReal x) : AllReal (broadcastInDim t dims h x) := fun _ => hx _

theorem nonneg_bcast (dims : Fin s.rank → Fin t.rank) (h : s.BroadcastsInDim t dims) {x : s.Idx → EReal}
    (hx : AllNonneg x) : AllNonneg (broadcastInDim t dims h x) := fun _ => hx _

theorem pos_bcast (dims : Fin s.rank → Fin t.rank) (h : s.BroadcastsInDim t dims) {x : s.Idx → EReal}
    (hx : AllPos x) : AllPos (broadcastInDim t dims h x) := fun _ => hx _

/-- A reshape's entry is an entry of its operand. -/
theorem real_shapeCast (h : s.ShapeCasts t) {x : s.Idx → EReal} (hx : AllReal x) : AllReal (shapeCast t x h) :=
  fun _ => hx _

/-- A gather's entry is an entry of its operand, whatever the indices. -/
theorem real_gather {si : Shape} {w : Nat} (d : GatherDims s si t) {x : s.Idx → EReal} (idx : IVec si w)
    (hx : AllReal x) : AllReal (Host.gather d x idx) := fun _ => hx _

theorem nonneg_gather {si : Shape} {w : Nat} (d : GatherDims s si t) {x : s.Idx → EReal} (idx : IVec si w)
    (hx : AllNonneg x) : AllNonneg (Host.gather d x idx) := fun _ => hx _

/-- A select's entry is an entry of one of its two branches. -/
theorem real_select (c : IVec s 1) {x y : s.Idx → EReal} (hx : AllReal x) (hy : AllReal y) : AllReal (select c x y) :=
  fun i => by
    rw [select_apply]; unfold Scalar.select
    split
    · exact hx i
    · exact hy i

/-- The exponential of a real is a positive real. -/
theorem pos_exp {x : FVec Ideal s φ} (hx : AllReal x) : AllPos (Host.exp x) := fun i => by
  obtain ⟨r, hr⟩ := hx i
  refine ⟨Real.exp r, Real.exp_pos r, ?_⟩
  show Ideal.exp (x i) = _
  rw [hr]; rfl

/-- A real divided by a positive real is a real. -/
theorem real_divf {x y : FVec Ideal s φ} (hx : AllReal x) (hy : AllPos y) : AllReal (Host.divf x y) := fun i => by
  obtain ⟨p, ep⟩ := hx i; obtain ⟨q, hq, eq⟩ := hy i
  refine ⟨p * (1 / q), ?_⟩
  show Ideal.div (x i) (y i) = _
  rw [eq, Ideal.div_coe hq.ne', ep, ← EReal.coe_mul]

/-- A sum along axes, from a real initial value, of real entries. -/
theorem real_reduceAdd {axes : List (Fin s.rank)} {u : Shape} {x : FVec Ideal s φ} {init : u.Idx → Ideal φ}
    (h : s.ReducesTo axes t) (hu : 0 < u.numel) (hx : AllReal x) (hi : AllReal init) :
    AllReal (Host.reduceAdd x init h hu) := fun j => by
  show ∃ r : ℝ, init (Shape.Idx.first hu) + ∑ i ∈ Finset.univ.filter (fun i => h.drop i = j), x i = (r : EReal)
  obtain ⟨p, ep⟩ := hi (Shape.Idx.first hu)
  obtain ⟨q, eq⟩ := exists_real_sum (Finset.univ.filter (fun i => h.drop i = j)) x (fun k _ => hx k)
  exact ⟨p + q, by rw [ep, eq, EReal.coe_add]⟩

/-- A scatter with addition of real updates into a real operand: each entry is the operand's plus a finite sum of updates. -/
theorem real_scatterAdd {si su : Shape} {w : Nat} (d : ScatterDims s si su) {x : FVec Ideal s φ} (idx : IVec si w)
    {upd : FVec Ideal su φ} (hx : AllReal x) (hu : AllReal upd) : AllReal (Host.scatterAdd d x idx upd) := fun i => by
  show ∃ r : ℝ, x i + ∑ j ∈ Finset.univ.filter (fun j => d.resultIdx? j idx = some i), upd j = (r : EReal)
  obtain ⟨p, ep⟩ := hx i
  obtain ⟨q, eq⟩ := exists_real_sum (Finset.univ.filter (fun j => d.resultIdx? j idx = some i)) upd (fun k _ => hu k)
  exact ⟨p + q, by rw [ep, eq, EReal.coe_add]⟩

/-- … and when the operand and the updates are not negative, neither is the result. -/
theorem nonneg_scatterAdd {si su : Shape} {w : Nat} (d : ScatterDims s si su) {x : FVec Ideal s φ} (idx : IVec si w)
    {upd : FVec Ideal su φ} (hx : AllNonneg x) (hu : AllNonneg upd) : AllNonneg (Host.scatterAdd d x idx upd) := fun i => by
  show ∃ r : ℝ, 0 ≤ r ∧ x i + ∑ j ∈ Finset.univ.filter (fun j => d.resultIdx? j idx = some i), upd j = (r : EReal)
  obtain ⟨p, hp, ep⟩ := hx i
  choose g hg0 hg using hu
  refine ⟨p + ∑ j ∈ Finset.univ.filter (fun j => d.resultIdx? j idx = some i), g j,
    add_nonneg hp (Finset.sum_nonneg fun j _ => hg0 j), ?_⟩
  rw [ep, EReal.coe_add, coe_sum]
  exact congrArg (_ + ·) (Finset.sum_congr rfl fun j _ => hg j)

/-- A concatenation's entry is an entry of one of the pieces. -/
theorem real_concatenate (a : Fin t.rank) (xs : List ((s : Shape) × (s.Idx → EReal)))
    (h : Shape.Concatenates (xs.map (·.1)) t a) (hxs : ∀ p ∈ xs, AllReal p.2) : AllReal (concatenate t a xs h) := fun j => by
  unfold concatenate
  exact hxs _ (List.getElem_mem _) _

end Ops

/-! ## The stages of the attention table, one after the other -/

section Stages
open Cert.ReferenceIdeal Cert.ReferenceIdeal.Facts₀

variable (W : (⟨S30000x256, .f32⟩ : BufTy).Contents (Elt Ideal)) (a : (⟨S4x128, .f32⟩ : BufTy).Contents (Elt Ideal))
  (v : (⟨S480000, .f32⟩ : BufTy).Contents (Elt Ideal)) (s d : (⟨S480000, .i32⟩ : BufTy).Contents (Elt Ideal))

/-- The edge values times the gathered weight rows. -/
theorem real_v9 (hW : AllReal W) (hv : AllReal v) : AllReal (Read.val_main_v9 (F := Ideal) W v d) := by
  unfold Read.val_main_v9 Read.val_main_v8 Read.val_main_v0 Read.val_main_v7
  exact real_mulf (real_bcast _ _ (real_bcast _ _ hv)) (real_gather _ _ hW)

/-- The node features: the weighted rows summed into the rows the source words name, split into heads. -/
theorem real_v13 (hW : AllReal W) (hv : AllReal v) : AllReal (Read.val_main_v13 (F := Ideal) W v s d) := by
  unfold Read.val_main_v13 Read.val_main_v12 Read.val_main_v10 Read.val_main_cst
  exact real_shapeCast _ (real_scatterAdd _ _ (real_bcast _ _ (real_constant _ real_zero_f32)) (real_v9 W v d hW hv))

/-- The features of each edge's source row. -/
theorem real_v20 (hW : AllReal W) (hv : AllReal v) : AllReal (Read.val_main_v20 (F := Ideal) W v s d) := by
  unfold Read.val_main_v20
  exact real_gather _ _ (real_v13 W v s d hW hv)

/-- The features of each edge's destination row. -/
theorem real_v27 (hW : AllReal W) (hv : AllReal v) : AllReal (Read.val_main_v27 (F := Ideal) W v s d) := by
  unfold Read.val_main_v27
  exact real_gather _ _ (real_v13 W v s d hW hv)

/-- The score: the concatenated rows contracted with the attention vector. -/
theorem real_v32 (hW : AllReal W) (ha : AllReal a) (hv : AllReal v) : AllReal (Read.val_main_v32 (F := Ideal) W a v s d) := by
  unfold Read.val_main_v32 Read.val_main_v31 Read.val_main_v30 Read.val_main_v29 Read.val_main_v28 Read.val_main_cst_5
  refine real_reduceAdd _ _ (real_mulf (real_concatenate _ _ _ ?_) (real_bcast _ _ (real_bcast _ _ ha)))
    (real_constant _ real_zero_f32)
  intro p hp
  simp only [List.mem_cons, List.not_mem_nil, or_false] at hp
  rcases hp with rfl | rfl
  · exact real_v20 W v s d hW hv
  · exact real_v27 W v s d hW hv

/-- The exponential of the rectified score: a positive real. -/
theorem pos_v38 (hW : AllReal W) (ha : AllReal a) (hv : AllReal v) : AllPos (Read.val_main_v38 (F := Ideal) W a v s d) := by
  unfold Read.val_main_v38 Read.val_main_v37 Read.val_main_v36 Read.val_main_v35 Read.val_main_cst_7
  have h32 := real_v32 W a v s d hW ha hv
  exact pos_exp (real_select _ h32 (real_mulf (real_bcast _ _ (real_constant _ real_slope)) h32))

/-- The normalizer: the exponentials summed into the rows the destination words name; a real that is not negative. -/
theorem nonneg_v41 (hW : AllReal W) (ha : AllReal a) (hv : AllReal v) :
    AllNonneg (Read.val_main_v41 (F := Ideal) W a v s d) := by
  unfold Read.val_main_v41 Read.val_main_v39 Read.val_main_cst_8
  exact nonneg_scatterAdd _ _ (nonneg_bcast _ _ (nonneg_constant _ nonneg_zero_f32)) (pos_v38 W a v s d hW ha hv).nonneg

/-- The divisor: each edge's normalizer plus the guard; a positive real. -/
theorem pos_v50 (hW : AllReal W) (ha : AllReal a) (hv : AllReal v) : AllPos (Read.val_main_v50 (F := Ideal) W a v s d) := by
  unfold Read.val_main_v50 Read.val_main_v49 Read.val_main_v48 Read.val_main_cst_11
  exact pos_addf (nonneg_gather _ _ (nonneg_v41 W a v s d hW ha hv)) (pos_bcast _ _ (pos_constant _ pos_guard))

/-- The attention weight of each edge and head. -/
theorem real_v51 (hW : AllReal W) (ha : AllReal a) (hv : AllReal v) : AllReal (Read.val_main_v51 (F := Ideal) W a v s d) := by
  unfold Read.val_main_v51
  exact real_divf (pos_v38 W a v s d hW ha hv).nonneg.real (pos_v50 W a v s d hW ha hv)

/-- The weighted source features of each edge. -/
theorem real_v54 (hW : AllReal W) (ha : AllReal a) (hv : AllReal v) : AllReal (Read.val_main_v54 (F := Ideal) W a v s d) := by
  unfold Read.val_main_v54 Read.val_main_v53 Read.val_main_v52
  exact real_mulf (real_bcast _ _ (real_bcast _ _ (real_v51 W a v s d hW ha hv))) (real_v20 W v s d hW hv)

/-- THE ATTENTION TABLE HAS REAL ENTRIES when the weights, the attention vectors and the edge values do, whatever the
    edges' endpoint words are. -/
theorem att_real (hW : AllReal W) (ha : AllReal a) (hv : AllReal v) : AllReal (Read.val_main_v58 (F := Ideal) W a v s d) := by
  unfold Read.val_main_v58 Read.val_main_v57 Read.val_main_v55 Read.val_main_cst_12
  exact real_shapeCast _ (real_scatterAdd _ _ (real_bcast _ _ (real_constant _ real_zero_f32)) (real_v54 W a v s d hW ha hv))

/-- The second adjacency's stages are the first's, at the other arguments. -/
theorem second_adjacency_eq : Read.val_main_v117 (F := Ideal) W a v s d = Read.val_main_v58 (F := Ideal) W a v s d := rfl

/-- … so its table has real entries under the same hypotheses. -/
theorem att_real_second (hW : AllReal W) (ha : AllReal a) (hv : AllReal v) :
    AllReal (Read.val_main_v117 (F := Ideal) W a v s d) := by
  rw [second_adjacency_eq]; exact att_real W a v s d hW ha hv

end Stages

end Cert.AttReal

end
-- ==== Proof.Contraction.lean ====
/-
  The law that joins the two arrangements of the last contraction.

  One side multiplies a row `X` (indexed by `v`) into a table whose entry at `v` is itself a sum over `h`
  of `(H0 v h + H1 v h) * w h`; the other side first contracts `X` against `H0` and against `H1` over `v`,
  adds the two results, and only then contracts against `w` over `h`.  The two are the same double sum,
  read in the two orders, after distributing `X v` over the inner sum and over `H0 + H1`.  Distributivity
  fails on the extended reals at infinities, so the law is stated for real entries: real witnesses are
  chosen, the coercion is pushed outside both sides, and the identity is proved in the reals.
-/
import Mathlib.Data.EReal.Basic
import Mathlib.Data.EReal.Operations
import Mathlib.Algebra.BigOperators.Ring.Finset
import Mathlib.Algebra.BigOperators.Group.Finset.Sigma
import Mathlib.Tactic.Ring
import proofs.«128036_j12876311953624_2_alg».proof.Proof.LibReal

open scoped BigOperators

namespace Contraction

/-- The identity in the reals: distribute, exchange the two sums, regroup. -/
theorem real_sum_mul_sum_add {ι κ : Type} [Fintype ι] [Fintype κ]
    (x : ι → ℝ) (a b : ι → κ → ℝ) (c : κ → ℝ) :
    ∑ v, x v * ∑ h, (a v h + b v h) * c h
      = ∑ h, ((∑ v, x v * a v h) + (∑ v, x v * b v h)) * c h := by
  calc ∑ v, x v * ∑ h, (a v h + b v h) * c h
      = ∑ v, ∑ h, x v * ((a v h + b v h) * c h) := by simp only [Finset.mul_sum]
    _ = ∑ h, ∑ v, x v * ((a v h + b v h) * c h) := Finset.sum_comm
    _ = ∑ h, ((∑ v, x v * a v h) + (∑ v, x v * b v h)) * c h := by
        refine Finset.sum_congr rfl fun h _ => ?_
        rw [← Finset.sum_add_distrib, Finset.sum_mul]
        refine Finset.sum_congr rfl fun v _ => ?_
        ring

/-- A row with real entries, contracted against the table `v ↦ ∑ h, (H0 v h + H1 v h) * w h`, is the
contraction over `h` against `w` of the sum of the two contractions of the row against `H0` and `H1`. -/
theorem sum_mul_sum_add_mul {ι κ : Type} [Fintype ι] [Fintype κ]
    (X : ι → EReal) (H0 H1 : ι → κ → EReal) (w : κ → EReal)
    (hX : ∀ v, ∃ r : ℝ, X v = (r : EReal))
    (h0 : ∀ v h, ∃ r : ℝ, H0 v h = (r : EReal))
    (h1 : ∀ v h, ∃ r : ℝ, H1 v h = (r : EReal))
    (hw : ∀ h, ∃ r : ℝ, w h = (r : EReal)) :
    ∑ v, X v * (∑ h, (H0 v h + H1 v h) * w h)
      = ∑ h, ((∑ v, X v * H0 v h) + (∑ v, X v * H1 v h)) * w h := by
  choose x hx using hX
  choose a ha using h0
  choose b hb using h1
  choose c hc using hw
  have L : ∑ v, X v * (∑ h, (H0 v h + H1 v h) * w h)
      = ((∑ v, x v * ∑ h, (a v h + b v h) * c h : ℝ) : EReal) := by
    rw [LibReal.coe_sum]
    refine Finset.sum_congr rfl fun v _ => ?_
    rw [EReal.coe_mul, LibReal.coe_sum, hx]
    congr 1
    refine Finset.sum_congr rfl fun h _ => ?_
    rw [EReal.coe_mul, EReal.coe_add, ha, hb, hc]
  have R : ∑ h, ((∑ v, X v * H0 v h) + (∑ v, X v * H1 v h)) * w h
      = ((∑ h, ((∑ v, x v * a v h) + (∑ v, x v * b v h)) * c h : ℝ) : EReal) := by
    rw [LibReal.coe_sum]
    refine Finset.sum_congr rfl fun h _ => ?_
    rw [EReal.coe_mul, EReal.coe_add, LibReal.coe_sum, LibReal.coe_sum, hc]
    congr 2
    · refine Finset.sum_congr rfl fun v _ => ?_
      rw [EReal.coe_mul, hx, ha]
    · refine Finset.sum_congr rfl fun v _ => ?_
      rw [EReal.coe_mul, hx, hb]
  rw [L, R, real_sum_mul_sum_add]

/-- The same law with a bias added on both sides. -/
theorem sum_mul_sum_add_mul_add_bias {ι κ : Type} [Fintype ι] [Fintype κ]
    (X : ι → EReal) (H0 H1 : ι → κ → EReal) (w : κ → EReal) (β : EReal)
    (hX : ∀ v, ∃ r : ℝ, X v = (r : EReal))
    (h0 : ∀ v h, ∃ r : ℝ, H0 v h = (r : EReal))
    (h1 : ∀ v h, ∃ r : ℝ, H1 v h = (r : EReal))
    (hw : ∀ h, ∃ r : ℝ, w h = (r : EReal)) :
    (∑ v, X v * (∑ h, (H0 v h + H1 v h) * w h)) + β
      = (∑ h, ((∑ v, X v * H0 v h) + (∑ v, X v * H1 v h)) * w h) + β := by
  rw [sum_mul_sum_add_mul X H0 H1 w hX h0 h1 hw]

/-- The law at the sizes of this kernel: a row of 30000 entries, two tables of 30000 × 256, a row of 256. -/
theorem sum_mul_sum_add_mul_add_bias_30000_256
    (X : Fin 30000 → EReal) (H0 H1 : Fin 30000 → Fin 256 → EReal) (w : Fin 256 → EReal) (β : EReal)
    (hX : ∀ v, ∃ r : ℝ, X v = (r : EReal))
    (h0 : ∀ v h, ∃ r : ℝ, H0 v h = (r : EReal))
    (h1 : ∀ v h, ∃ r : ℝ, H1 v h = (r : EReal))
    (hw : ∀ h, ∃ r : ℝ, w h = (r : EReal)) :
    (∑ v : Fin 30000, X v * (∑ h : Fin 256, (H0 v h + H1 v h) * w h)) + β
      = (∑ h : Fin 256, ((∑ v : Fin 30000, X v * H0 v h) + (∑ v : Fin 30000, X v * H1 v h)) * w h) + β :=
  sum_mul_sum_add_mul_add_bias X H0 H1 w β hX h0 h1 hw

end Contraction
-- ==== Proof.RefOut.lean ====
/-
  The reference's last operations, read at an index.

  After its two attention tables `H0` and `H1` (two stages of 30000 × 256 entries, kept opaque here) the
  reference contracts the input `X` against each table over the 30000 rows, adds the two products,
  contracts the sum against the rows of the projection matrix `W` over its 256 columns, and adds the
  bias row.  At the index `(b, p, q)` that is
    `(∑ h, ((∑ v, X[b,p,v] * H0[v,h]) + (∑ v, X[b,p,v] * H1[v,h])) * W[q,h]) + bias[q]`.
  The operations are stated once over arbitrary tables (`outOf`), read at an index there, and the
  reference's result stage is that composite of its two table stages.
-/
import proofs.«128036_j12876311953624_2_alg».proof.Proof.Gen.ReferenceIdeal.Read

noncomputable section

namespace RefOut

open Cert.ReferenceIdeal Cert.ReferenceIdeal.Gen Cert.ReferenceIdeal.Read Idealize.ShloMosaic Idealize.ShloMosaic.ValueIdx

open scoped BigOperators

/-- The reference's last seven operations over arbitrary tables `h0`, `h1`: two contractions of `x0` over
its last axis, their sum, the contraction against `x5` over the last axis of both, and the bias `x6`
broadcast along the two leading axes. -/
def outOf (x0 : FVec Ideal S2x512x30000 .f32)
    (h0 h1 : FVec Ideal S30000x256 .f32)
    (x5 : FVec Ideal S256x256 .f32)
    (x6 : FVec Ideal S256 .f32) : FVec Ideal S2x512x256 .f32 :=
  addf (F := Ideal)
    (Host.dotGeneral (F := Ideal) dot_S2x512x256_S256x256_S2x512x256_2_1_01_0_n_n none
      (addf (F := Ideal) (Host.dotGeneral (F := Ideal) dot_S2x512x30000_S30000x256_S2x512x256_2_0_01_1_n_n none x0 h0)
        (Host.dotGeneral (F := Ideal) dot_S2x512x30000_S30000x256_S2x512x256_2_0_01_1_n_n none x0 h1))
      x5)
    (broadcastInDim S2x512x256 ![0, 1, 2] bcast_S1x1x256_S2x512x256_0_1_2
      (broadcastInDim S1x1x256 ![2] bcast_S256_S1x1x256_2 x6))

/-- The reference's result stage is the composite of its two table stages. -/
theorem val_main_v124_eq_outOf
    (x0 : FVec Ideal S2x512x30000 .f32) (x1 : FVec Ideal S30000x256 .f32)
    (x2 : FVec Ideal S4x128 .f32) (x3 : FVec Ideal S30000x256 .f32)
    (x4 : FVec Ideal S4x128 .f32) (x5 : FVec Ideal S256x256 .f32)
    (x6 : FVec Ideal S256 .f32) (x7 x8 : FVec Ideal S480000 .f32)
    (x9 x10 x11 x12 : (⟨S480000, .i32⟩ : BufTy).Contents (Elt Ideal)) :
    val_main_v124 (F := Ideal) x0 x1 x2 x3 x4 x5 x6 x7 x8 x9 x10 x11 x12
      = outOf x0 (val_main_v58 (F := Ideal) x1 x2 x7 x9 x10) (val_main_v117 (F := Ideal) x3 x4 x8 x11 x12) x5 x6 := by
  unfold val_main_v124 val_main_v123 val_main_v122 val_main_v121 val_main_v120 val_main_v119 val_main_v118 outOf
  rfl

/-- A contraction of `x0 : [2,512,30000]` against a table `[30000,256]` over the 30000 axis, at `(b, p, h)`. -/
theorem dot_rows_apply (x0 : FVec Ideal S2x512x30000 .f32)
    (y : FVec Ideal S30000x256 .f32) (b : Fin 2) (p : Fin 512) (h : Fin 256) :
    Host.dotGeneral (F := Ideal) dot_S2x512x30000_S30000x256_S2x512x256_2_0_01_1_n_n none x0 y (ix3 b p h)
      = ∑ v : Fin 30000, x0 (ix3 b p v) * y (ix2 v h) := by
  simp only [Host.dotGeneral]
  rw [Ideal.dotGeneral_apply, ← Equiv.sum_comp (ValueIdx.contrEquiv1 dot_S2x512x30000_S30000x256_S2x512x256_2_0_01_1_n_n 30000 rfl rfl).symm]
  refine Finset.sum_congr rfl fun k _ => ?_
  have hk := ValueIdx.contrEquiv1_symm_val dot_S2x512x30000_S30000x256_S2x512x256_2_0_01_1_n_n 30000 rfl rfl k
  have el : dot_S2x512x30000_S30000x256_S2x512x256_2_0_01_1_n_n.lhsIdx (ix3 b p h) ((ValueIdx.contrEquiv1 dot_S2x512x30000_S30000x256_S2x512x256_2_0_01_1_n_n 30000 rfl rfl).symm k) = ix3 b p k := funext fun a => Fin.ext (by
    match a with
    | ⟨0, _⟩ => exact lhs_main_v118_0 _ _
    | ⟨1, _⟩ => exact lhs_main_v118_1 _ _
    | ⟨2, _⟩ => exact (lhs_main_v118_2 _ _).trans hk)
  have er : dot_S2x512x30000_S30000x256_S2x512x256_2_0_01_1_n_n.rhsIdx (ix3 b p h) ((ValueIdx.contrEquiv1 dot_S2x512x30000_S30000x256_S2x512x256_2_0_01_1_n_n 30000 rfl rfl).symm k) = ix2 k h := funext fun a => Fin.ext (by
    match a with
    | ⟨0, _⟩ => exact (rhs_main_v118_0 _ _).trans hk
    | ⟨1, _⟩ => exact rhs_main_v118_1 _ _)
  rw [el, er]

/-- A contraction of `y : [2,512,256]` against `x5 : [256,256]` over the last axis of both, at `(b, p, q)`. -/
theorem dot_cols_apply (y : FVec Ideal S2x512x256 .f32)
    (x5 : FVec Ideal S256x256 .f32) (b : Fin 2) (p : Fin 512) (q : Fin 256) :
    Host.dotGeneral (F := Ideal) dot_S2x512x256_S256x256_S2x512x256_2_1_01_0_n_n none y x5 (ix3 b p q)
      = ∑ h : Fin 256, y (ix3 b p h) * x5 (ix2 q h) := by
  simp only [Host.dotGeneral]
  rw [Ideal.dotGeneral_apply, ← Equiv.sum_comp (ValueIdx.contrEquiv1 dot_S2x512x256_S256x256_S2x512x256_2_1_01_0_n_n 256 rfl rfl).symm]
  refine Finset.sum_congr rfl fun k _ => ?_
  have hk := ValueIdx.contrEquiv1_symm_val dot_S2x512x256_S256x256_S2x512x256_2_1_01_0_n_n 256 rfl rfl k
  have el : dot_S2x512x256_S256x256_S2x512x256_2_1_01_0_n_n.lhsIdx (ix3 b p q) ((ValueIdx.contrEquiv1 dot_S2x512x256_S256x256_S2x512x256_2_1_01_0_n_n 256 rfl rfl).symm k) = ix3 b p k := funext fun a => Fin.ext (by
    match a with
    | ⟨0, _⟩ => exact lhs_main_v121_0 _ _
    | ⟨1, _⟩ => exact lhs_main_v121_1 _ _
    | ⟨2, _⟩ => exact (lhs_main_v121_2 _ _).trans hk)
  have er : dot_S2x512x256_S256x256_S2x512x256_2_1_01_0_n_n.rhsIdx (ix3 b p q) ((ValueIdx.contrEquiv1 dot_S2x512x256_S256x256_S2x512x256_2_1_01_0_n_n 256 rfl rfl).symm k) = ix2 q k := funext fun a => Fin.ext (by
    match a with
    | ⟨0, _⟩ => exact rhs_main_v121_0 _ _
    | ⟨1, _⟩ => exact (rhs_main_v121_1 _ _).trans hk)
  rw [el, er]

/-- The bias row broadcast along the two leading axes, at `(b, p, q)`. -/
theorem bias_apply (x6 : FVec Ideal S256 .f32) (b : Fin 2) (p : Fin 512) (q : Fin 256) :
    broadcastInDim S2x512x256 ![0, 1, 2] bcast_S1x1x256_S2x512x256_0_1_2
      (broadcastInDim S1x1x256 ![2] bcast_S256_S1x1x256_2 x6) (ix3 b p q) = x6 (ix1 q) := by
  rw [broadcastInDim_apply _ bcast_S1x1x256_S2x512x256_0_1_2 _ (ix3 b p q) (ix3 (0 : Fin 1) (0 : Fin 1) q) (fun a => match a with
    | ⟨0, _⟩ => by show 0 = if (1 : Nat) = 1 then 0 else b.val; rw [if_pos rfl]
    | ⟨1, _⟩ => by show 0 = if (1 : Nat) = 1 then 0 else p.val; rw [if_pos rfl]
    | ⟨2, _⟩ => by show q.val = if (256 : Nat) = 1 then 0 else q.val; rw [if_neg (by decide)])]
  exact broadcastInDim_apply _ bcast_S256_S1x1x256_2 x6 (ix3 (0 : Fin 1) (0 : Fin 1) q) (ix1 q) (fun a => match a with
    | ⟨0, _⟩ => by show q.val = if (256 : Nat) = 1 then 0 else q.val; rw [if_neg (by decide)])

/-- The composite at the index `(b, p, q)`. -/
theorem outOf_apply (x0 : FVec Ideal S2x512x30000 .f32)
    (h0 h1 : FVec Ideal S30000x256 .f32)
    (x5 : FVec Ideal S256x256 .f32)
    (x6 : FVec Ideal S256 .f32) (b : Fin 2) (p : Fin 512) (q : Fin 256) :
    outOf x0 h0 h1 x5 x6 (ix3 b p q)
      = (∑ h : Fin 256, ((∑ v : Fin 30000, x0 (ix3 b p v) * h0 (ix2 v h))
            + (∑ v : Fin 30000, x0 (ix3 b p v) * h1 (ix2 v h))) * x5 (ix2 q h)) + x6 (ix1 q) := by
  unfold outOf
  rw [addf_apply, bias_apply, dot_cols_apply]
  refine congrArg (· + x6 (ix1 q)) (Finset.sum_congr rfl fun h _ => ?_)
  rw [addf_apply, dot_rows_apply, dot_rows_apply]

/-- The reference's result stage at the index `(b, p, q)`, its two table stages kept as they are. -/
theorem val_main_v124_apply_ix3
    (x0 : FVec Ideal S2x512x30000 .f32) (x1 : FVec Ideal S30000x256 .f32)
    (x2 : FVec Ideal S4x128 .f32) (x3 : FVec Ideal S30000x256 .f32)
    (x4 : FVec Ideal S4x128 .f32) (x5 : FVec Ideal S256x256 .f32)
    (x6 : FVec Ideal S256 .f32) (x7 x8 : FVec Ideal S480000 .f32)
    (x9 x10 x11 x12 : (⟨S480000, .i32⟩ : BufTy).Contents (Elt Ideal)) (b : Fin 2) (p : Fin 512) (q : Fin 256) :
    val_main_v124 (F := Ideal) x0 x1 x2 x3 x4 x5 x6 x7 x8 x9 x10 x11 x12 (ix3 b p q)
      = (∑ h : Fin 256, ((∑ v : Fin 30000, x0 (ix3 b p v) * val_main_v58 (F := Ideal) x1 x2 x7 x9 x10 (ix2 v h))
            + (∑ v : Fin 30000, x0 (ix3 b p v) * val_main_v117 (F := Ideal) x3 x4 x8 x11 x12 (ix2 v h))) * x5 (ix2 q h))
          + x6 (ix1 q) := by
  rw [val_main_v124_eq_outOf, outOf_apply]

end RefOut

end
-- ==== Proof.FinalContraction.lean ====
/-
  The two arrangements of the last contraction meet.

  The kernel multiplies a row of the input `X` into the projected table
    `Hc[v,q] = ∑ h, (H0[v,h] + H1[v,h]) * W[q,h]`
  over the 30000 rows `v` and adds the bias; the reference contracts `X` against `H0` and against `H1`
  first, adds, contracts against `W`, and adds the bias.  For real entries the two are one double sum.
-/
import proofs.«128036_j12876311953624_2_alg».proof.Proof.Contraction
import proofs.«128036_j12876311953624_2_alg».proof.Proof.RefOut
import proofs.«128036_j12876311953624_2_alg».proof.Proof.KernelHc

noncomputable section

namespace FinalContraction

open Idealize.ShloMosaic Idealize.ShloMosaic.ValueIdx

open scoped BigOperators

variable [Cert.KernelIdeal.Facts]

/-- A row of `X` against the kernel's projected table, plus the bias, is the reference's composite of its last
operations at the same index, when `X`, the two tables and the projection matrix have real entries. -/
theorem sum_mul_hcOf_add_bias_eq_outOf
    (X : FVec Ideal (⟨3, ![2, 512, 30000]⟩ : Shape) .f32) (h0 h1 : FVec Ideal (⟨2, ![30000, 256]⟩ : Shape) .f32)
    (fcw : FVec Ideal (⟨2, ![256, 256]⟩ : Shape) .f32) (fcb : FVec Ideal (⟨1, ![256]⟩ : Shape) .f32)
    (hX : LibReal.AllReal X) (hh0 : LibReal.AllReal h0) (hh1 : LibReal.AllReal h1) (hw : LibReal.AllReal fcw)
    (b : Fin 2) (p : Fin 512) (q : Fin 256) :
    (∑ v : Fin 30000, X (ix3 b p v) * KernelHc.hcOf h0 h1 fcw (ix2 v q)) + fcb (ix1 q)
      = RefOut.outOf X h0 h1 fcw fcb (ix3 b p q) := by
  rw [RefOut.outOf_apply]
  have e : ∀ v : Fin 30000, KernelHc.hcOf h0 h1 fcw (ix2 v q)
      = ∑ h : Fin 256, (h0 (ix2 v h) + h1 (ix2 v h)) * fcw (ix2 q h) := fun v => KernelHc.hcOf_apply h0 h1 fcw v q
  rw [Finset.sum_congr rfl fun v _ => congrArg (X (ix3 b p v) * ·) (e v)]
  exact Contraction.sum_mul_sum_add_mul_add_bias (fun v : Fin 30000 => X (ix3 b p v))
    (fun (v : Fin 30000) (h : Fin 256) => h0 (ix2 v h)) (fun (v : Fin 30000) (h : Fin 256) => h1 (ix2 v h))
    (fun h : Fin 256 => fcw (ix2 q h)) (fcb (ix1 q))
    (fun v => hX _) (fun v h => hh0 _) (fun v h => hh1 _) (fun h => hw _)

end FinalContraction

end
-- ==== Proof.InputsReal.lean ====
/-
  From the precondition to real entries.

  The precondition is the conjunction, over the nine float arguments, of `all (|x| < +∞)`, and it is stated
  as "the result is the bit 1".  Read backwards: a conjunction of bits that is 1 has every conjunct 1; an
  `all` (a reduction by `and` over every axis, from the bit 1) that is 1 met only 1s; and an entry whose
  comparison `|x| < +∞` answers 1 is neither infinity — on the extended reals, where `|x|` is
  `max x (-x)` and the word `0x7F800000` denotes `⊤`, that leaves exactly the real numbers.
-/
import proofs.«128036_j12876311953624_2_alg».proof.Pre_finite_inputs
import proofs.«128036_j12876311953624_2_alg».proof.Proof.LibReal
import Idealize.ShloMosaic.Lib.ReduceAll
import Idealize.ShloMosaic.Lib.ValueIdx
import Idealize.ShloMosaic.PureOps.Ideal

noncomputable section

namespace InputsReal

open Idealize.ShloMosaic Cert.Pre_finite_inputs

/-- The shape with no axes has one index. -/
instance subsingleton_scalar_idx : Subsingleton S_.Idx := ⟨fun a b => funext fun d => d.elim0⟩

/-- An extended real whose absolute value `max x (-x)` lies below `⊤` is a real number. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry: if the comparison `|x| < +∞` answers the bit 1, the entry is a real number. -/
theorem exists_real_of_abs_olt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  refine exists_real_of_abs_lt_top x ?_
  by_contra hn
  simp [hn] at h

/-- One array: if `all (|x| < +∞)` answers the bit 1, every entry of `x` is a real number. -/
theorem allReal_of_all_abs_olt_inf {s : Shape} {axes : List (Fin s.rank)} (x : FVec Ideal s .f32)
    (bc : S_.BroadcastsInDim s (![] : Fin 0 → Fin s.rank)) (hr : s.ReducesTo axes S_) (hu : 0 < S_.numel)
    (j : S_.Idx)
    (h : Host.reduce IntOp.andi
          (cmpf .olt (Host.absf x) (broadcastInDim s ![] bc (constant (F := Ideal) S_ .f32 0x7F800000#32)))
          (constantI S_ 1 1#1) hr hu j = 1#1) :
    LibReal.AllReal x := fun i =>
  exists_real_of_abs_olt_inf (x i) (Host.reduce_andi_all _ _ hr hu j h i)

variable [Facts]

/-- Under the precondition every entry of each of the nine float arguments is a real number. -/
theorem allReal_of_finite_inputs
    (x0 : FVec Ideal S2x512x30000 .f32) (x1 : FVec Ideal S30000x256 .f32) (x2 : FVec Ideal S4x128 .f32)
    (x3 : FVec Ideal S30000x256 .f32) (x4 : FVec Ideal S4x128 .f32) (x5 : FVec Ideal S256x256 .f32)
    (x6 : FVec Ideal S256 .f32) (x7 x8 : FVec Ideal S480000 .f32) (x9 x10 x11 x12 : IVec S480000 32)
    (h : fn (F := Ideal) x0 x1 x2 x3 x4 x5 x6 x7 x8 x9 x10 x11 x12 = (fun _ => 1#1)) :
    LibReal.AllReal x0 ∧ LibReal.AllReal x1 ∧ LibReal.AllReal x2 ∧ LibReal.AllReal x3 ∧ LibReal.AllReal x4
      ∧ LibReal.AllReal x5 ∧ LibReal.AllReal x6 ∧ LibReal.AllReal x7 ∧ LibReal.AllReal x8 := by
  have h' := congrFun h ValueIdx.ix0
  dsimp only [fn, fn_part1, fn_part2] at h'
  obtain ⟨h', a8⟩ := IntOp.andi_eq_one.1 h'
  obtain ⟨h', a7⟩ := IntOp.andi_eq_one.1 h'
  obtain ⟨h', a6⟩ := IntOp.andi_eq_one.1 h'
  obtain ⟨h', a5⟩ := IntOp.andi_eq_one.1 h'
  obtain ⟨h', a4⟩ := IntOp.andi_eq_one.1 h'
  obtain ⟨h', a3⟩ := IntOp.andi_eq_one.1 h'
  obtain ⟨h', a2⟩ := IntOp.andi_eq_one.1 h'
  obtain ⟨a0, a1⟩ := IntOp.andi_eq_one.1 h'
  exact ⟨allReal_of_all_abs_olt_inf x0 _ _ _ _ a0, allReal_of_all_abs_olt_inf x1 _ _ _ _ a1,
    allReal_of_all_abs_olt_inf x2 _ _ _ _ a2, allReal_of_all_abs_olt_inf x3 _ _ _ _ a3,
    allReal_of_all_abs_olt_inf x4 _ _ _ _ a4, allReal_of_all_abs_olt_inf x5 _ _ _ _ a5,
    allReal_of_all_abs_olt_inf x6 _ _ _ _ a6, allReal_of_all_abs_olt_inf x7 _ _ _ _ a7,
    allReal_of_all_abs_olt_inf x8 _ _ _ _ a8⟩

end InputsReal

end
-- ==== Proof.AttKernelRun.lean ====
/-
  What the first program's host operations leave in the two attention tables.

  When the region is entered, the buffer of `%71` holds the attention table `attK` of the first adjacency's five argument
  arrays, and the buffer of `%143` holds the same function of the second adjacency's five: the host operations before the
  region are, one for one, the operations `attK` is written with, applied to the argument arrays as launched, and no later
  operation writes either buffer.
-/
import proofs.«128036_j12876311953624_2_alg».proof.Proof.Gen.KernelIdeal.Frame
import proofs.«128036_j12876311953624_2_alg».proof.Proof.AttScores
import Idealize.ShloMosaic.Lib.StableHlo.Run

noncomputable section

namespace Cert.AttKernelRun

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

-- the two sides are the same composition of some seventy operations, compared structurally: deep, not wide
set_option maxRecDepth 200000 in
set_option maxHeartbeats 4000000 in
/-- The first adjacency's table, as the region finds it. -/
theorem V_main_v71 (c : Dev nD) :
    (V (F := Ideal) m c main_v71 : (⟨S30000x256, .f32⟩ : BufTy).Contents (Elt Ideal))
      = Cert.AttScore.attK (m ((c : Thread nD τ).loc main_arg1)) (m ((c : Thread nD τ).loc main_arg2))
          (m ((c : Thread nD τ).loc main_arg7)) (m ((c : Thread nD τ).loc main_arg9)) (m ((c : Thread nD τ).loc main_arg10)) := by
  dsimp only [V]
  simp only [hostOps0, hostOps0_1, hostOps0_2, hostOps0_3, hostOps0_4, List.flatten_cons, List.flatten_nil, List.append_nil,
    List.cons_append, List.nil_append]
  after_results_simp
  rfl

set_option maxRecDepth 200000 in
set_option maxHeartbeats 4000000 in
/-- The second adjacency's table, as the region finds it. -/
theorem V_main_v143 (c : Dev nD) :
    (V (F := Ideal) m c main_v143 : (⟨S30000x256, .f32⟩ : BufTy).Contents (Elt Ideal))
      = Cert.AttScore.attK (m ((c : Thread nD τ).loc main_arg3)) (m ((c : Thread nD τ).loc main_arg4))
          (m ((c : Thread nD τ).loc main_arg8)) (m ((c : Thread nD τ).loc main_arg11)) (m ((c : Thread nD τ).loc main_arg12)) := by
  dsimp only [V]
  simp only [hostOps0, hostOps0_1, hostOps0_2, hostOps0_3, hostOps0_4, List.flatten_cons, List.flatten_nil, List.append_nil,
    List.cons_append, List.nil_append]
  after_results_simp
  rfl

end Cert.AttKernelRun

end
-- ==== Proof.KIFinal.lean ====
/-
  The result array after the run, in closed form.

  The result window's blocks are whole batch rows: block `b` is the 512 × 256 slab `out[b, :, :]`, and it is
  written back at the last point of batch row `b`'s eight accumulation steps, the point `8·b + 7`.  Two points
  write back, their two slabs tile the array, so the array ends holding, index by index, what the point of
  its batch row stored: if that is the row of `A0` against the table `A1` summed over all 30000 rows, plus the
  bias row `A2`, then the array is that function `G` of `A0`, `A1`, `A2` everywhere.
-/
import proofs.«128036_j12876311953624_2_alg».proof.Proof.KIValueFrame
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)
open scoped BigOperators

/-- The result as one function of three arrays: at `(b, p, q)` the row `A0[b,p,:]` against the column `A1[:,q]`,
plus `A2[0,q]`. -/
def G (A0 : S2x512x30000.Idx → EReal) (A1 : S30000x256.Idx → EReal) (A2 : S1x256.Idx → EReal) : S2x512x256.Idx → EReal :=
  fun i => (∑ v : Fin 30000, A0 (ix3 (⟨(i 0).val, (i 0).isLt⟩ : Fin 2) (⟨(i 1).val, (i 1).isLt⟩ : Fin 512) v)
      * A1 (ix2 v (⟨(i 2).val, (i 2).isLt⟩ : Fin 256))) + A2 (ix2 (0 : Fin 1) (⟨(i 2).val, (i 2).isLt⟩ : Fin 256))

/-- The result window's index map, decided over the grid: point `t` addresses the batch row `t / 8`, whole. -/
theorem idx_facts3 : ∀ t : Fin cfg0.N, win0_3.index t (0 : Fin 3) = t.val / 8 ∧ win0_3.index t (1 : Fin 3) = 0
    ∧ win0_3.index t (2 : Fin 3) = 0 :=
  (by decide +kernel : ∀ t : Fin grid0.N, _)

variable (m : (ℓ : Loc nD τ sig) → Buf (Elt Ideal) ℓ)

/-- What a point that writes back writes is its block of `G`, given that the stored block is the full contraction
plus the bias at every point `≡ 7 (mod 8)`. -/
theorem flushed3_eq (A0 : S2x512x30000.Idx → EReal) (A1 : S30000x256.Idx → EReal) (A2 : S1x256.Idx → EReal) (c : Dev nD)
    (hout : ∀ (t : Fin cfg0.N) (h7 : t.val % 8 = 7) (p : Fin 512) (q : Fin 256),
      outAt m c t (ix3 (0 : Fin 1) p q)
        = (∑ v : Fin 30000, A0 (ix3 (⟨t.val / 8, by have := t.isLt; have := N16; omega⟩ : Fin 2) p v) * A1 (ix2 v q))
          + A2 (ix2 (0 : Fin 1) q))
    (t : Fin cfg0.N) (hf : (cfg0.win 3).flush t = true) :
    (dats m 0 c).flushed 3 t = ((cfg0.win 3).blk t).view.read (Elt Ideal) (G A0 A1 A2) := by
  show (cfg0.win 3).cut (grid0.coords t) ((dats m 0 c).after 3 t) = _
  rw [after_3]
  funext j
  have h7 : t.val % 8 = 7 := (flush0_3 t).mp hf
  obtain ⟨e0, e1, e2⟩ := idx_facts3 t
  have hj0 : (j 0).val < 1 := (j 0).isLt
  have hj1 : (j 1).val < 512 := (j 1).isLt
  have hj2 : (j 2).val < 256 := (j 2).isLt
  have hx : (cfg0.win 3).xinj (grid0.coords t) j = ix3 (0 : Fin 1) (⟨(j 1).val, hj1⟩ : Fin 512) (⟨(j 2).val, hj2⟩ : Fin 256) :=
    funext fun a => Fin.ext (by
      match a with
      | ⟨0, _⟩ => show (j 0).val = 0; omega
      | ⟨1, _⟩ => rfl
      | ⟨2, _⟩ => rfl)
  have hi : ((cfg0.win 3).blk t).view.emb j
      = ix3 (⟨t.val / 8, by have := t.isLt; have := N16; omega⟩ : Fin 2) (⟨(j 1).val, hj1⟩ : Fin 512) (⟨(j 2).val, hj2⟩ : Fin 256) :=
    funext fun a => Fin.ext (by
      match a with
      | ⟨0, _⟩ => show win0_3.index t (0 : Fin 3) * 1 + 1 * (j 0).val = t.val / 8; omega
      | ⟨1, _⟩ => show win0_3.index t (1 : Fin 3) * 512 + 1 * (j 1).val = (j 1).val; omega
      | ⟨2, _⟩ => show win0_3.index t (2 : Fin 3) * 256 + 1 * (j 2).val = (j 2).val; omega)
  show outAt m c t ((cfg0.win 3).xinj (grid0.coords t) j) = G A0 A1 A2 (((cfg0.win 3).blk t).view.emb j)
  rw [hx, hi, hout t h7]
  rfl

/-- An index of the result array is in point `t`'s block iff each coordinate is in the block's range on its axis. -/
theorem mem_blk3 (t : Fin cfg0.N) (i : S2x512x256.Idx) :
    i ∈ ((cfg0.win 3).blk t).view.set ↔ ∀ a : Fin 3, win0_3.index t a * S1x512x256.size a ≤ (i a).val
      ∧ (i a).val < win0_3.index t a * S1x512x256.size a + S1x512x256.size a := by
  show i ∈ ((View.whole main_v149).slice (win0_3.rect t)).set ↔ _
  rw [View.set_slice_whole, Rect.mem_set_unit]
  exact Iff.rfl

/-- Every index of the result array is in the block of a point that writes back: the last point of its batch row. -/
theorem cover3 (i : S2x512x256.Idx) : ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 256 := (i 2).isLt
  have hlt : 8 * (i 0).val + 7 < cfg0.N := by rw [N16]; omega
  obtain ⟨t, ht⟩ : ∃ t : Fin cfg0.N, t.val = 8 * (i 0).val + 7 := ⟨⟨8 * (i 0).val + 7, hlt⟩, rfl⟩
  refine ⟨t, (flush0_3 t).mpr (by omega), ?_⟩
  rw [mem_blk3]
  obtain ⟨e0, e1, e2⟩ := idx_facts3 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- The result array after the run. -/
theorem final (A0 : S2x512x30000.Idx → EReal) (A1 : S30000x256.Idx → EReal) (A2 : S1x256.Idx → EReal) (c : Dev nD)
    (hout : ∀ (t : Fin cfg0.N) (h7 : t.val % 8 = 7) (p : Fin 512) (q : Fin 256),
      outAt m c t (ix3 (0 : Fin 1) p q)
        = (∑ v : Fin 30000, A0 (ix3 (⟨t.val / 8, by have := t.isLt; have := N16; omega⟩ : Fin 2) p v) * A1 (ix2 v q))
          + A2 (ix2 (0 : Fin 1) q)) :
    (dats m 0 c).arrAt 3 cfg0.N = G A0 A1 A2 :=
  (dats m 0 c).arrAt_eq_of_cover 3 (G A0 A1 A2) (fun t hf => flushed3_eq m A0 A1 A2 c hout t hf) cover3

end Cert.KernelIdeal.Final

end
-- ==== Proof.KITailValue.lean ====
/-
  The accumulator at the last tile of a batch row, as the contraction over all 30000 columns.

  Point `t = 8·b + k`: the `X` tile staged there is `X[b]`'s rows at columns `4096·k + j`, the `Hc` tile is `Hc`'s rows
  `4096·k + j`, wherever those exist (`tile0_eq`, `tile1_eq`: an entry of a block sits in the array at block index
  times block size plus its coordinate in the block, on every axis). So the accumulator after point `8·b + k` is the
  running sum over tiles `0 … k` of `∑ X[b, p, v] · Hc[v, q]` (`acc_at`), after `8·b + 7` the sum over all columns
  (`acc_at_last`), and the block stored there adds the bias row (`out_at_last`).
-/
import proofs.«128036_j12876311953624_2_alg».proof.Proof.KITail

set_option maxRecDepth 16384

noncomputable section

open scoped BigOperators

namespace Cert.KernelIdeal.Tail

open Cert.KernelIdeal Cert.KernelIdeal.Gen Cert.KernelIdeal.Body
open Idealize.ShloMosaic Idealize.ShloMosaic.ValueIdx
open Idealize.ShloMosaic.Pipeline (Window)

/-! ## The grid's coordinates and the tiles' block indices -/

/-- Point `t` is batch row `t / 8`, tile `t % 8`. -/
theorem coords_eq : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The `X` tile's block index: the batch row, 0, the tile. -/
theorem index_0 : ∀ t : Fin cfg0.N, win0_0.index t 0 = (grid0.coords t 0).val ∧ win0_0.index t 1 = 0
    ∧ win0_0.index t 2 = (grid0.coords t 1).val :=
  (by decide +kernel : ∀ t : Fin grid0.N, win0_0.index t 0 = (grid0.coords t 0).val ∧ win0_0.index t 1 = 0
    ∧ win0_0.index t 2 = (grid0.coords t 1).val)

/-- The `Hc` tile's block index: the tile, 0. -/
theorem index_1 : ∀ t : Fin cfg0.N, win0_1.index t 0 = (grid0.coords t 1).val ∧ win0_1.index t 1 = 0 :=
  (by decide +kernel : ∀ t : Fin grid0.N, win0_1.index t 0 = (grid0.coords t 1).val ∧ win0_1.index t 1 = 0)

/-- The bias row's block index is 0 on both axes at every point. -/
theorem index_2 : ∀ t : Fin cfg0.N, win0_2.index t 0 = 0 ∧ win0_2.index t 1 = 0 :=
  (by decide +kernel : ∀ t : Fin grid0.N, win0_2.index t 0 = 0 ∧ win0_2.index t 1 = 0)

/-- Where the transfer moves an entry, the staged block holds the fetched block's entry at the same coordinates. -/
theorem fill_of_moved {α : Type} (w : Window sig grid0) (i : grid0.Coords) (d : w.block.Idx → α)
    (g : (w.xblock i).Idx → α) (j : w.block.Idx) (h : w.moved i j = true) :
    w.fill i d g j = g fun a => ⟨(j a).val, (w.moved_iff i j).mp h a⟩ := by
  unfold Window.fill
  rw [dif_pos h]

variable (m : (ℓ : Loc nD τ sig) → Buf (Elt Ideal) ℓ)

/-! ## The three arrays as the region finds them -/

/-- `X`, as the region finds it. -/
def Xarr (c : Dev nD) : S2x512x30000.Idx → EReal := V m c (Pipeline.arrRef spec0 0)
/-- `Hc`, as the region finds it (the host operations before the region have computed it). -/
def Harr (c : Dev nD) : S30000x256.Idx → EReal := V m c (Pipeline.arrRef spec0 1)
/-- The bias row, as the region finds it. -/
def Barr (c : Dev nD) : S1x256.Idx → EReal := V m c (Pipeline.arrRef spec0 2)

theorem Xarr_def (c : Dev nD) : Xarr m c = V m c (Pipeline.arrRef spec0 0) := rfl
theorem Harr_def (c : Dev nD) : Harr m c = V m c (Pipeline.arrRef spec0 1) := rfl
theorem Barr_def (c : Dev nD) : Barr m c = V m c (Pipeline.arrRef spec0 2) := rfl

/-! ## The tiles are the arrays' blocks -/

/-- The `X` tile at point `t`, batch row `b`: entry `(0, p, j)` is `X[b, p, 4096·k + j]` when that column exists. -/
theorem tile0_eq (c : Dev nD) (t : Fin cfg0.N) (b : Fin 2) (hb : (grid0.coords t 0).val = b.val) (p : Fin 512) (j : Fin 4096)
    (h : 4096 * (grid0.coords t 1).val + j.val < 30000) :
    fblk m c 0 t (ix3 (0 : Fin 1) p j)
      = Xarr m c (ix3 b p (⟨4096 * (grid0.coords t 1).val + j.val, h⟩ : Fin 30000)) := by
  obtain ⟨i0, i1, i2⟩ := index_0 t
  refine (fill_of_moved win0_0 (grid0.coords t) _ (iblk m c 0 t) (ix3 (0 : Fin 1) p j) (moved_0 t p j h)).trans ?_
  show Xarr m c ((win0_0.blk t).view.emb fun a => ⟨(ix3 (0 : Fin 1) p j a).val, _⟩) = _
  refine congrArg (Xarr m c) (funext fun a => Fin.ext ?_)
  match a with
  | ⟨0, _⟩ => show win0_0.index t 0 * 1 + 1 * (0 : ℕ) = b.val; omega
  | ⟨1, _⟩ => show win0_0.index t 1 * 512 + 1 * p.val = p.val; omega
  | ⟨2, _⟩ => show win0_0.index t 2 * 4096 + 1 * j.val = 4096 * (grid0.coords t 1).val + j.val; omega

/-- The `Hc` tile at point `t`: entry `(j, q)` is `Hc[4096·k + j, q]` when that row exists. -/
theorem tile1_eq (c : Dev nD) (t : Fin cfg0.N) (j : Fin 4096) (q : Fin 256)
    (h : 4096 * (grid0.coords t 1).val + j.val < 30000) :
    fblk m c 1 t (ix2 j q)
      = Harr m c (ix2 (⟨4096 * (grid0.coords t 1).val + j.val, h⟩ : Fin 30000) q) := by
  obtain ⟨i0, i1⟩ := index_1 t
  refine (fill_of_moved win0_1 (grid0.coords t) _ (iblk m c 1 t) (ix2 j q) (moved_1 t j q h)).trans ?_
  show Harr m c ((win0_1.blk t).view.emb fun a => ⟨(ix2 j q a).val, _⟩) = _
  refine congrArg (Harr m c) (funext fun a => Fin.ext ?_)
  match a with
  | ⟨0, _⟩ => show win0_1.index t 0 * 4096 + 1 * j.val = 4096 * (grid0.coords t 1).val + j.val; omega
  | ⟨1, _⟩ => show win0_1.index t 1 * 256 + 1 * q.val = q.val; omega

/-- The bias row's block at any point is the whole row. -/
theorem bias_eq (c : Dev nD) (t : Fin cfg0.N) (q : Fin 256) :
    iblk m c 2 t (ix2 (0 : Fin 1) q) = Barr m c (ix2 (0 : Fin 1) q) := by
  obtain ⟨i0, i1⟩ := index_2 t
  show Barr m c ((win0_2.blk t).view.emb (ix2 (0 : Fin 1) q)) = _
  refine congrArg (Barr m c) (funext fun a => Fin.ext ?_)
  match a with
  | ⟨0, _⟩ => show win0_2.index t 0 * 1 + 1 * (0 : ℕ) = 0; omega
  | ⟨1, _⟩ => show win0_2.index t 1 * 256 + 1 * q.val = q.val; omega

/-! ## The accumulator -/

/-- One accumulation step at point `t` (batch row `b`, tile `k`): from the running sum after `k` tiles to the running
    sum after `k + 1`. -/
theorem acc_step (c : Dev nD) (t : Fin cfg0.N) (b : Fin 2) (hb : (grid0.coords t 0).val = b.val) (p : Fin 512) (q : Fin 256)
    (a : FVec Ideal S512x256 .f32)
    (ha : a (ix2 p q)
      = AccValue.upTo (fun v : Fin 30000 => Xarr m c (ix3 b p v) * Harr m c (ix2 v q)) (grid0.coords t 1).val) :
    k0_pay2 (F := Ideal) (grid0.coords t) (fblk m c 0 t) (fblk m c 1 t) a (ix2 p q)
      = AccValue.upTo (fun v : Fin 30000 => Xarr m c (ix3 b p v) * Harr m c (ix2 v q)) ((grid0.coords t 1).val + 1) :=
  (AccValue.step_apply (grid0.coords t) (fblk m c 0 t) (fblk m c 1 t) a p q).trans
    (AccValue.upTo_step (grid0.coords t 1).val b p q (Xarr m c) (Harr m c) (fblk m c 0 t) (fblk m c 1 t)
      (fun j h => tile0_eq m c t b hb p j h) (fun j h => tile1_eq m c t j q h) (a (ix2 p q)) ha)

/-- THE ACCUMULATOR after point `n = 8·b + k`, entry `(p, q)`: the running sum of `X[b, p, v] · Hc[v, q]` over the
    tiles `0 … k`. -/
theorem acc_at (c : Dev nD) (b : Fin 2) (p : Fin 512) (q : Fin 256) :
    ∀ (k n : ℕ) (hn : n < cfg0.N), k < 8 → n = 8 * b.val + k →
      accAt m c n hn (ix2 p q)
        = AccValue.upTo (fun v : Fin 30000 => Xarr m c (ix3 b p v) * Harr m c (ix2 v q)) (k + 1) := by
  intro k
  induction k with
  | zero =>
    intro n hn _ hnb
    have hc := coords_eq ⟨n, hn⟩
    have hv : (⟨n, hn⟩ : Fin cfg0.N).val = n := rfl
    have h0 : (⟨n, hn⟩ : Fin cfg0.N).val % 8 = 0 := by omega
    have hk : (grid0.coords ⟨n, hn⟩ 1).val = 0 := by omega
    have hb : (grid0.coords ⟨n, hn⟩ 0).val = b.val := by omega
    refine (congrFun (accAt_reset m c ⟨n, hn⟩ h0) (ix2 p q)).trans ?_
    refine (acc_step m c ⟨n, hn⟩ b hb p q (k0_pay1 (F := Ideal)) ?_).trans (by rw [hk])
    rw [AccValue.zero_block_apply, hk, AccValue.upTo_zero]
  | succ k ih =>
    intro n hn hk8 hnb
    have hc := coords_eq ⟨n, hn⟩
    have hv : (⟨n, hn⟩ : Fin cfg0.N).val = n := rfl
    have h0 : ¬(⟨n, hn⟩ : Fin cfg0.N).val % 8 = 0 := by omega
    have hk : (grid0.coords ⟨n, hn⟩ 1).val = k + 1 := by omega
    have hb : (grid0.coords ⟨n, hn⟩ 0).val = b.val := by omega
    refine (congrFun (accAt_step m c ⟨n, hn⟩ h0) (ix2 p q)).trans ?_
    refine (acc_step m c ⟨n, hn⟩ b hb p q _ ?_).trans (by rw [hk])
    rw [hk]
    exact ih (n - 1) _ (by omega) (by omega)

/-- After the last tile of batch row `b` (point `8·b + 7`) the accumulator holds the contraction over all 30000
    columns. -/
theorem acc_at_last (c : Dev nD) (b : Fin 2) (t : Fin cfg0.N) (ht : t.val = 8 * b.val + 7) (p : Fin 512) (q : Fin 256) :
    accAt m c t.val t.isLt (ix2 p q) = ∑ v : Fin 30000, Xarr m c (ix3 b p v) * Harr m c (ix2 v q) :=
  (acc_at m c b p q 7 t.val t.isLt (by omega) ht).trans (AccValue.upTo_eight _)

/-- The block stored at point `8·b + 7`: that contraction plus the bias row. -/
theorem out_at_last (c : Dev nD) (b : Fin 2) (t : Fin cfg0.N) (ht : t.val = 8 * b.val + 7) (p : Fin 512) (q : Fin 256) :
    outAt m c t (ix3 (0 : Fin 1) p q)
      = (∑ v : Fin 30000, Xarr m c (ix3 b p v) * Harr m c (ix2 v q)) + Barr m c (ix2 (0 : Fin 1) q) := by
  unfold outAt
  refine (AccValue.bias_apply (accAt m c t.val t.isLt) (iblk m c 2 t) p q).trans ?_
  rw [acc_at_last m c b t ht p q, bias_eq m c t q]

/-- The same at any point `t` with `t % 8 = 7`, the batch row written `t / 8`. -/
theorem out_at_mod (c : Dev nD) (t : Fin cfg0.N) (h7 : t.val % 8 = 7) (p : Fin 512) (q : Fin 256) :
    outAt m c t (ix3 (0 : Fin 1) p q)
      = (∑ v : Fin 30000, Xarr m c (ix3 (⟨t.val / 8, by have := t.isLt; have := N16; omega⟩ : Fin 2) p v) * Harr m c (ix2 v q))
        + Barr m c (ix2 (0 : Fin 1) q) :=
  out_at_last m c ⟨t.val / 8, by have := t.isLt; have := N16; omega⟩ t (by show t.val = 8 * (t.val / 8) + 7; omega) p q

end Cert.KernelIdeal.Tail

end
-- ==== Proof.Bridge.lean ====
/-
  The result array of the idealized kernel is the reference's result as a function of the arguments. The matmul region
  leaves Σ_v X[b,p,v]·Hc[v,q] + bias[q] (the eight K-tiles cover the 30000 columns once; the masked tail adds zeros);
  Hc is (H0 + H1)·Wᵀ of the two attention tables, which equal the reference's tables (the score is the same finite sum,
  split) and have real entries; on reals Σ_v X·(Σ_h (H0+H1)·W) = Σ_h (Σ_v X·H0 + Σ_v X·H1)·W.
-/
import proofs.«128036_j12876311953624_2_alg».proof.Proof.KIRunValue
import proofs.«128036_j12876311953624_2_alg».proof.Proof.KernelHost
import proofs.«128036_j12876311953624_2_alg».proof.Proof.AttScores
import proofs.«128036_j12876311953624_2_alg».proof.Proof.AttReal
import proofs.«128036_j12876311953624_2_alg».proof.Proof.FinalContraction
import proofs.«128036_j12876311953624_2_alg».proof.Proof.InputsReal
import proofs.«128036_j12876311953624_2_alg».proof.Proof.RefOut
import proofs.«128036_j12876311953624_2_alg».proof.Proof.AttKernelRun
import proofs.«128036_j12876311953624_2_alg».proof.Proof.KIFinal
import proofs.«128036_j12876311953624_2_alg».proof.Proof.KITailValue

set_option maxRecDepth 16384

noncomputable section

namespace Cert.Bridge

open Cert.KernelIdeal Cert.KernelIdeal.Gen Cert.KernelIdeal.Body
open Idealize.ShloMosaic Idealize.ShloMosaic.TcCoe Idealize.ShloMosaic.ValueIdx Idealize.SL.Sem

variable [Cert.KernelIdeal.Facts] [Cert.ReferenceIdeal.Facts] [Cert.Pre_finite_inputs.Facts]
variable (m : (ℓ : Loc nD τ sig) → Buf (Elt Ideal) ℓ) (c : Dev nD)

/-- The reference's result as a function of the kernel program's argument arrays. -/
def refResult : S2x512x256.Idx → EReal :=
  RefOut.outOf (m ((c.tc : Thread nD τ).loc main_arg0))
    (Cert.ReferenceIdeal.Read.val_main_v58 (F := Ideal) (m ((c.tc : Thread nD τ).loc main_arg1)) (m ((c.tc : Thread nD τ).loc main_arg2)) (m ((c.tc : Thread nD τ).loc main_arg7)) (m ((c.tc : Thread nD τ).loc main_arg9)) (m ((c.tc : Thread nD τ).loc main_arg10)))
    (Cert.ReferenceIdeal.Read.val_main_v117 (F := Ideal) (m ((c.tc : Thread nD τ).loc main_arg3)) (m ((c.tc : Thread nD τ).loc main_arg4)) (m ((c.tc : Thread nD τ).loc main_arg8)) (m ((c.tc : Thread nD τ).loc main_arg11)) (m ((c.tc : Thread nD τ).loc main_arg12)))
    (m ((c.tc : Thread nD τ).loc main_arg5)) (m ((c.tc : Thread nD τ).loc main_arg6))

theorem result_eq
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = (fun _ => 1#1))
    (T0 T1 : S30000x256.Idx → EReal)
    (h71 : T0 = V m c main_v71) (h71' : T0 = Cert.AttScore.attK (m ((c.tc : Thread nD τ).loc main_arg1)) (m ((c.tc : Thread nD τ).loc main_arg2)) (m ((c.tc : Thread nD τ).loc main_arg7)) (m ((c.tc : Thread nD τ).loc main_arg9)) (m ((c.tc : Thread nD τ).loc main_arg10)))
    (h143 : T1 = V m c main_v143) (h143' : T1 = Cert.AttScore.attK (m ((c.tc : Thread nD τ).loc main_arg3)) (m ((c.tc : Thread nD τ).loc main_arg4)) (m ((c.tc : Thread nD τ).loc main_arg8)) (m ((c.tc : Thread nD τ).loc main_arg11)) (m ((c.tc : Thread nD τ).loc main_arg12)))
    (A0 : S2x512x30000.Idx → EReal) (A1 : S30000x256.Idx → EReal) (A2 : S1x256.Idx → EReal)
    (hA0 : A0 = V m c main_arg0) (hA1 : A1 = V m c main_v147) (hA2 : A2 = V m c main_v148)
    (hfinal : ∀ (b : Fin 2) (p : Fin 512) (q : Fin 256), (dats m 0 c).arrAt 3 cfg0.N (ix3 b p q)
        = (∑ v : Fin 30000, A0 (ix3 b p v) * A1 (ix2 v q)) + A2 (ix2 (0 : Fin 1) q)) :
    (dats m 0 c).arrAt 3 cfg0.N = refResult m c := by
  obtain ⟨hX, hW0, ha0, hW1, ha1, hw, hb, hv0, hv1⟩ := InputsReal.allReal_of_finite_inputs _ _ _ _ _ _ _ _ _ _ _ _ _ hpre
  have e0 : A0 = (m ((c.tc : Thread nD τ).loc main_arg0)) := hA0.trans (V_main_arg0 m c)
  have e1 : A1 = KernelHc.hcOf (Cert.ReferenceIdeal.Read.val_main_v58 (F := Ideal) (m ((c.tc : Thread nD τ).loc main_arg1)) (m ((c.tc : Thread nD τ).loc main_arg2)) (m ((c.tc : Thread nD τ).loc main_arg7)) (m ((c.tc : Thread nD τ).loc main_arg9)) (m ((c.tc : Thread nD τ).loc main_arg10)))
      (Cert.ReferenceIdeal.Read.val_main_v117 (F := Ideal) (m ((c.tc : Thread nD τ).loc main_arg3)) (m ((c.tc : Thread nD τ).loc main_arg4)) (m ((c.tc : Thread nD τ).loc main_arg8)) (m ((c.tc : Thread nD τ).loc main_arg11)) (m ((c.tc : Thread nD τ).loc main_arg12))) (m ((c.tc : Thread nD τ).loc main_arg5)) := by
    rw [hA1, Cert.KernelIdeal.Host.V_main_v147 m c, ← h71, ← h143, h71', h143', Cert.AttScore.att_eq, Cert.AttScore.att_eq_second]
  have e2 : A2 = shapeCast S1x256 (m ((c.tc : Thread nD τ).loc main_arg6)) shapeCasts_S256_S1x256 := hA2.trans (Cert.KernelIdeal.Host.V_main_v148 m c)
  funext i
  obtain ⟨b, p, q, rfl⟩ : ∃ (b : Fin 2) (p : Fin 512) (q : Fin 256), i = ix3 b p q := ⟨i 0, i 1, i 2, eq_ix3 i⟩
  rw [hfinal b p q, e0, e1, e2, KernelHc.biasRow_apply]
  exact FinalContraction.sum_mul_hcOf_add_bias_eq_outOf _ _ _ _ _ hX
    (Cert.AttReal.att_real _ _ _ _ _ hW0 ha0 hv0) (Cert.AttReal.att_real_second _ _ _ _ _ hW1 ha1 hv1) hw b p q

/-- The idealized kernel's result array is the reference's result of the same arguments. -/
theorem result_eq'
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = (fun _ => 1#1)) :
    (dats m 0 c).arrAt 3 cfg0.N = refResult m c :=
  result_eq m c hpre (V m c main_v71) (V m c main_v143) rfl (Cert.AttKernelRun.V_main_v71 m c) rfl (Cert.AttKernelRun.V_main_v143 m c) (Cert.KernelIdeal.Tail.Xarr m c) (Cert.KernelIdeal.Tail.Harr m c) (Cert.KernelIdeal.Tail.Barr m c) rfl rfl rfl
    (fun b p q => congrFun (Cert.KernelIdeal.Final.final m (Cert.KernelIdeal.Tail.Xarr m c) (Cert.KernelIdeal.Tail.Harr m c)
      (Cert.KernelIdeal.Tail.Barr m c) c (fun t h7 p q => Cert.KernelIdeal.Tail.out_at_mod m c t h7 p q)) (ix3 b p q))

end Cert.Bridge

end
-- ==== Proof.lean ====
/-
  The certificate of a graph-attention layer followed by one dense contraction.

  Both programs build, on the host, two attention tables H0, H1 : [30000, 256] from an adjacency list each (a row gather,
  a segment sum, a leaky-relu score, a segment softmax, a weighted segment sum). The reference then computes
  (X·H0 + X·H1)·Wᵀ + b with three matrix products; the kernel computes Hc = (H0 + H1)·Wᵀ on the host and the one large
  product X·Hc + b in a tiled matmul kernel: a grid of 2 × 8 points (batch index, K-tile of 4096 columns of the 30000), an
  accumulator kept in scratch across the K-tiles, zeroed at the first and added to the bias row and stored at the last; the
  eighth tile overhangs the arrays and its tail is masked to zero inside the body.

  The two attention tables differ only in how the score is summed (one sum over 128 terms against two sums over 64), which
  is a rearrangement of a finite sum. The final contraction is the associativity and distributivity of finite sums of
  products, which holds on the extended reals when every entry is a real number: the inputs are (the precondition), and the
  attention tables are, because a segment sum of reals is real, an exponential of a real is a positive real and the softmax
  denominators are therefore positive reals.

  The frames: the word-level kernel's frame forgets what the result holds (bit for bit it depends on unnamed words past
  the arrays' ends); the idealized kernel's run names the accumulator at every point, which is a function of the arrays
  because zero times any extended real is zero; the reference's frame is its run with the result dropped.
-/
import proofs.«128036_j12876311953624_2_alg».proof.Defs
import proofs.«128036_j12876311953624_2_alg».proof.Proof.Gen.Kernel
import proofs.«128036_j12876311953624_2_alg».proof.Proof.Gen.KernelIdeal
import proofs.«128036_j12876311953624_2_alg».proof.Proof.Gen.ReferenceIdeal
import proofs.«128036_j12876311953624_2_alg».proof.Proof.Gen.Pre_finite_inputs
import proofs.«128036_j12876311953624_2_alg».proof.Proof.Gen.ReferenceIdeal.Run
import proofs.«128036_j12876311953624_2_alg».proof.Proof.KFrameForget
import proofs.«128036_j12876311953624_2_alg».proof.Proof.KIRunValue
import proofs.«128036_j12876311953624_2_alg».proof.Proof.Bridge
import proofs.«128036_j12876311953624_2_alg».proof.Proof.Gen.ReferenceIdeal.Read
import proofs.«128036_j12876311953624_2_alg».proof.Proof.RefOut
import Idealize.ShloMosaic.Adequacy
import Idealize.ShloMosaic.Init

noncomputable section

namespace Cert.Proof

open Idealize.ShloMosaic Idealize.SL.Sem

/-- The word-level kernel runs and leaves its arguments unchanged. -/
theorem frame_kernel [Cert.Kernel.Facts] [Cert.Pre_finite_inputs.Facts] : Cert.frame_Kernel :=
  fun m ρ _ => Cert.Kernel.Body.frame (F := Bits) m ρ

/-- The idealized kernel runs and leaves its arguments unchanged: its named run with the result dropped. -/
theorem frame_kernelIdeal [Cert.KernelIdeal.Facts] [Cert.Pre_finite_inputs.Facts] : Cert.frame_KernelIdeal :=
  fun m ρ _ => (θ_run Cert.KernelIdeal.defs _ _).mono (fun _ h c => (h c).2) (Cert.KernelIdeal.Body.run_named m ρ)

/-- The reference runs and leaves its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments both idealized programs end at the same result: the reference's result as a
    function of the arguments, which the kernel's result array equals. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.Bridge.refResult m c, ?_, ?_⟩
  · exact (θ_run Cert.KernelIdeal.defs _ _).mono
      (fun r h c => ⟨((h c).1).trans (Cert.Bridge.result_eq' m c (hpre c)), (h c).2⟩) (Cert.KernelIdeal.Body.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v124_eq, RefOut.val_main_v124_eq_outOf, (hagree c).1, (hagree c).2.1, (hagree c).2.2.1,
      (hagree c).2.2.2.1, (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
